-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x128 .f32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x256 : Shape := ⟨2, ![128, 256]⟩
abbrev S128x512 : Shape := ⟨2, ![128, 512]⟩
abbrev S512 : Shape := ⟨1, ![512]⟩
abbrev S1x512 : Shape := ⟨2, ![1, 512]⟩
abbrev S10000x256 : Shape := ⟨2, ![10000, 256]⟩
abbrev S2000x128 : Shape := ⟨2, ![2000, 128]⟩
abbrev S2000x256 : Shape := ⟨2, ![2000, 256]⟩
abbrev S2000x512 : Shape := ⟨2, ![2000, 512]⟩
abbrev S400x10000 : Shape := ⟨2, ![400, 10000]⟩
abbrev S400x256 : Shape := ⟨2, ![400, 256]⟩
abbrev S400x128 : Shape := ⟨2, ![400, 128]⟩

abbrev nBuf : Space → Nat
  | .hbm => 23
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x256, .f32⟩
  | .hbm, ⟨15, _⟩ => ⟨S128x512, .f32⟩
  | .hbm, ⟨16, _⟩ => ⟨S512, .f32⟩
  | .hbm, ⟨17, _⟩ => ⟨S1x512, .f32⟩
  | .hbm, ⟨18, _⟩ => ⟨S10000x256, .f32⟩
  | .hbm, ⟨19, _⟩ => ⟨S10000x256, .f32⟩
  | .hbm, ⟨20, _⟩ => ⟨S10000x256, .f32⟩
  | .hbm, ⟨21, _⟩ => ⟨S10000x256, .f32⟩
  | .hbm, ⟨22, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S128x512, .f32⟩
  | .local _ .vmem, ⟨4, _⟩ => ⟨S1x512, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S400x10000, .f32⟩
  | .local _ .vmem, ⟨12, _⟩ => ⟨S400x10000, .f32⟩
  | .local _ .vmem, ⟨13, _⟩ => ⟨S10000x256, .f32⟩
  | .local _ .vmem, ⟨14, _⟩ => ⟨S400x256, .f32⟩
  | .local _ .vmem, ⟨15, _⟩ => ⟨S400x256, .f32⟩
  | .local _ .vmem, ⟨16, _⟩ => ⟨S128x128, .f32⟩
  | .local _ .vmem, ⟨17, _⟩ => ⟨S128x128, .f32⟩
  | .local _ .vmem, ⟨18, _⟩ => ⟨S400x256, .f32⟩
  | .local _ .vmem, ⟨19, _⟩ => ⟨S400x256, .f32⟩
  | .local _ .vmem, ⟨20, _⟩ => ⟨S400x10000, .f32⟩
  | .local _ .vmem, ⟨21, _⟩ => ⟨S400x10000, .f32⟩
  | .local _ .vmem, ⟨22, _⟩ => ⟨S10000x256, .f32⟩
  | .local _ .vmem, ⟨23, _⟩ => ⟨S400x256, .f32⟩
  | .local _ .vmem, ⟨24, _⟩ => ⟨S400x256, .f32⟩
  | .local _ .vmem, ⟨25, _⟩ => ⟨S400x128, .f32⟩
  | .local _ .vmem, ⟨26, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v5 : Ref sig .tc := ⟨.hbm, 21, rfl⟩
abbrev main_v6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S128x128_S128x128_S128x256_d1 : Shape.Concatenates [S128x128, S128x128] S128x256 1
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x256 : S2000x512.Slices ![0, 0] S2000x256
  slices_S2000x512_o0_256_S2000x256 : S2000x512.Slices ![0, 256] S2000x256
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  shapeCasts_S400x256_S400x256 : S400x256.ShapeCasts S400x256
  slices_S400x256_o0_0_S400x128 : S400x256.Slices ![0, 0] S400x128
  inb_S128x128_S128x128_0_0 : ∀ a, (![0, 0] : Fin 2 → Nat) a + S128x128.size a ≤ S128x128.size a
  h_S128x128 : 0 < S128x128.numel
  slices_S400x256_o0_128_S400x128 : S400x256.Slices ![0, 128] S400x128
  concatenates_S400x128_S400x128_S400x256_d1 : Shape.Concatenates [S400x128, S400x128] S400x256 1
  inb_S400x128_S400x128_0_0 : ∀ a, (![0, 0] : Fin 2 → Nat) a + S400x128.size a ≤ S400x128.size a
  h_S400x128 : 0 < S400x128.numel
  dot_S2000x128_S128x256_S2000x256_1_0_0_1_n_n_wf : DotDims.WF S2000x128 S128x256 S2000x256 [1] [0] [0] [1] [] []
  dot_S2000x128_S128x512_S2000x512_1_0_0_1_n_n_wf : DotDims.WF S2000x128 S128x512 S2000x512 [1] [0] [0] [1] [] []
  dot_S400x10000_S10000x256_S400x256_1_0_0_1_n_n_wf : DotDims.WF S400x10000 S10000x256 S400x256 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S10000x256.size a
  hwx0_5 : ∀ i : grid0.Coords, EltTy.bits .f32 = 32 ∨ (Rect.block (s := S10000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S10000x256.size a
  hwx0_6 : ∀ i : grid0.Coords, EltTy.bits .f32 = 32 ∨ (Rect.block (s := S10000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x256.size a ≤ S10000x256.size a
  hwx1_5 : ∀ i : grid1.Coords, EltTy.bits .f32 = 32 ∨ (Rect.block (s := S10000x256) S400x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .f32 = 32 ∨ (Rect.block (s := S10000x256) S10000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x256.size a ≤ S10000x256.size a
  hwx2_2 : ∀ i : grid2.Coords, EltTy.bits .f32 = 32 ∨ (Rect.block (s := S10000x256) S400x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S400x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4_2) S400x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000x128x1 : Shape := ⟨3, ![10000, 128, 1]⟩
abbrev S10000x128x2 : Shape := ⟨3, ![10000, 128, 2]⟩

abbrev nBuf : Space → Nat
  | .hbm => 62
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S10000x128x1, .f32⟩
  | .hbm, ⟨55, _⟩ => ⟨S10000x128x1, .f32⟩
  | .hbm, ⟨56, _⟩ => ⟨S10000x128x2, .f32⟩
  | .hbm, ⟨57, _⟩ => ⟨S_, .f32⟩
  | .hbm, ⟨58, _⟩ => ⟨S10000x128, .f32⟩
  | .hbm, ⟨59, _⟩ => ⟨S_, .f32⟩
  | .hbm, ⟨60, _⟩ => ⟨S10000x128, .f32⟩
  | .hbm, ⟨61, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_cst : Ref sig .tc := ⟨.hbm, 21, rfl⟩
abbrev main_call0_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_cst : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call2_cst : Ref sig .tc := ⟨.hbm, 41, rfl⟩
abbrev main_call2_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call3_cst : Ref sig .tc := ⟨.hbm, 51, rfl⟩
abbrev main_call3_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_cst_0 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S10000x128_S10000x128x1_0_1 : S10000x128.BroadcastsInDim S10000x128x1 (![0, 1] : Fin 2 → Fin S10000x128x1.rank)
  concatenates_S10000x128x1_S10000x128x1_S10000x128x2_d2 : Shape.Concatenates [S10000x128x1, S10000x128x1] S10000x128x2 2
  reducesTo_S10000x128x2_S10000x128_d2 : S10000x128x2.ReducesTo [2] S10000x128
  h_S_ : 0 < S_.numel
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KPrologue.lean ====
/-
  The first call: the products that do not involve the filter matrix.

  At grid point t the body is handed 2000 rows of x, the 128 × 256 matrix [W | W'] of first-iteration weights, the
  128 × 512 matrix of all four skip weights, and the 1 × 512 bias row.  It stores three 2000 × 256 blocks, each whole:
  x·[W | W'];  columns 0 … 255 of x·[V₀ | V₀' | V₁ | V₁'] + bias;  and columns 256 … 511 of the same sum.

  As for the other calls: the proof data at any number format and at a parameter `V` (the buffer contents when the
  call is entered), the body's triple, and the obligation at a generic grid point.
-/
import proofs.«118575_g50105088475803_cont_8to1c4_614_2_alg».proof.Proof.Gen.Kernel.Launch
import proofs.«118575_g50105088475803_cont_8to1c4_614_2_alg».proof.Proof.Gen.Kernel.Skeleton
import proofs.«118575_g50105088475803_cont_8to1c4_614_2_alg».proof.Proof.Gen.Kernel.Points
import Idealize.ShloMosaic.Lib.Pipeline.FrameBody
import Idealize.ShloMosaic.Lib.Tactic

set_option maxRecDepth 16384

noncomputable section

namespace Cert.Kernel.Prologue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the call finds the array. -/
def blk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## An input's staging buffer holds its block at every point

The rows of x move with the point and are fetched every time; the two weight matrices and the bias row are one
block each, fetched once, their index never moving. -/

theorem foundX {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl)
    (fun t => by rw [hafter]; unfold Dat.blockOf blk; rw [hA]; try rfl) t d).trans
    (by unfold Dat.fetched Dat.blockOf blk; rw [hA]; try rfl)

theorem foundWc {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl)
    (fun t => by rw [hafter]; unfold Dat.blockOf blk; rw [hA]; try rfl) t d).trans
    (by unfold Dat.fetched Dat.blockOf blk; rw [hA]; try rfl)

theorem foundVc {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl)
    (fun t => by rw [hafter]; unfold Dat.blockOf blk; rw [hA]; try rfl) t d).trans
    (by unfold Dat.fetched Dat.blockOf blk; rw [hA]; try rfl)

theorem foundBr {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl)
    (fun t => by rw [hafter]; unfold Dat.blockOf blk; rw [hA]; try rfl) t d).trans
    (by unfold Dat.fetched Dat.blockOf blk; rw [hA]; try rfl)

/-! ## The body's accesses: each buffer through the rectangle that is all of it -/

abbrev rX : Rect S2000x128 := Rect.unit (s := S2000x128) ![0, 0] S2000x128.size inb_S2000x128_S2000x128_0_0
abbrev rWc : Rect S128x256 := Rect.unit (s := S128x256) ![0, 0] S128x256.size inb_S128x256_S128x256_0_0
abbrev rVc : Rect S128x512 := Rect.unit (s := S128x512) ![0, 0] S128x512.size inb_S128x512_S128x512_0_0
abbrev rBr : Rect S1x512 := Rect.unit (s := S1x512) ![0, 0] S1x512.size inb_S1x512_S1x512_0_0
abbrev rO : Rect S2000x256 := Rect.unit (s := S2000x256) ![0, 0] S2000x256.size inb_S2000x256_S2000x256_0_0

/-- What each output's staging buffer holds after the body: its one store, of a payload of the loads. -/
def resultP (x : Vec F S2000x128 .f32) (wc : Vec F S128x256 .f32) : Vec F S2000x256 .f32 :=
  View.canon [⟨rO, k0_pay1 (View.ld x rX) (View.ld wc rWc)⟩]
def resultLo (x : Vec F S2000x128 .f32) (vc : Vec F S128x512 .f32) (br : Vec F S1x512 .f32) : Vec F S2000x256 .f32 :=
  View.canon [⟨rO, k0_pay3 (View.ld x rX) (View.ld vc rVc) (View.ld br rBr)⟩]
def resultHi (x : Vec F S2000x128 .f32) (vc : Vec F S128x512 .f32) (br : Vec F S1x512 .f32) : Vec F S2000x256 .f32 :=
  View.canon [⟨rO, k0_pay4 (View.ld x rX) (View.ld vc rVc) (View.ld br rBr)⟩]

/-- One whole store fills the buffer. -/
theorem filled (p0 : Vec F S2000x256 .f32) (y : S2000x256.Idx) :
    ∃ pc ∈ ([⟨rO, p0⟩] : List (View.Piece (Elt F) S2000x256 .f32)), y ∈ pc.1.set :=
  View.cover_of_tiled [⟨rO, p0⟩] S2000x256.size (by rfl) y

/-! ## The body's triple -/

set_option maxHeartbeats 1000000 in
/-- On whole staging buffers, the inputs' at known contents and the outputs' at anything, the body runs to the end
    leaving the inputs' as they were and each output's at its `result…` of them. -/
theorem body_runs (c : Dev nD) (E : Set ℕ) (i : grid0.Coords)
    (arg1 : Memref sig .tc .vmem S2000x128 .f32) (harg1 : arg1.IsWhole) (arg2 : Memref sig .tc .vmem S128x256 .f32) (harg2 : arg2.IsWhole)
    (arg3 : Memref sig .tc .vmem S128x512 .f32) (harg3 : arg3.IsWhole) (arg4 : Memref sig .tc .vmem S1x512 .f32) (harg4 : arg4.IsWhole)
    (arg5 : Memref sig .tc .vmem S2000x256 .f32) (harg5 : arg5.IsWhole) (arg6 : Memref sig .tc .vmem S2000x256 .f32) (harg6 : arg6.IsWhole)
    (arg7 : Memref sig .tc .vmem S2000x256 .f32) (harg7 : arg7.IsWhole)
    (x : Vec F S2000x128 .f32) (wc : Vec F S128x256 .f32) (vc : Vec F S128x512 .f32) (br : Vec F S1x512 .f32) (K : PUnit → sProp 𝕄) :
    iprop(owns (c : Thread nD τ) arg1 fullShare x ∗ owns (c : Thread nD τ) arg2 fullShare wc ∗ owns (c : Thread nD τ) arg3 fullShare vc
        ∗ owns (c : Thread nD τ) arg4 fullShare br
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wc ∗ owns (c : Thread nD τ) arg3 fullShare vc
            ∗ owns (c : Thread nD τ) arg4 fullShare br
            ∗ owns (c : Thread nD τ) arg5 fullShare (resultP x wc) ∗ owns (c : Thread nD τ) arg6 fullShare (resultLo x vc br)
            ∗ owns (c : Thread nD τ) arg7 fullShare (resultHi x vc br)) -∗ K ⟨⟩))
      ⊢ wp frame (wpE (defs₀ (F := F)) Variants.none c none) E
          (cc0__prologue_kernel i arg1 harg1 arg2 harg2 arg3 harg3 arg4 harg4 arg5 harg5 arg6 harg6 arg7 harg7) K := by
  simp only [cc0__prologue_kernel_eq_skeleton]; unfold cc0__prologue_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (filled _)
  isplitl [H5]
  · iexists _; isplitr
    swap; · iexact H5
    ipureintro
    exact View.read_writes_eq_canon _ _ _ (filled _)
  iexists _; isplitr
  swap; · iexact H6
  ipureintro
  exact View.read_writes_eq_canon _ _ _ (filled _)

/-! ## The pipeline's proof data -/

/-- The arrays as the call finds them; after the body each input's buffer at its block and each output's at its
    `result…` of the input blocks; nothing else touched, nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => resultP (blk V c 0 t) (blk V c 1 t)
    | ⟨5, _⟩ => resultLo (blk V c 0 t) (blk V c 2 t) (blk V c 3 t)
    | ⟨6, _⟩ => resultHi (blk V c 0 t) (blk V c 2 t) (blk V c 3 t)
  Φ _ := Pipeline.ΦA spec0 c
  q _ := fullShare
  owed _ := 0

theorem dat_A (c : Dev nD) (w : Fin cfg0.W) : (dat V c).A w = V c (Pipeline.arrRef spec0 w) := by dsimp only [dat]
theorem afterX (c : Dev nD) (t : Fin cfg0.N) : (dat V c).after 0 t = blk V c 0 t := by dsimp only [dat]
theorem afterWc (c : Dev nD) (t : Fin cfg0.N) : (dat V c).after 1 t = blk V c 1 t := by dsimp only [dat]
theorem afterVc (c : Dev nD) (t : Fin cfg0.N) : (dat V c).after 2 t = blk V c 2 t := by dsimp only [dat]
theorem afterBr (c : Dev nD) (t : Fin cfg0.N) : (dat V c).after 3 t = blk V c 3 t := by dsimp only [dat]
theorem afterP (c : Dev nD) (t : Fin cfg0.N) : (dat V c).after 4 t = resultP (blk V c 0 t) (blk V c 1 t) := by dsimp only [dat]
theorem afterLo (c : Dev nD) (t : Fin cfg0.N) :
    (dat V c).after 5 t = resultLo (blk V c 0 t) (blk V c 2 t) (blk V c 3 t) := by dsimp only [dat]
theorem afterHi (c : Dev nD) (t : Fin cfg0.N) :
    (dat V c).after 6 t = resultHi (blk V c 0 t) (blk V c 2 t) (blk V c 3 t) := by dsimp only [dat]

theorem beforeX (c : Dev nD) (t : Fin cfg0.N) (d) : (dat V c).before 0 t d = blk V c 0 t :=
  foundX V (dat V c) (dat_A V c 0) (afterX V c) t d
theorem beforeWc (c : Dev nD) (t : Fin cfg0.N) (d) : (dat V c).before 1 t d = blk V c 1 t :=
  foundWc V (dat V c) (dat_A V c 1) (afterWc V c) t d
theorem beforeVc (c : Dev nD) (t : Fin cfg0.N) (d) : (dat V c).before 2 t d = blk V c 2 t :=
  foundVc V (dat V c) (dat_A V c 2) (afterVc V c) t d
theorem beforeBr (c : Dev nD) (t : Fin cfg0.N) (d) : (dat V c).before 3 t d = blk V c 3 t :=
  foundBr V (dat V c) (dat_A V c 3) (afterBr V c) t d

/-! ## The body obligation at a generic point -/

/-- What the body is called with at point `t`, window by window, -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it gives back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

theorem body_at (c : Dev nD) (t : Fin cfg0.N) :
    handed V c t ⊢ wp frame (wpE (defs₀ (F := F)) Variants.none c none) Set.univ (bodyAt0 t) (fun _ => returned V c t) := by
  unfold handed returned bodyAt0
  simp only [beforeX, beforeWc, beforeVc, beforeBr]
  rw [show (dat V c).Φ t.succ = (dat V c).Φ t.castSucc from rfl,
    show (dat V c).owesAt () t.succ = (dat V c).owesAt () t.castSucc from rfl,
    afterX, afterWc, afterVc, afterBr, afterP, afterLo, afterHi]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _
    (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem obligation (c : Dev nD) : BodyObligation (dat (F := F) V c) (defs₀ (F := F)) Variants.none () Set.univ := fun t => by
  rw [bigSep_W0, bigSep_W0]
  exact body_at V c t

end Cert.Kernel.Prologue

end
-- ==== Proof.KStage1.lean ====
/-
  The middle call: the first pass over the filter matrix.

  At grid point t the body is handed a strip of 400 rows of the filter matrix A, the whole 10000 × 256 matrix P of
  first-iteration products, the matching 400 rows of the first-iteration skip terms S, and the two second-iteration
  weight matrices.  It forms the hidden rows max (A·P + S, 0), multiplies the left half by one weight matrix and the
  right half by the other, lays the two 400 × 128 products side by side and stores the 400 × 256 block whole.

  As for the other calls: the proof data at any number format and at a parameter `V` (the buffer contents when the
  call is entered), the body's triple, and the obligation at a generic grid point.
-/
import proofs.«118575_g50105088475803_cont_8to1c4_614_2_alg».proof.Proof.Gen.Kernel.Launch
import proofs.«118575_g50105088475803_cont_8to1c4_614_2_alg».proof.Proof.Gen.Kernel.Skeleton
import proofs.«118575_g50105088475803_cont_8to1c4_614_2_alg».proof.Proof.Gen.Kernel.Points
import Idealize.ShloMosaic.Lib.Pipeline.FrameBody
import Idealize.ShloMosaic.Lib.Tactic

set_option maxRecDepth 16384

noncomputable section

namespace Cert.Kernel.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the call finds the array. -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## An input's staging buffer holds its block at every point

The strip of A and the rows of S move with the point and are fetched every time; P and the two weight matrices
are one block each, fetched once, their index never moving. -/

theorem foundA {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl)
    (fun t => by rw [hafter]; unfold Dat.blockOf blk; rw [hA]; try rfl) t d).trans
    (by unfold Dat.fetched Dat.blockOf blk; rw [hA]; try rfl)

theorem foundP {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl)
    (fun t => by rw [hafter]; unfold Dat.blockOf blk; rw [hA]; try rfl) t d).trans
    (by unfold Dat.fetched Dat.blockOf blk; rw [hA]; try rfl)

theorem foundS {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl)
    (fun t => by rw [hafter]; unfold Dat.blockOf blk; rw [hA]; try rfl) t d).trans
    (by unfold Dat.fetched Dat.blockOf blk; rw [hA]; try rfl)

theorem foundWa {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl)
    (fun t => by rw [hafter]; unfold Dat.blockOf blk; rw [hA]; try rfl) t d).trans
    (by unfold Dat.fetched Dat.blockOf blk; rw [hA]; try rfl)

theorem foundWb {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl)
    (fun t => by rw [hafter]; unfold Dat.blockOf blk; rw [hA]; try rfl) t d).trans
    (by unfold Dat.fetched Dat.blockOf blk; rw [hA]; try rfl)

/-! ## The body's accesses: each buffer through the rectangle that is all of it -/

abbrev rA : Rect S400x10000 := Rect.unit (s := S400x10000) ![0, 0] S400x10000.size inb_S400x10000_S400x10000_0_0
abbrev rP : Rect S10000x256 := Rect.unit (s := S10000x256) ![0, 0] S10000x256.size inb_S10000x256_S10000x256_0_0
abbrev rS : Rect S400x256 := Rect.unit (s := S400x256) ![0, 0] S400x256.size inb_S400x256_S400x256_0_0
abbrev rW : Rect S128x128 := Rect.unit (s := S128x128) ![0, 0] S128x128.size inb_S128x128_S128x128_0_0

/-- What the output's staging buffer holds after the body: its one store, of the payload of the five loads. -/
def result (a : Vec F S400x10000 .f32) (p : Vec F S10000x256 .f32) (s : Vec F S400x256 .f32) (wa wb : Vec F S128x128 .f32) :
    Vec F S400x256 .f32 :=
  View.canon [⟨rS, k1_pay1 (View.ld a rA) (View.ld p rP) (View.ld s rS) (View.ld wa rW) (View.ld wb rW)⟩]

/-- The one store fills the buffer. -/
theorem filled (p0 : Vec F S400x256 .f32) (y : S400x256.Idx) :
    ∃ pc ∈ ([⟨rS, p0⟩] : List (View.Piece (Elt F) S400x256 .f32)), y ∈ pc.1.set :=
  View.cover_of_tiled [⟨rS, p0⟩] S400x256.size (by rfl) y

/-! ## The body's triple -/

set_option maxHeartbeats 1000000 in
/-- On whole staging buffers, the inputs' at known contents and the output's at anything, the body runs to the end
    leaving the inputs' as they were and the output's at `result` of them. -/
theorem body_runs (c : Dev nD) (E : Set ℕ) (i : grid1.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S400x256 .f32) (harg6 : arg6.IsWhole)
    (a : Vec F S400x10000 .f32) (p : Vec F S10000x256 .f32) (s : Vec F S400x256 .f32) (wa wb : Vec F S128x128 .f32) (K : PUnit → sProp 𝕄) :
    iprop(owns (c : Thread nD τ) arg1 fullShare a ∗ owns (c : Thread nD τ) arg2 fullShare p ∗ owns (c : Thread nD τ) arg3 fullShare s
        ∗ owns (c : Thread nD τ) arg4 fullShare wa ∗ owns (c : Thread nD τ) arg5 fullShare wb
        ∗ (∃ d, owns (c : Thread nD τ) arg6 fullShare d)
        ∗ (iprop(owns (c : Thread nD τ) arg1 fullShare a ∗ owns (c : Thread nD τ) arg2 fullShare p ∗ owns (c : Thread nD τ) arg3 fullShare s
            ∗ owns (c : Thread nD τ) arg4 fullShare wa ∗ owns (c : Thread nD τ) arg5 fullShare wb
            ∗ owns (c : Thread nD τ) arg6 fullShare (result a p s wa wb)) -∗ K ⟨⟩))
      ⊢ wp frame (wpE (defs₀ (F := F)) Variants.none c none) E
          (cc1__stage1_kernel i arg1 harg1 arg2 harg2 arg3 harg3 arg4 harg4 arg5 harg5 arg6 harg6) K := by
  simp only [cc1__stage1_kernel_eq_skeleton]; unfold cc1__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (filled _)

/-! ## The pipeline's proof data -/

/-- The arrays as the call finds them; after the body each input's buffer at its block and the output's at
    `result` of the input blocks; nothing else touched, nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => result (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by dsimp only [dat]
theorem afterA (c : Dev nD) (t : Fin cfg1.N) : (dat V c).after 0 t = blk V c 0 t := by dsimp only [dat]
theorem afterP (c : Dev nD) (t : Fin cfg1.N) : (dat V c).after 1 t = blk V c 1 t := by dsimp only [dat]
theorem afterS (c : Dev nD) (t : Fin cfg1.N) : (dat V c).after 2 t = blk V c 2 t := by dsimp only [dat]
theorem afterWa (c : Dev nD) (t : Fin cfg1.N) : (dat V c).after 3 t = blk V c 3 t := by dsimp only [dat]
theorem afterWb (c : Dev nD) (t : Fin cfg1.N) : (dat V c).after 4 t = blk V c 4 t := by dsimp only [dat]
theorem afterO (c : Dev nD) (t : Fin cfg1.N) :
    (dat V c).after 5 t = result (blk V c 0 t) (blk V c 1 t) (blk V c 2 t) (blk V c 3 t) (blk V c 4 t) := by dsimp only [dat]

theorem beforeA (c : Dev nD) (t : Fin cfg1.N) (d) : (dat V c).before 0 t d = blk V c 0 t :=
  foundA V (dat V c) (dat_A V c 0) (afterA V c) t d
theorem beforeP (c : Dev nD) (t : Fin cfg1.N) (d) : (dat V c).before 1 t d = blk V c 1 t :=
  foundP V (dat V c) (dat_A V c 1) (afterP V c) t d
theorem beforeS (c : Dev nD) (t : Fin cfg1.N) (d) : (dat V c).before 2 t d = blk V c 2 t :=
  foundS V (dat V c) (dat_A V c 2) (afterS V c) t d
theorem beforeWa (c : Dev nD) (t : Fin cfg1.N) (d) : (dat V c).before 3 t d = blk V c 3 t :=
  foundWa V (dat V c) (dat_A V c 3) (afterWa V c) t d
theorem beforeWb (c : Dev nD) (t : Fin cfg1.N) (d) : (dat V c).before 4 t d = blk V c 4 t :=
  foundWb V (dat V c) (dat_A V c 4) (afterWb V c) t d

/-! ## The body obligation at a generic point -/

/-- What the body is called with at point `t`, window by window, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it gives back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem body_at (c : Dev nD) (t : Fin cfg1.N) :
    handed V c t ⊢ wp frame (wpE (defs₀ (F := F)) Variants.none c none) Set.univ (bodyAt1 t) (fun _ => returned V c t) := by
  unfold handed returned bodyAt1
  simp only [beforeA, beforeP, beforeS, beforeWa, beforeWb]
  rw [show (dat V c).Φ t.succ = (dat V c).Φ t.castSucc from rfl,
    show (dat V c).owesAt () t.succ = (dat V c).owesAt () t.castSucc from rfl,
    afterA, afterP, afterS, afterWa, afterWb, afterO]
  iintro ⟨HΦ, Ho, ⟨%d0, H0⟩, ⟨%d1, H1⟩, ⟨%d2, H2⟩, ⟨%d3, H3⟩, ⟨%d4, H4⟩, ⟨%d5, H5⟩⟩
  iapply (body_runs c Set.univ (grid1.coords t) _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem obligation (c : Dev nD) : BodyObligation (dat (F := F) V c) (defs₀ (F := F)) Variants.none () Set.univ := fun t => by
  rw [bigSep_W1, bigSep_W1]
  exact body_at V c t

end Cert.Kernel.Stage1

end
-- ==== Proof.KStage2.lean ====
/-
  The last call: the second pass over the filter matrix.

  At grid point t the body is handed a strip of 400 rows of the filter matrix A (all 10000 columns), the whole
  10000 × 256 matrix P of second-iteration products, and the matching 400 rows of the second-iteration skip terms S.
  It forms max (A·P + S, 0), adds its two column halves and halves the sum, and stores the 400 × 128 result through
  the rectangle that is the whole output block.  Nothing is carried from one point to the next.

  This module states that as the pipeline's proof data at ANY number format and at a parameter `V`, the buffer
  contents when the call is entered: what each window's staging buffer holds after the body (an input's its block,
  the output's the body's one store read back), the body's triple, and the obligation at a generic grid point.
-/
import proofs.«118575_g50105088475803_cont_8to1c4_614_2_alg».proof.Proof.Gen.Kernel.Launch
import proofs.«118575_g50105088475803_cont_8to1c4_614_2_alg».proof.Proof.Gen.Kernel.Skeleton
import proofs.«118575_g50105088475803_cont_8to1c4_614_2_alg».proof.Proof.Gen.Kernel.Points
import Idealize.ShloMosaic.Lib.Pipeline.FrameBody
import Idealize.ShloMosaic.Lib.Tactic

set_option maxRecDepth 16384

noncomputable section

namespace Cert.Kernel.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the call finds the array. -/
def blk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## An input's staging buffer holds its block at every point

Whether the pipeline fetched the block at this point or not: the strip of A and the rows of S move with the point
and are fetched every time; P's one block is fetched once and its index never moves. -/

theorem foundA {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl)
    (fun t => by rw [hafter]; unfold Dat.blockOf blk; rw [hA]; try rfl) t d).trans
    (by unfold Dat.fetched Dat.blockOf blk; rw [hA]; try rfl)

theorem foundP {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl)
    (fun t => by rw [hafter]; unfold Dat.blockOf blk; rw [hA]; try rfl) t d).trans
    (by unfold Dat.fetched Dat.blockOf blk; rw [hA]; try rfl)

theorem foundS {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl)
    (fun t => by rw [hafter]; unfold Dat.blockOf blk; rw [hA]; try rfl) t d).trans
    (by unfold Dat.fetched Dat.blockOf blk; rw [hA]; try rfl)

/-! ## The body's accesses: each buffer through the rectangle that is all of it -/

abbrev rA : Rect S400x10000 := Rect.unit (s := S400x10000) ![0, 0] S400x10000.size inb_S400x10000_S400x10000_0_0
abbrev rP : Rect S10000x256 := Rect.unit (s := S10000x256) ![0, 0] S10000x256.size inb_S10000x256_S10000x256_0_0
abbrev rS : Rect S400x256 := Rect.unit (s := S400x256) ![0, 0] S400x256.size inb_S400x256_S400x256_0_0
abbrev rO : Rect S400x128 := Rect.unit (s := S400x128) ![0, 0] S400x128.size inb_S400x128_S400x128_0_0

/-- What the output's staging buffer holds after the body: its one store, of the payload of the three loads. -/
def result (a : Vec F S400x10000 .f32) (p : Vec F S10000x256 .f32) (s : Vec F S400x256 .f32) : Vec F S400x128 .f32 :=
  View.canon [⟨rO, k2_pay1 (View.ld a rA) (View.ld p rP) (View.ld s rS)⟩]

/-- The one store fills the buffer. -/
theorem filled (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

/-! ## The body's triple -/

set_option maxHeartbeats 1000000 in
/-- On whole staging buffers, the inputs' at known contents and the output's at anything, the body runs to the end
    leaving the inputs' as they were and the output's at `result` of them. -/
theorem body_runs (c : Dev nD) (E : Set ℕ) (i : grid2.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole) (arg4 : Memref sig .tc .vmem S400x128 .f32) (harg4 : arg4.IsWhole)
    (a : Vec F S400x10000 .f32) (p : Vec F S10000x256 .f32) (s : Vec F S400x256 .f32) (K : PUnit → sProp 𝕄) :
    iprop(owns (c : Thread nD τ) arg1 fullShare a ∗ owns (c : Thread nD τ) arg2 fullShare p ∗ owns (c : Thread nD τ) arg3 fullShare s
        ∗ (∃ d, owns (c : Thread nD τ) arg4 fullShare d)
        ∗ (iprop(owns (c : Thread nD τ) arg1 fullShare a ∗ owns (c : Thread nD τ) arg2 fullShare p ∗ owns (c : Thread nD τ) arg3 fullShare s
            ∗ owns (c : Thread nD τ) arg4 fullShare (result a p s)) -∗ K ⟨⟩))
      ⊢ wp frame (wpE (defs₀ (F := F)) Variants.none c none) E (cc2__stage2_kernel i arg1 harg1 arg2 harg2 arg3 harg3 arg4 harg4) K := by
  simp only [cc2__stage2_kernel_eq_skeleton]; unfold cc2__stage2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (filled _)

/-! ## The pipeline's proof data -/

/-- The arrays as the call finds them; after the body each input's buffer at its block and the output's at
    `result` of the input blocks; nothing else touched, nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => result (blk V c 0 t) (blk V c 1 t) (blk V c 2 t)
  Φ _ := Pipeline.ΦA spec2 c
  q _ := fullShare
  owed _ := 0

theorem dat_A (c : Dev nD) (w : Fin cfg2.W) : (dat V c).A w = V c (Pipeline.arrRef spec2 w) := by dsimp only [dat]
theorem afterA (c : Dev nD) (t : Fin cfg2.N) : (dat V c).after 0 t = blk V c 0 t := by dsimp only [dat]
theorem afterP (c : Dev nD) (t : Fin cfg2.N) : (dat V c).after 1 t = blk V c 1 t := by dsimp only [dat]
theorem afterS (c : Dev nD) (t : Fin cfg2.N) : (dat V c).after 2 t = blk V c 2 t := by dsimp only [dat]
theorem afterO (c : Dev nD) (t : Fin cfg2.N) :
    (dat V c).after 3 t = result (blk V c 0 t) (blk V c 1 t) (blk V c 2 t) := by dsimp only [dat]

theorem beforeA (c : Dev nD) (t : Fin cfg2.N) (d) : (dat V c).before 0 t d = blk V c 0 t :=
  foundA V (dat V c) (dat_A V c 0) (afterA V c) t d
theorem beforeP (c : Dev nD) (t : Fin cfg2.N) (d) : (dat V c).before 1 t d = blk V c 1 t :=
  foundP V (dat V c) (dat_A V c 1) (afterP V c) t d
theorem beforeS (c : Dev nD) (t : Fin cfg2.N) (d) : (dat V c).before 2 t d = blk V c 2 t :=
  foundS V (dat V c) (dat_A V c 2) (afterS V c) t d

/-! ## The body obligation at a generic point -/

/-- What the body is called with at point `t`, window by window, -/
def handed (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it gives back. -/
def returned (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem body_at (c : Dev nD) (t : Fin cfg2.N) :
    handed V c t ⊢ wp frame (wpE (defs₀ (F := F)) Variants.none c none) Set.univ (bodyAt2 t) (fun _ => returned V c t) := by
  unfold handed returned bodyAt2
  simp only [beforeA, beforeP, beforeS]
  rw [show (dat V c).Φ t.succ = (dat V c).Φ t.castSucc from rfl,
    show (dat V c).owesAt () t.succ = (dat V c).owesAt () t.castSucc from rfl,
    afterA, afterP, afterS, afterO]
  iintro ⟨HΦ, Ho, ⟨%d0, H0⟩, ⟨%d1, H1⟩, ⟨%d2, H2⟩, ⟨%d3, H3⟩⟩
  iapply (body_runs c Set.univ (grid2.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (dat (F := F) V c) (defs₀ (F := F)) Variants.none () Set.univ := fun t => by
  rw [bigSep_W2, bigSep_W2]
  exact body_at V c t

end Cert.Kernel.Stage2

end
-- ==== Proof.KWhole.lean ====
/-
  The whole run of @main: four host operations that lay the weights side by side, then the three calls.

  Between two items a core holds every unscoped buffer whole at known contents:
    B0  the launch memory;
    B1  after the host operations (the side-by-side weight matrices and the bias row written, nothing else touched);
    B2, B3, B4  after each call — that call's arrays at what its write-backs leave, every other buffer as before.
  Each call is entered from the contents before it and left at the contents after it; besides the buffers only the
  generator register and the statement that the core owes nothing ride along.  The run's post says that every
  unscoped buffer ends at B4.  A buffer that no host operation and no call writes reads back, through the four
  steps, to the launch memory: that is the frame; the last call's output array at B4 is the result.
-/
import proofs.«118575_g50105088475803_cont_8to1c4_614_2_alg».proof.Proof.KPrologue
import proofs.«118575_g50105088475803_cont_8to1c4_614_2_alg».proof.Proof.KStage1
import proofs.«118575_g50105088475803_cont_8to1c4_614_2_alg».proof.Proof.KStage2
import proofs.«118575_g50105088475803_cont_8to1c4_614_2_alg».proof.Proof.Gen.Kernel.Regions
import Idealize.ShloMosaic.Lib.Pipeline.RegionsLoop
import Idealize.ShloMosaic.Lib.Pipeline.FrameSuffix
import Idealize.ShloMosaic.Lib.Ring

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents between items -/

/-- At launch. -/
abbrev B0 : Dev nD → Valuation τ sig (Elt F) := fun c b => m ((c : Dev nD), b)
/-- After the host operations. -/
abbrev B1 : Dev nD → Valuation τ sig (Elt F) := fun c => StableHlo.after hostOps0 (B0 m c)
/-- The same, read at the TensorCore's references: what the first call's proof data take. -/
abbrev E1 : (c : Dev nD) → (b : Ref sig .tc) → Buf (Elt F) ((c : Thread nD τ).loc b) := fun c b => B1 m c b
/-- After the first call. -/
def B2 (c : Dev nD) : Valuation τ sig (Elt F) :=
  Pipeline.withArrays spec0 c (B1 m c) fun w => (Prologue.dat (E1 m) c).arrAt w cfg0.N
abbrev E2 : (c : Dev nD) → (b : Ref sig .tc) → Buf (Elt F) ((c : Thread nD τ).loc b) := fun c b => B2 m c b
/-- After the middle call. -/
def B3 (c : Dev nD) : Valuation τ sig (Elt F) :=
  Pipeline.withArrays spec1 c (B2 m c) fun w => (Stage1.dat (E2 m) c).arrAt w cfg1.N
abbrev E3 : (c : Dev nD) → (b : Ref sig .tc) → Buf (Elt F) ((c : Thread nD τ).loc b) := fun c b => B3 m c b
/-- After the last call. -/
def B4 (c : Dev nD) : Valuation τ sig (Elt F) :=
  Pipeline.withArrays spec2 c (B3 m c) fun w => (Stage2.dat (E3 m) c).arrAt w cfg2.N
abbrev E4 : (c : Dev nD) → (b : Ref sig .tc) → Buf (Elt F) ((c : Thread nD τ).loc b) := fun c b => B4 m c b

/-! A call's array ends at what its write-backs leave; any other buffer is untouched. -/

theorem B2_arr (c : Dev nD) (w : Fin cfg0.W) :
    B2 m c (Proc.devRef .tc (Pipeline.arrRef spec0 w)) = (Prologue.dat (E1 m) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B3_arr (c : Dev nD) (w : Fin cfg1.W) :
    B3 m c (Proc.devRef .tc (Pipeline.arrRef spec1 w)) = (Stage1.dat (E2 m) c).arrAt w cfg1.N := by
  unfold B3; exact Pipeline.withArrays_arr spec1 launch1.win.arr_inj c _ _ w
theorem B3_other (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
theorem B4_arr (c : Dev nD) (w : Fin cfg2.W) :
    B4 m c (Proc.devRef .tc (Pipeline.arrRef spec2 w)) = (Stage2.dat (E3 m) c).arrAt w cfg2.N := by
  unfold B4; exact Pipeline.withArrays_arr spec2 launch2.win.arr_inj c _ _ w
theorem B4_other (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb

/-- The two facts the exit of a call needs: each of its arrays at what the pipeline leaves, the rest as entered. -/
theorem leaves0 (c : Dev nD) (w : Fin cfg0.W) : (Prologue.dat (E1 m) c).arrAt w cfg0.N = E2 m c (Pipeline.arrRef spec0 w) :=
  (B2_arr m c w).symm
theorem rest0 (c : Dev nD) : ∀ b, b ∉ Finset.univ.image (Pipeline.arrRef spec0) → E2 m c b = E1 m c b :=
  fun b hb => B2_other m c b fun w e => hb (Finset.mem_image.mpr ⟨w, Finset.mem_univ _, e⟩)
theorem leaves1 (c : Dev nD) (w : Fin cfg1.W) : (Stage1.dat (E2 m) c).arrAt w cfg1.N = E3 m c (Pipeline.arrRef spec1 w) :=
  (B3_arr m c w).symm
theorem rest1 (c : Dev nD) : ∀ b, b ∉ Finset.univ.image (Pipeline.arrRef spec1) → E3 m c b = E2 m c b :=
  fun b hb => B3_other m c b fun w e => hb (Finset.mem_image.mpr ⟨w, Finset.mem_univ _, e⟩)
theorem leaves2 (c : Dev nD) (w : Fin cfg2.W) : (Stage2.dat (E3 m) c).arrAt w cfg2.N = E4 m c (Pipeline.arrRef spec2 w) :=
  (B4_arr m c w).symm
theorem rest2 (c : Dev nD) : ∀ b, b ∉ Finset.univ.image (Pipeline.arrRef spec2) → E4 m c b = E3 m c b :=
  fun b hb => B4_other m c b fun w e => hb (Finset.mem_image.mpr ⟨w, Finset.mem_univ _, e⟩)

/-! ## The proof-data family and what rides beside the buffers -/

/-- Each call's proof data at the contents it is entered from. -/
def pdats : (p : Fin 3) → (c : Dev nD) → Dat τ (Elt F) Unit ℕ (UR sig nD τ) ℕ (Pipeline.pin (pcfgs (F := F)) adm p) c
  | ⟨0, _⟩ => fun c => Prologue.dat (E1 m) c
  | ⟨1, _⟩ => fun c => Stage1.dat (E2 m) c
  | ⟨2, _⟩ => fun c => Stage2.dat (E3 m) c

abbrev 𝒱 : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev Beside (c : Dev nD) : sProp 𝕄 := iprop((∃ r, prngReg c r) ∗ ∃ W, owes (c : Thread nD τ) (0 : CellTallies nD τ sig Unit) W)

/-- The host operations as a segment, from the launch contents. -/
abbrev hostSeg : Pipeline.HostSeg (Name := ℕ) (U := UR sig nD τ) (pcfgs (F := F)) defs₀ 𝒱 L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Last (c : Dev nD) : sProp 𝕄 := iprop(StableHlo.held (c : Thread nD τ) (Pipeline.ucRefs τ sig) (B4 m c) ∗ ∃ r, prngReg c r)

/-! ## The calls as segments -/

set_option backward.isDefEq.respectTransparency.types false in
/-- The first call: entered from B1, left at B2. -/
def call0 : Pipeline.RegionSeg (pcfgs (F := F)) adm (pdats m) () defs₀ 𝒱 L lv 0 where
  win := launch0.win.to₀
  block_pos := launch0.block_pos
  stage_whole := launch0.stage_whole
  K := PEmpty
  osem k := k.elim
  ho := Pipeline.OwnSemFacts.none _
  hbody c := (Prologue.obligation (E1 m) c).loose
  hwaits := Pipeline.hwaits_of_owed_zero _ _ _ _ L lv 0 fun _ _ => rfl
  pre c := iprop(StableHlo.held (c : Thread nD τ) (Pipeline.ucRefs τ sig) (B1 m c) ∗ Beside c)
  post c := iprop(StableHlo.held (c : Thread nD τ) (Pipeline.ucRefs τ sig) (B2 m c) ∗ Beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (leaves0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The middle call: entered from B2, left at B3. -/
def call1 : Pipeline.RegionSeg (pcfgs (F := F)) adm (pdats m) () defs₀ 𝒱 L lv 1 where
  win := launch1.win.to₀
  block_pos := launch1.block_pos
  stage_whole := launch1.stage_whole
  K := PEmpty
  osem k := k.elim
  ho := Pipeline.OwnSemFacts.none _
  hbody c := (Stage1.obligation (E2 m) c).loose
  hwaits := Pipeline.hwaits_of_owed_zero _ _ _ _ L lv 1 fun _ _ => rfl
  pre c := iprop(StableHlo.held (c : Thread nD τ) (Pipeline.ucRefs τ sig) (B2 m c) ∗ Beside c)
  post c := iprop(StableHlo.held (c : Thread nD τ) (Pipeline.ucRefs τ sig) (B3 m c) ∗ Beside c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (leaves1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last call: entered from B3, left at B4 (what the launch reads at the end). -/
def call2 : Pipeline.RegionSeg (pcfgs (F := F)) adm (pdats m) () defs₀ 𝒱 L lv 2 where
  win := launch2.win.to₀
  block_pos := launch2.block_pos
  stage_whole := launch2.stage_whole
  K := PEmpty
  osem k := k.elim
  ho := Pipeline.OwnSemFacts.none _
  hbody c := (Stage2.obligation (E3 m) c).loose
  hwaits := Pipeline.hwaits_of_owed_zero _ _ _ _ L lv 2 fun _ _ => rfl
  pre c := iprop(StableHlo.held (c : Thread nD τ) (Pipeline.ucRefs τ sig) (B3 m c) ∗ Beside c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (leaves2 m c) (rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱 L lv) :=
  [ .host (hostSeg m), .region (call0 m), .region (call1 m), .region (call2 m) ]

/-- @main is the run of these segments. -/
theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer holds the last boundary's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱 L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := Last m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-! ## What each item leaves alone -/

/-- The host operations write only the four laid-out operands. -/
theorem B1_other (c : Dev nD) (b : Ref sig .tc) (h : b ∉ hostOps0_W) : B1 m c b = B0 m c b :=
  StableHlo.after_of_writes_sub hostOps0 _ hostOps0_writes h

/-- The first call changes only its three outputs. -/
theorem B2_keeps (c : Dev nD) (b : Ref sig .tc) (h : b ∉ ([main_v4_0, main_v4_1, main_v4_2] : List (Ref sig .tc))) :
    B2 m c (Proc.devRef .tc b) = B1 m c (Proc.devRef .tc b) := by
  by_cases hw : ∀ w, Pipeline.arrRef spec0 w ≠ b
  · exact B2_other m c b hw
  · obtain ⟨w, rfl⟩ := not_forall_not.mp hw
    rw [B2_arr]
    have hin : (cfg0.win w).isOut = false := by
      match w with
      | ⟨0, _⟩ => rfl
      | ⟨1, _⟩ => rfl
      | ⟨2, _⟩ => rfl
      | ⟨3, _⟩ => rfl
      | ⟨4, _⟩ => exact absurd (show Pipeline.arrRef spec0 (4 : Fin 7) ∈ ([main_v4_0, main_v4_1, main_v4_2] : List (Ref sig .tc)) by decide) h
      | ⟨5, _⟩ => exact absurd (show Pipeline.arrRef spec0 (5 : Fin 7) ∈ ([main_v4_0, main_v4_1, main_v4_2] : List (Ref sig .tc)) by decide) h
      | ⟨6, _⟩ => exact absurd (show Pipeline.arrRef spec0 (6 : Fin 7) ∈ ([main_v4_0, main_v4_1, main_v4_2] : List (Ref sig .tc)) by decide) h
    exact ((Prologue.dat (E1 m) c).arrAt_in w hin _).trans (Prologue.dat_A (E1 m) c w)

/-- The middle call changes only its output. -/
theorem B3_keeps (c : Dev nD) (b : Ref sig .tc) (h : b ∉ ([main_v5] : List (Ref sig .tc))) :
    B3 m c (Proc.devRef .tc b) = B2 m c (Proc.devRef .tc b) := by
  by_cases hw : ∀ w, Pipeline.arrRef spec1 w ≠ b
  · exact B3_other m c b hw
  · obtain ⟨w, rfl⟩ := not_forall_not.mp hw
    rw [B3_arr]
    have hin : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd (show Pipeline.arrRef spec1 (5 : Fin 6) ∈ ([main_v5] : List (Ref sig .tc)) by decide) h
    exact ((Stage1.dat (E2 m) c).arrAt_in w hin _).trans (Stage1.dat_A (E2 m) c w)

/-- The last call changes only its output. -/
theorem B4_keeps (c : Dev nD) (b : Ref sig .tc) (h : b ∉ ([main_v6] : List (Ref sig .tc))) :
    B4 m c (Proc.devRef .tc b) = B3 m c (Proc.devRef .tc b) := by
  by_cases hw : ∀ w, Pipeline.arrRef spec2 w ≠ b
  · exact B4_other m c b hw
  · obtain ⟨w, rfl⟩ := not_forall_not.mp hw
    rw [B4_arr]
    have hin : (cfg2.win w).isOut = false := by
      match w with
      | ⟨0, _⟩ => rfl
      | ⟨1, _⟩ => rfl
      | ⟨2, _⟩ => rfl
      | ⟨3, _⟩ => exact absurd (show Pipeline.arrRef spec2 (3 : Fin 4) ∈ ([main_v6] : List (Ref sig .tc)) by decide) h
    exact ((Stage2.dat (E3 m) c).arrAt_in w hin _).trans (Stage2.dat_A (E3 m) c w)

/-- A buffer that no host operation and no call writes ends as launched. -/
theorem B4_launch (c : Dev nD) (b : Ref sig .tc)
    (h : b ∉ ([main_v0, main_v1, main_v2, main_v3, main_v4_0, main_v4_1, main_v4_2, main_v5, main_v6] : List (Ref sig .tc))) :
    B4 m c (Proc.devRef .tc b) = m ((c : Thread nD τ).loc b) := by
  have h4 : b ∉ ([main_v6] : List (Ref sig .tc)) := fun e => h (by simp only [List.mem_cons, List.not_mem_nil, or_false] at e ⊢; simp [e])
  have h3 : b ∉ ([main_v5] : List (Ref sig .tc)) := fun e => h (by simp only [List.mem_cons, List.not_mem_nil, or_false] at e ⊢; simp [e])
  have h2 : b ∉ ([main_v4_0, main_v4_1, main_v4_2] : List (Ref sig .tc)) := fun e => h (by
    simp only [List.mem_cons, List.not_mem_nil, or_false] at e ⊢; rcases e with e | e | e <;> simp [e])
  have h1 : b ∉ (hostOps0_W : List (Ref sig .tc)) := fun e => h (by
    simp only [hostOps0_W, List.mem_cons, List.not_mem_nil, or_false] at e ⊢; rcases e with e | e | e | e <;> simp [e])
  exact (B4_keeps m c b h4).trans <| (B3_keeps m c b h3).trans <| (B2_keeps m c b h2).trans <| (B1_other m c b h1).trans rfl

/-- The frame: every argument array ends holding what it held at launch. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (B4_launch m c main_arg0 (by decide)),
     (h c _ (mem_uc main_arg1 (by decide))).trans (B4_launch m c main_arg1 (by decide)),
     (h c _ (mem_uc main_arg2 (by decide))).trans (B4_launch m c main_arg2 (by decide)),
     (h c _ (mem_uc main_arg3 (by decide))).trans (B4_launch m c main_arg3 (by decide)),
     (h c _ (mem_uc main_arg4 (by decide))).trans (B4_launch m c main_arg4 (by decide)),
     (h c _ (mem_uc main_arg5 (by decide))).trans (B4_launch m c main_arg5 (by decide)),
     (h c _ (mem_uc main_arg6 (by decide))).trans (B4_launch m c main_arg6 (by decide)),
     (h c _ (mem_uc main_arg7 (by decide))).trans (B4_launch m c main_arg7 (by decide)),
     (h c _ (mem_uc main_arg8 (by decide))).trans (B4_launch m c main_arg8 (by decide)),
     (h c _ (mem_uc main_arg9 (by decide))).trans (B4_launch m c main_arg9 (by decide)),
     (h c _ (mem_uc main_arg10 (by decide))).trans (B4_launch m c main_arg10 (by decide)),
     (h c _ (mem_uc main_arg11 (by decide))).trans (B4_launch m c main_arg11 (by decide)),
     (h c _ (mem_uc main_arg12 (by decide))).trans (B4_launch m c main_arg12 (by decide)),
     (h c _ (mem_uc main_arg13 (by decide))).trans (B4_launch m c main_arg13 (by decide))⟩)
    (run m ρ)

end Cert.Kernel.Whole

end
-- ==== Proof.KIPrologue.lean ====
/-
  The first call: the products that do not involve the filter matrix.

  At grid point t the body is handed 2000 rows of x, the 128 × 256 matrix [W | W'] of first-iteration weights, the
  128 × 512 matrix of all four skip weights, and the 1 × 512 bias row.  It stores three 2000 × 256 blocks, each whole:
  x·[W | W'];  columns 0 … 255 of x·[V₀ | V₀' | V₁ | V₁'] + bias;  and columns 256 … 511 of the same sum.

  As for the other calls: the proof data at any number format and at a parameter `V` (the buffer contents when the
  call is entered), the body's triple, and the obligation at a generic grid point.
-/
import proofs.«118575_g50105088475803_cont_8to1c4_614_2_alg».proof.Proof.Gen.KernelIdeal.Launch
import proofs.«118575_g50105088475803_cont_8to1c4_614_2_alg».proof.Proof.Gen.KernelIdeal.Skeleton
import proofs.«118575_g50105088475803_cont_8to1c4_614_2_alg».proof.Proof.Gen.KernelIdeal.Points
import Idealize.ShloMosaic.Lib.Pipeline.FrameBody
import Idealize.ShloMosaic.Lib.Tactic

set_option maxRecDepth 16384

noncomputable section

namespace Cert.KernelIdeal.Prologue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the call finds the array. -/
def blk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## An input's staging buffer holds its block at every point

The rows of x move with the point and are fetched every time; the two weight matrices and the bias row are one
block each, fetched once, their index never moving. -/

theorem foundX {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl)
    (fun t => by rw [hafter]; unfold Dat.blockOf blk; rw [hA]; try rfl) t d).trans
    (by unfold Dat.fetched Dat.blockOf blk; rw [hA]; try rfl)

theorem foundWc {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl)
    (fun t => by rw [hafter]; unfold Dat.blockOf blk; rw [hA]; try rfl) t d).trans
    (by unfold Dat.fetched Dat.blockOf blk; rw [hA]; try rfl)

theorem foundVc {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl)
    (fun t => by rw [hafter]; unfold Dat.blockOf blk; rw [hA]; try rfl) t d).trans
    (by unfold Dat.fetched Dat.blockOf blk; rw [hA]; try rfl)

theorem foundBr {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl)
    (fun t => by rw [hafter]; unfold Dat.blockOf blk; rw [hA]; try rfl) t d).trans
    (by unfold Dat.fetched Dat.blockOf blk; rw [hA]; try rfl)

/-! ## The body's accesses: each buffer through the rectangle that is all of it -/

abbrev rX : Rect S2000x128 := Rect.unit (s := S2000x128) ![0, 0] S2000x128.size inb_S2000x128_S2000x128_0_0
abbrev rWc : Rect S128x256 := Rect.unit (s := S128x256) ![0, 0] S128x256.size inb_S128x256_S128x256_0_0
abbrev rVc : Rect S128x512 := Rect.unit (s := S128x512) ![0, 0] S128x512.size inb_S128x512_S128x512_0_0
abbrev rBr : Rect S1x512 := Rect.unit (s := S1x512) ![0, 0] S1x512.size inb_S1x512_S1x512_0_0
abbrev rO : Rect S2000x256 := Rect.unit (s := S2000x256) ![0, 0] S2000x256.size inb_S2000x256_S2000x256_0_0

/-- What each output's staging buffer holds after the body: its one store, of a payload of the loads. -/
def resultP (x : Vec F S2000x128 .f32) (wc : Vec F S128x256 .f32) : Vec F S2000x256 .f32 :=
  View.canon [⟨rO, k0_pay1 (View.ld x rX) (View.ld wc rWc)⟩]
def resultLo (x : Vec F S2000x128 .f32) (vc : Vec F S128x512 .f32) (br : Vec F S1x512 .f32) : Vec F S2000x256 .f32 :=
  View.canon [⟨rO, k0_pay3 (View.ld x rX) (View.ld vc rVc) (View.ld br rBr)⟩]
def resultHi (x : Vec F S2000x128 .f32) (vc : Vec F S128x512 .f32) (br : Vec F S1x512 .f32) : Vec F S2000x256 .f32 :=
  View.canon [⟨rO, k0_pay4 (View.ld x rX) (View.ld vc rVc) (View.ld br rBr)⟩]

/-- One whole store fills the buffer. -/
theorem filled (p0 : Vec F S2000x256 .f32) (y : S2000x256.Idx) :
    ∃ pc ∈ ([⟨rO, p0⟩] : List (View.Piece (Elt F) S2000x256 .f32)), y ∈ pc.1.set :=
  View.cover_of_tiled [⟨rO, p0⟩] S2000x256.size (by rfl) y

/-! ## The body's triple -/

set_option maxHeartbeats 1000000 in
/-- On whole staging buffers, the inputs' at known contents and the outputs' at anything, the body runs to the end
    leaving the inputs' as they were and each output's at its `result…` of them. -/
theorem body_runs (c : Dev nD) (E : Set ℕ) (i : grid0.Coords)
    (arg1 : Memref sig .tc .vmem S2000x128 .f32) (harg1 : arg1.IsWhole) (arg2 : Memref sig .tc .vmem S128x256 .f32) (harg2 : arg2.IsWhole)
    (arg3 : Memref sig .tc .vmem S128x512 .f32) (harg3 : arg3.IsWhole) (arg4 : Memref sig .tc .vmem S1x512 .f32) (harg4 : arg4.IsWhole)
    (arg5 : Memref sig .tc .vmem S2000x256 .f32) (harg5 : arg5.IsWhole) (arg6 : Memref sig .tc .vmem S2000x256 .f32) (harg6 : arg6.IsWhole)
    (arg7 : Memref sig .tc .vmem S2000x256 .f32) (harg7 : arg7.IsWhole)
    (x : Vec F S2000x128 .f32) (wc : Vec F S128x256 .f32) (vc : Vec F S128x512 .f32) (br : Vec F S1x512 .f32) (K : PUnit → sProp 𝕄) :
    iprop(owns (c : Thread nD τ) arg1 fullShare x ∗ owns (c : Thread nD τ) arg2 fullShare wc ∗ owns (c : Thread nD τ) arg3 fullShare vc
        ∗ owns (c : Thread nD τ) arg4 fullShare br
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wc ∗ owns (c : Thread nD τ) arg3 fullShare vc
            ∗ owns (c : Thread nD τ) arg4 fullShare br
            ∗ owns (c : Thread nD τ) arg5 fullShare (resultP x wc) ∗ owns (c : Thread nD τ) arg6 fullShare (resultLo x vc br)
            ∗ owns (c : Thread nD τ) arg7 fullShare (resultHi x vc br)) -∗ K ⟨⟩))
      ⊢ wp frame (wpE (defs₀ (F := F)) Variants.none c none) E
          (cc0__prologue_kernel i arg1 harg1 arg2 harg2 arg3 harg3 arg4 harg4 arg5 harg5 arg6 harg6 arg7 harg7) K := by
  simp only [cc0__prologue_kernel_eq_skeleton]; unfold cc0__prologue_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (filled _)
  isplitl [H5]
  · iexists _; isplitr
    swap; · iexact H5
    ipureintro
    exact View.read_writes_eq_canon _ _ _ (filled _)
  iexists _; isplitr
  swap; · iexact H6
  ipureintro
  exact View.read_writes_eq_canon _ _ _ (filled _)

/-! ## The pipeline's proof data -/

/-- The arrays as the call finds them; after the body each input's buffer at its block and each output's at its
    `result…` of the input blocks; nothing else touched, nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => resultP (blk V c 0 t) (blk V c 1 t)
    | ⟨5, _⟩ => resultLo (blk V c 0 t) (blk V c 2 t) (blk V c 3 t)
    | ⟨6, _⟩ => resultHi (blk V c 0 t) (blk V c 2 t) (blk V c 3 t)
  Φ _ := Pipeline.ΦA spec0 c
  q _ := fullShare
  owed _ := 0

theorem dat_A (c : Dev nD) (w : Fin cfg0.W) : (dat V c).A w = V c (Pipeline.arrRef spec0 w) := by dsimp only [dat]
theorem afterX (c : Dev nD) (t : Fin cfg0.N) : (dat V c).after 0 t = blk V c 0 t := by dsimp only [dat]
theorem afterWc (c : Dev nD) (t : Fin cfg0.N) : (dat V c).after 1 t = blk V c 1 t := by dsimp only [dat]
theorem afterVc (c : Dev nD) (t : Fin cfg0.N) : (dat V c).after 2 t = blk V c 2 t := by dsimp only [dat]
theorem afterBr (c : Dev nD) (t : Fin cfg0.N) : (dat V c).after 3 t = blk V c 3 t := by dsimp only [dat]
theorem afterP (c : Dev nD) (t : Fin cfg0.N) : (dat V c).after 4 t = resultP (blk V c 0 t) (blk V c 1 t) := by dsimp only [dat]
theorem afterLo (c : Dev nD) (t : Fin cfg0.N) :
    (dat V c).after 5 t = resultLo (blk V c 0 t) (blk V c 2 t) (blk V c 3 t) := by dsimp only [dat]
theorem afterHi (c : Dev nD) (t : Fin cfg0.N) :
    (dat V c).after 6 t = resultHi (blk V c 0 t) (blk V c 2 t) (blk V c 3 t) := by dsimp only [dat]

theorem beforeX (c : Dev nD) (t : Fin cfg0.N) (d) : (dat V c).before 0 t d = blk V c 0 t :=
  foundX V (dat V c) (dat_A V c 0) (afterX V c) t d
theorem beforeWc (c : Dev nD) (t : Fin cfg0.N) (d) : (dat V c).before 1 t d = blk V c 1 t :=
  foundWc V (dat V c) (dat_A V c 1) (afterWc V c) t d
theorem beforeVc (c : Dev nD) (t : Fin cfg0.N) (d) : (dat V c).before 2 t d = blk V c 2 t :=
  foundVc V (dat V c) (dat_A V c 2) (afterVc V c) t d
theorem beforeBr (c : Dev nD) (t : Fin cfg0.N) (d) : (dat V c).before 3 t d = blk V c 3 t :=
  foundBr V (dat V c) (dat_A V c 3) (afterBr V c) t d

/-! ## The body obligation at a generic point -/

/-- What the body is called with at point `t`, window by window, -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it gives back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

theorem body_at (c : Dev nD) (t : Fin cfg0.N) :
    handed V c t ⊢ wp frame (wpE (defs₀ (F := F)) Variants.none c none) Set.univ (bodyAt0 t) (fun _ => returned V c t) := by
  unfold handed returned bodyAt0
  simp only [beforeX, beforeWc, beforeVc, beforeBr]
  rw [show (dat V c).Φ t.succ = (dat V c).Φ t.castSucc from rfl,
    show (dat V c).owesAt () t.succ = (dat V c).owesAt () t.castSucc from rfl,
    afterX, afterWc, afterVc, afterBr, afterP, afterLo, afterHi]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _
    (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem obligation (c : Dev nD) : BodyObligation (dat (F := F) V c) (defs₀ (F := F)) Variants.none () Set.univ := fun t => by
  rw [bigSep_W0, bigSep_W0]
  exact body_at V c t

end Cert.KernelIdeal.Prologue

end
-- ==== Proof.KIStage1.lean ====
/-
  The middle call: the first pass over the filter matrix.

  At grid point t the body is handed a strip of 400 rows of the filter matrix A, the whole 10000 × 256 matrix P of
  first-iteration products, the matching 400 rows of the first-iteration skip terms S, and the two second-iteration
  weight matrices.  It forms the hidden rows max (A·P + S, 0), multiplies the left half by one weight matrix and the
  right half by the other, lays the two 400 × 128 products side by side and stores the 400 × 256 block whole.

  As for the other calls: the proof data at any number format and at a parameter `V` (the buffer contents when the
  call is entered), the body's triple, and the obligation at a generic grid point.
-/
import proofs.«118575_g50105088475803_cont_8to1c4_614_2_alg».proof.Proof.Gen.KernelIdeal.Launch
import proofs.«118575_g50105088475803_cont_8to1c4_614_2_alg».proof.Proof.Gen.KernelIdeal.Skeleton
import proofs.«118575_g50105088475803_cont_8to1c4_614_2_alg».proof.Proof.Gen.KernelIdeal.Points
import Idealize.ShloMosaic.Lib.Pipeline.FrameBody
import Idealize.ShloMosaic.Lib.Tactic

set_option maxRecDepth 16384

noncomputable section

namespace Cert.KernelIdeal.Stage1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the call finds the array. -/
def blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## An input's staging buffer holds its block at every point

The strip of A and the rows of S move with the point and are fetched every time; P and the two weight matrices
are one block each, fetched once, their index never moving. -/

theorem foundA {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl)
    (fun t => by rw [hafter]; unfold Dat.blockOf blk; rw [hA]; try rfl) t d).trans
    (by unfold Dat.fetched Dat.blockOf blk; rw [hA]; try rfl)

theorem foundP {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl)
    (fun t => by rw [hafter]; unfold Dat.blockOf blk; rw [hA]; try rfl) t d).trans
    (by unfold Dat.fetched Dat.blockOf blk; rw [hA]; try rfl)

theorem foundS {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl)
    (fun t => by rw [hafter]; unfold Dat.blockOf blk; rw [hA]; try rfl) t d).trans
    (by unfold Dat.fetched Dat.blockOf blk; rw [hA]; try rfl)

theorem foundWa {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl)
    (fun t => by rw [hafter]; unfold Dat.blockOf blk; rw [hA]; try rfl) t d).trans
    (by unfold Dat.fetched Dat.blockOf blk; rw [hA]; try rfl)

theorem foundWb {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl)
    (fun t => by rw [hafter]; unfold Dat.blockOf blk; rw [hA]; try rfl) t d).trans
    (by unfold Dat.fetched Dat.blockOf blk; rw [hA]; try rfl)

/-! ## The body's accesses: each buffer through the rectangle that is all of it -/

abbrev rA : Rect S400x10000 := Rect.unit (s := S400x10000) ![0, 0] S400x10000.size inb_S400x10000_S400x10000_0_0
abbrev rP : Rect S10000x256 := Rect.unit (s := S10000x256) ![0, 0] S10000x256.size inb_S10000x256_S10000x256_0_0
abbrev rS : Rect S400x256 := Rect.unit (s := S400x256) ![0, 0] S400x256.size inb_S400x256_S400x256_0_0
abbrev rW : Rect S128x128 := Rect.unit (s := S128x128) ![0, 0] S128x128.size inb_S128x128_S128x128_0_0

/-- What the output's staging buffer holds after the body: its one store, of the payload of the five loads. -/
def result (a : Vec F S400x10000 .f32) (p : Vec F S10000x256 .f32) (s : Vec F S400x256 .f32) (wa wb : Vec F S128x128 .f32) :
    Vec F S400x256 .f32 :=
  View.canon [⟨rS, k1_pay1 (View.ld a rA) (View.ld p rP) (View.ld s rS) (View.ld wa rW) (View.ld wb rW)⟩]

/-- The one store fills the buffer. -/
theorem filled (p0 : Vec F S400x256 .f32) (y : S400x256.Idx) :
    ∃ pc ∈ ([⟨rS, p0⟩] : List (View.Piece (Elt F) S400x256 .f32)), y ∈ pc.1.set :=
  View.cover_of_tiled [⟨rS, p0⟩] S400x256.size (by rfl) y

/-! ## The body's triple -/

set_option maxHeartbeats 1000000 in
/-- On whole staging buffers, the inputs' at known contents and the output's at anything, the body runs to the end
    leaving the inputs' as they were and the output's at `result` of them. -/
theorem body_runs (c : Dev nD) (E : Set ℕ) (i : grid1.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S400x256 .f32) (harg6 : arg6.IsWhole)
    (a : Vec F S400x10000 .f32) (p : Vec F S10000x256 .f32) (s : Vec F S400x256 .f32) (wa wb : Vec F S128x128 .f32) (K : PUnit → sProp 𝕄) :
    iprop(owns (c : Thread nD τ) arg1 fullShare a ∗ owns (c : Thread nD τ) arg2 fullShare p ∗ owns (c : Thread nD τ) arg3 fullShare s
        ∗ owns (c : Thread nD τ) arg4 fullShare wa ∗ owns (c : Thread nD τ) arg5 fullShare wb
        ∗ (∃ d, owns (c : Thread nD τ) arg6 fullShare d)
        ∗ (iprop(owns (c : Thread nD τ) arg1 fullShare a ∗ owns (c : Thread nD τ) arg2 fullShare p ∗ owns (c : Thread nD τ) arg3 fullShare s
            ∗ owns (c : Thread nD τ) arg4 fullShare wa ∗ owns (c : Thread nD τ) arg5 fullShare wb
            ∗ owns (c : Thread nD τ) arg6 fullShare (result a p s wa wb)) -∗ K ⟨⟩))
      ⊢ wp frame (wpE (defs₀ (F := F)) Variants.none c none) E
          (cc1__stage1_kernel i arg1 harg1 arg2 harg2 arg3 harg3 arg4 harg4 arg5 harg5 arg6 harg6) K := by
  simp only [cc1__stage1_kernel_eq_skeleton]; unfold cc1__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (filled _)

/-! ## The pipeline's proof data -/

/-- The arrays as the call finds them; after the body each input's buffer at its block and the output's at
    `result` of the input blocks; nothing else touched, nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => result (blk V c 0 t) (blk V c 1 t) (blk V c 2 t) (blk V c 3 t) (blk V c 4 t)
  Φ _ := Pipeline.ΦA spec1 c
  q _ := fullShare
  owed _ := 0

theorem dat_A (c : Dev nD) (w : Fin cfg1.W) : (dat V c).A w = V c (Pipeline.arrRef spec1 w) := by dsimp only [dat]
theorem afterA (c : Dev nD) (t : Fin cfg1.N) : (dat V c).after 0 t = blk V c 0 t := by dsimp only [dat]
theorem afterP (c : Dev nD) (t : Fin cfg1.N) : (dat V c).after 1 t = blk V c 1 t := by dsimp only [dat]
theorem afterS (c : Dev nD) (t : Fin cfg1.N) : (dat V c).after 2 t = blk V c 2 t := by dsimp only [dat]
theorem afterWa (c : Dev nD) (t : Fin cfg1.N) : (dat V c).after 3 t = blk V c 3 t := by dsimp only [dat]
theorem afterWb (c : Dev nD) (t : Fin cfg1.N) : (dat V c).after 4 t = blk V c 4 t := by dsimp only [dat]
theorem afterO (c : Dev nD) (t : Fin cfg1.N) :
    (dat V c).after 5 t = result (blk V c 0 t) (blk V c 1 t) (blk V c 2 t) (blk V c 3 t) (blk V c 4 t) := by dsimp only [dat]

theorem beforeA (c : Dev nD) (t : Fin cfg1.N) (d) : (dat V c).before 0 t d = blk V c 0 t :=
  foundA V (dat V c) (dat_A V c 0) (afterA V c) t d
theorem beforeP (c : Dev nD) (t : Fin cfg1.N) (d) : (dat V c).before 1 t d = blk V c 1 t :=
  foundP V (dat V c) (dat_A V c 1) (afterP V c) t d
theorem beforeS (c : Dev nD) (t : Fin cfg1.N) (d) : (dat V c).before 2 t d = blk V c 2 t :=
  foundS V (dat V c) (dat_A V c 2) (afterS V c) t d
theorem beforeWa (c : Dev nD) (t : Fin cfg1.N) (d) : (dat V c).before 3 t d = blk V c 3 t :=
  foundWa V (dat V c) (dat_A V c 3) (afterWa V c) t d
theorem beforeWb (c : Dev nD) (t : Fin cfg1.N) (d) : (dat V c).before 4 t d = blk V c 4 t :=
  foundWb V (dat V c) (dat_A V c 4) (afterWb V c) t d

/-! ## The body obligation at a generic point -/

/-- What the body is called with at point `t`, window by window, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it gives back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem body_at (c : Dev nD) (t : Fin cfg1.N) :
    handed V c t ⊢ wp frame (wpE (defs₀ (F := F)) Variants.none c none) Set.univ (bodyAt1 t) (fun _ => returned V c t) := by
  unfold handed returned bodyAt1
  simp only [beforeA, beforeP, beforeS, beforeWa, beforeWb]
  rw [show (dat V c).Φ t.succ = (dat V c).Φ t.castSucc from rfl,
    show (dat V c).owesAt () t.succ = (dat V c).owesAt () t.castSucc from rfl,
    afterA, afterP, afterS, afterWa, afterWb, afterO]
  iintro ⟨HΦ, Ho, ⟨%d0, H0⟩, ⟨%d1, H1⟩, ⟨%d2, H2⟩, ⟨%d3, H3⟩, ⟨%d4, H4⟩, ⟨%d5, H5⟩⟩
  iapply (body_runs c Set.univ (grid1.coords t) _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem obligation (c : Dev nD) : BodyObligation (dat (F := F) V c) (defs₀ (F := F)) Variants.none () Set.univ := fun t => by
  rw [bigSep_W1, bigSep_W1]
  exact body_at V c t

end Cert.KernelIdeal.Stage1

end
-- ==== Proof.KIStage2.lean ====
/-
  The last call: the second pass over the filter matrix.

  At grid point t the body is handed a strip of 400 rows of the filter matrix A (all 10000 columns), the whole
  10000 × 256 matrix P of second-iteration products, and the matching 400 rows of the second-iteration skip terms S.
  It forms max (A·P + S, 0), adds its two column halves and halves the sum, and stores the 400 × 128 result through
  the rectangle that is the whole output block.  Nothing is carried from one point to the next.

  This module states that as the pipeline's proof data at ANY number format and at a parameter `V`, the buffer
  contents when the call is entered: what each window's staging buffer holds after the body (an input's its block,
  the output's the body's one store read back), the body's triple, and the obligation at a generic grid point.
-/
import proofs.«118575_g50105088475803_cont_8to1c4_614_2_alg».proof.Proof.Gen.KernelIdeal.Launch
import proofs.«118575_g50105088475803_cont_8to1c4_614_2_alg».proof.Proof.Gen.KernelIdeal.Skeleton
import proofs.«118575_g50105088475803_cont_8to1c4_614_2_alg».proof.Proof.Gen.KernelIdeal.Points
import Idealize.ShloMosaic.Lib.Pipeline.FrameBody
import Idealize.ShloMosaic.Lib.Tactic

set_option maxRecDepth 16384

noncomputable section

namespace Cert.KernelIdeal.Stage2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the call finds the array. -/
def blk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## An input's staging buffer holds its block at every point

Whether the pipeline fetched the block at this point or not: the strip of A and the rows of S move with the point
and are fetched every time; P's one block is fetched once and its index never moves. -/

theorem foundA {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl)
    (fun t => by rw [hafter]; unfold Dat.blockOf blk; rw [hA]; try rfl) t d).trans
    (by unfold Dat.fetched Dat.blockOf blk; rw [hA]; try rfl)

theorem foundP {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl)
    (fun t => by rw [hafter]; unfold Dat.blockOf blk; rw [hA]; try rfl) t d).trans
    (by unfold Dat.fetched Dat.blockOf blk; rw [hA]; try rfl)

theorem foundS {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl)
    (fun t => by rw [hafter]; unfold Dat.blockOf blk; rw [hA]; try rfl) t d).trans
    (by unfold Dat.fetched Dat.blockOf blk; rw [hA]; try rfl)

/-! ## The body's accesses: each buffer through the rectangle that is all of it -/

abbrev rA : Rect S400x10000 := Rect.unit (s := S400x10000) ![0, 0] S400x10000.size inb_S400x10000_S400x10000_0_0
abbrev rP : Rect S10000x256 := Rect.unit (s := S10000x256) ![0, 0] S10000x256.size inb_S10000x256_S10000x256_0_0
abbrev rS : Rect S400x256 := Rect.unit (s := S400x256) ![0, 0] S400x256.size inb_S400x256_S400x256_0_0
abbrev rO : Rect S400x128 := Rect.unit (s := S400x128) ![0, 0] S400x128.size inb_S400x128_S400x128_0_0

/-- What the output's staging buffer holds after the body: its one store, of the payload of the three loads. -/
def result (a : Vec F S400x10000 .f32) (p : Vec F S10000x256 .f32) (s : Vec F S400x256 .f32) : Vec F S400x128 .f32 :=
  View.canon [⟨rO, k2_pay1 (View.ld a rA) (View.ld p rP) (View.ld s rS)⟩]

/-- The one store fills the buffer. -/
theorem filled (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

/-! ## The body's triple -/

set_option maxHeartbeats 1000000 in
/-- On whole staging buffers, the inputs' at known contents and the output's at anything, the body runs to the end
    leaving the inputs' as they were and the output's at `result` of them. -/
theorem body_runs (c : Dev nD) (E : Set ℕ) (i : grid2.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole) (arg4 : Memref sig .tc .vmem S400x128 .f32) (harg4 : arg4.IsWhole)
    (a : Vec F S400x10000 .f32) (p : Vec F S10000x256 .f32) (s : Vec F S400x256 .f32) (K : PUnit → sProp 𝕄) :
    iprop(owns (c : Thread nD τ) arg1 fullShare a ∗ owns (c : Thread nD τ) arg2 fullShare p ∗ owns (c : Thread nD τ) arg3 fullShare s
        ∗ (∃ d, owns (c : Thread nD τ) arg4 fullShare d)
        ∗ (iprop(owns (c : Thread nD τ) arg1 fullShare a ∗ owns (c : Thread nD τ) arg2 fullShare p ∗ owns (c : Thread nD τ) arg3 fullShare s
            ∗ owns (c : Thread nD τ) arg4 fullShare (result a p s)) -∗ K ⟨⟩))
      ⊢ wp frame (wpE (defs₀ (F := F)) Variants.none c none) E (cc2__stage2_kernel i arg1 harg1 arg2 harg2 arg3 harg3 arg4 harg4) K := by
  simp only [cc2__stage2_kernel_eq_skeleton]; unfold cc2__stage2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (filled _)

/-! ## The pipeline's proof data -/

/-- The arrays as the call finds them; after the body each input's buffer at its block and the output's at
    `result` of the input blocks; nothing else touched, nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => result (blk V c 0 t) (blk V c 1 t) (blk V c 2 t)
  Φ _ := Pipeline.ΦA spec2 c
  q _ := fullShare
  owed _ := 0

theorem dat_A (c : Dev nD) (w : Fin cfg2.W) : (dat V c).A w = V c (Pipeline.arrRef spec2 w) := by dsimp only [dat]
theorem afterA (c : Dev nD) (t : Fin cfg2.N) : (dat V c).after 0 t = blk V c 0 t := by dsimp only [dat]
theorem afterP (c : Dev nD) (t : Fin cfg2.N) : (dat V c).after 1 t = blk V c 1 t := by dsimp only [dat]
theorem afterS (c : Dev nD) (t : Fin cfg2.N) : (dat V c).after 2 t = blk V c 2 t := by dsimp only [dat]
theorem afterO (c : Dev nD) (t : Fin cfg2.N) :
    (dat V c).after 3 t = result (blk V c 0 t) (blk V c 1 t) (blk V c 2 t) := by dsimp only [dat]

theorem beforeA (c : Dev nD) (t : Fin cfg2.N) (d) : (dat V c).before 0 t d = blk V c 0 t :=
  foundA V (dat V c) (dat_A V c 0) (afterA V c) t d
theorem beforeP (c : Dev nD) (t : Fin cfg2.N) (d) : (dat V c).before 1 t d = blk V c 1 t :=
  foundP V (dat V c) (dat_A V c 1) (afterP V c) t d
theorem beforeS (c : Dev nD) (t : Fin cfg2.N) (d) : (dat V c).before 2 t d = blk V c 2 t :=
  foundS V (dat V c) (dat_A V c 2) (afterS V c) t d

/-! ## The body obligation at a generic point -/

/-- What the body is called with at point `t`, window by window, -/
def handed (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it gives back. -/
def returned (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem body_at (c : Dev nD) (t : Fin cfg2.N) :
    handed V c t ⊢ wp frame (wpE (defs₀ (F := F)) Variants.none c none) Set.univ (bodyAt2 t) (fun _ => returned V c t) := by
  unfold handed returned bodyAt2
  simp only [beforeA, beforeP, beforeS]
  rw [show (dat V c).Φ t.succ = (dat V c).Φ t.castSucc from rfl,
    show (dat V c).owesAt () t.succ = (dat V c).owesAt () t.castSucc from rfl,
    afterA, afterP, afterS, afterO]
  iintro ⟨HΦ, Ho, ⟨%d0, H0⟩, ⟨%d1, H1⟩, ⟨%d2, H2⟩, ⟨%d3, H3⟩⟩
  iapply (body_runs c Set.univ (grid2.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation (c : Dev nD) : BodyObligation (dat (F := F) V c) (defs₀ (F := F)) Variants.none () Set.univ := fun t => by
  rw [bigSep_W2, bigSep_W2]
  exact body_at V c t

end Cert.KernelIdeal.Stage2

end
-- ==== Proof.KIWhole.lean ====
/-
  The whole run of @main: four host operations that lay the weights side by side, then the three calls.

  Between two items a core holds every unscoped buffer whole at known contents:
    B0  the launch memory;
    B1  after the host operations (the side-by-side weight matrices and the bias row written, nothing else touched);
    B2, B3, B4  after each call — that call's arrays at what its write-backs leave, every other buffer as before.
  Each call is entered from the contents before it and left at the contents after it; besides the buffers only the
  generator register and the statement that the core owes nothing ride along.  The run's post says that every
  unscoped buffer ends at B4.  A buffer that no host operation and no call writes reads back, through the four
  steps, to the launch memory: that is the frame; the last call's output array at B4 is the result.
-/
import proofs.«118575_g50105088475803_cont_8to1c4_614_2_alg».proof.Proof.KIPrologue
import proofs.«118575_g50105088475803_cont_8to1c4_614_2_alg».proof.Proof.KIStage1
import proofs.«118575_g50105088475803_cont_8to1c4_614_2_alg».proof.Proof.KIStage2
import proofs.«118575_g50105088475803_cont_8to1c4_614_2_alg».proof.Proof.Gen.KernelIdeal.Regions
import Idealize.ShloMosaic.Lib.Pipeline.RegionsLoop
import Idealize.ShloMosaic.Lib.Pipeline.FrameSuffix
import Idealize.ShloMosaic.Lib.Ring

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents between items -/

/-- At launch. -/
abbrev B0 : Dev nD → Valuation τ sig (Elt F) := fun c b => m ((c : Dev nD), b)
/-- After the host operations. -/
abbrev B1 : Dev nD → Valuation τ sig (Elt F) := fun c => StableHlo.after hostOps0 (B0 m c)
/-- The same, read at the TensorCore's references: what the first call's proof data take. -/
abbrev E1 : (c : Dev nD) → (b : Ref sig .tc) → Buf (Elt F) ((c : Thread nD τ).loc b) := fun c b => B1 m c b
/-- After the first call. -/
def B2 (c : Dev nD) : Valuation τ sig (Elt F) :=
  Pipeline.withArrays spec0 c (B1 m c) fun w => (Prologue.dat (E1 m) c).arrAt w cfg0.N
abbrev E2 : (c : Dev nD) → (b : Ref sig .tc) → Buf (Elt F) ((c : Thread nD τ).loc b) := fun c b => B2 m c b
/-- After the middle call. -/
def B3 (c : Dev nD) : Valuation τ sig (Elt F) :=
  Pipeline.withArrays spec1 c (B2 m c) fun w => (Stage1.dat (E2 m) c).arrAt w cfg1.N
abbrev E3 : (c : Dev nD) → (b : Ref sig .tc) → Buf (Elt F) ((c : Thread nD τ).loc b) := fun c b => B3 m c b
/-- After the last call. -/
def B4 (c : Dev nD) : Valuation τ sig (Elt F) :=
  Pipeline.withArrays spec2 c (B3 m c) fun w => (Stage2.dat (E3 m) c).arrAt w cfg2.N
abbrev E4 : (c : Dev nD) → (b : Ref sig .tc) → Buf (Elt F) ((c : Thread nD τ).loc b) := fun c b => B4 m c b

/-! A call's array ends at what its write-backs leave; any other buffer is untouched. -/

theorem B2_arr (c : Dev nD) (w : Fin cfg0.W) :
    B2 m c (Proc.devRef .tc (Pipeline.arrRef spec0 w)) = (Prologue.dat (E1 m) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B3_arr (c : Dev nD) (w : Fin cfg1.W) :
    B3 m c (Proc.devRef .tc (Pipeline.arrRef spec1 w)) = (Stage1.dat (E2 m) c).arrAt w cfg1.N := by
  unfold B3; exact Pipeline.withArrays_arr spec1 launch1.win.arr_inj c _ _ w
theorem B3_other (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
theorem B4_arr (c : Dev nD) (w : Fin cfg2.W) :
    B4 m c (Proc.devRef .tc (Pipeline.arrRef spec2 w)) = (Stage2.dat (E3 m) c).arrAt w cfg2.N := by
  unfold B4; exact Pipeline.withArrays_arr spec2 launch2.win.arr_inj c _ _ w
theorem B4_other (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb

/-- The two facts the exit of a call needs: each of its arrays at what the pipeline leaves, the rest as entered. -/
theorem leaves0 (c : Dev nD) (w : Fin cfg0.W) : (Prologue.dat (E1 m) c).arrAt w cfg0.N = E2 m c (Pipeline.arrRef spec0 w) :=
  (B2_arr m c w).symm
theorem rest0 (c : Dev nD) : ∀ b, b ∉ Finset.univ.image (Pipeline.arrRef spec0) → E2 m c b = E1 m c b :=
  fun b hb => B2_other m c b fun w e => hb (Finset.mem_image.mpr ⟨w, Finset.mem_univ _, e⟩)
theorem leaves1 (c : Dev nD) (w : Fin cfg1.W) : (Stage1.dat (E2 m) c).arrAt w cfg1.N = E3 m c (Pipeline.arrRef spec1 w) :=
  (B3_arr m c w).symm
theorem rest1 (c : Dev nD) : ∀ b, b ∉ Finset.univ.image (Pipeline.arrRef spec1) → E3 m c b = E2 m c b :=
  fun b hb => B3_other m c b fun w e => hb (Finset.mem_image.mpr ⟨w, Finset.mem_univ _, e⟩)
theorem leaves2 (c : Dev nD) (w : Fin cfg2.W) : (Stage2.dat (E3 m) c).arrAt w cfg2.N = E4 m c (Pipeline.arrRef spec2 w) :=
  (B4_arr m c w).symm
theorem rest2 (c : Dev nD) : ∀ b, b ∉ Finset.univ.image (Pipeline.arrRef spec2) → E4 m c b = E3 m c b :=
  fun b hb => B4_other m c b fun w e => hb (Finset.mem_image.mpr ⟨w, Finset.mem_univ _, e⟩)

/-! ## The proof-data family and what rides beside the buffers -/

/-- Each call's proof data at the contents it is entered from. -/
def pdats : (p : Fin 3) → (c : Dev nD) → Dat τ (Elt F) Unit ℕ (UR sig nD τ) ℕ (Pipeline.pin (pcfgs (F := F)) adm p) c
  | ⟨0, _⟩ => fun c => Prologue.dat (E1 m) c
  | ⟨1, _⟩ => fun c => Stage1.dat (E2 m) c
  | ⟨2, _⟩ => fun c => Stage2.dat (E3 m) c

abbrev 𝒱 : Variants := Variants.none
/-- No core owes another anything. -/
abbrev L : GSem nD τ sig → Finset Unit := fun _ => ∅
abbrev lv : GSem nD τ sig → Unit → ℕ := fun _ _ => 0
/-- Beside the buffers: the generator register at some state, and the core owing nothing. -/
abbrev Beside (c : Dev nD) : sProp 𝕄 := iprop((∃ r, prngReg c r) ∗ ∃ W, owes (c : Thread nD τ) (0 : CellTallies nD τ sig Unit) W)

/-- The host operations as a segment, from the launch contents. -/
abbrev hostSeg : Pipeline.HostSeg (Name := ℕ) (U := UR sig nD τ) (pcfgs (F := F)) defs₀ 𝒱 L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Last (c : Dev nD) : sProp 𝕄 := iprop(StableHlo.held (c : Thread nD τ) (Pipeline.ucRefs τ sig) (B4 m c) ∗ ∃ r, prngReg c r)

/-! ## The calls as segments -/

set_option backward.isDefEq.respectTransparency.types false in
/-- The first call: entered from B1, left at B2. -/
def call0 : Pipeline.RegionSeg (pcfgs (F := F)) adm (pdats m) () defs₀ 𝒱 L lv 0 where
  win := launch0.win.to₀
  block_pos := launch0.block_pos
  stage_whole := launch0.stage_whole
  K := PEmpty
  osem k := k.elim
  ho := Pipeline.OwnSemFacts.none _
  hbody c := (Prologue.obligation (E1 m) c).loose
  hwaits := Pipeline.hwaits_of_owed_zero _ _ _ _ L lv 0 fun _ _ => rfl
  pre c := iprop(StableHlo.held (c : Thread nD τ) (Pipeline.ucRefs τ sig) (B1 m c) ∗ Beside c)
  post c := iprop(StableHlo.held (c : Thread nD τ) (Pipeline.ucRefs τ sig) (B2 m c) ∗ Beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (leaves0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The middle call: entered from B2, left at B3. -/
def call1 : Pipeline.RegionSeg (pcfgs (F := F)) adm (pdats m) () defs₀ 𝒱 L lv 1 where
  win := launch1.win.to₀
  block_pos := launch1.block_pos
  stage_whole := launch1.stage_whole
  K := PEmpty
  osem k := k.elim
  ho := Pipeline.OwnSemFacts.none _
  hbody c := (Stage1.obligation (E2 m) c).loose
  hwaits := Pipeline.hwaits_of_owed_zero _ _ _ _ L lv 1 fun _ _ => rfl
  pre c := iprop(StableHlo.held (c : Thread nD τ) (Pipeline.ucRefs τ sig) (B2 m c) ∗ Beside c)
  post c := iprop(StableHlo.held (c : Thread nD τ) (Pipeline.ucRefs τ sig) (B3 m c) ∗ Beside c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (leaves1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last call: entered from B3, left at B4 (what the launch reads at the end). -/
def call2 : Pipeline.RegionSeg (pcfgs (F := F)) adm (pdats m) () defs₀ 𝒱 L lv 2 where
  win := launch2.win.to₀
  block_pos := launch2.block_pos
  stage_whole := launch2.stage_whole
  K := PEmpty
  osem k := k.elim
  ho := Pipeline.OwnSemFacts.none _
  hbody c := (Stage2.obligation (E3 m) c).loose
  hwaits := Pipeline.hwaits_of_owed_zero _ _ _ _ L lv 2 fun _ _ => rfl
  pre c := iprop(StableHlo.held (c : Thread nD τ) (Pipeline.ucRefs τ sig) (B3 m c) ∗ Beside c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (leaves2 m c) (rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱 L lv) :=
  [ .host (hostSeg m), .region (call0 m), .region (call1 m), .region (call2 m) ]

/-- @main is the run of these segments. -/
theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer holds the last boundary's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱 L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := Last m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-! ## What each item leaves alone -/

/-- The host operations write only the four laid-out operands. -/
theorem B1_other (c : Dev nD) (b : Ref sig .tc) (h : b ∉ hostOps0_W) : B1 m c b = B0 m c b :=
  StableHlo.after_of_writes_sub hostOps0 _ hostOps0_writes h

/-- The first call changes only its three outputs. -/
theorem B2_keeps (c : Dev nD) (b : Ref sig .tc) (h : b ∉ ([main_v4_0, main_v4_1, main_v4_2] : List (Ref sig .tc))) :
    B2 m c (Proc.devRef .tc b) = B1 m c (Proc.devRef .tc b) := by
  by_cases hw : ∀ w, Pipeline.arrRef spec0 w ≠ b
  · exact B2_other m c b hw
  · obtain ⟨w, rfl⟩ := not_forall_not.mp hw
    rw [B2_arr]
    have hin : (cfg0.win w).isOut = false := by
      match w with
      | ⟨0, _⟩ => rfl
      | ⟨1, _⟩ => rfl
      | ⟨2, _⟩ => rfl
      | ⟨3, _⟩ => rfl
      | ⟨4, _⟩ => exact absurd (show Pipeline.arrRef spec0 (4 : Fin 7) ∈ ([main_v4_0, main_v4_1, main_v4_2] : List (Ref sig .tc)) by decide) h
      | ⟨5, _⟩ => exact absurd (show Pipeline.arrRef spec0 (5 : Fin 7) ∈ ([main_v4_0, main_v4_1, main_v4_2] : List (Ref sig .tc)) by decide) h
      | ⟨6, _⟩ => exact absurd (show Pipeline.arrRef spec0 (6 : Fin 7) ∈ ([main_v4_0, main_v4_1, main_v4_2] : List (Ref sig .tc)) by decide) h
    exact ((Prologue.dat (E1 m) c).arrAt_in w hin _).trans (Prologue.dat_A (E1 m) c w)

/-- The middle call changes only its output. -/
theorem B3_keeps (c : Dev nD) (b : Ref sig .tc) (h : b ∉ ([main_v5] : List (Ref sig .tc))) :
    B3 m c (Proc.devRef .tc b) = B2 m c (Proc.devRef .tc b) := by
  by_cases hw : ∀ w, Pipeline.arrRef spec1 w ≠ b
  · exact B3_other m c b hw
  · obtain ⟨w, rfl⟩ := not_forall_not.mp hw
    rw [B3_arr]
    have hin : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd (show Pipeline.arrRef spec1 (5 : Fin 6) ∈ ([main_v5] : List (Ref sig .tc)) by decide) h
    exact ((Stage1.dat (E2 m) c).arrAt_in w hin _).trans (Stage1.dat_A (E2 m) c w)

/-- The last call changes only its output. -/
theorem B4_keeps (c : Dev nD) (b : Ref sig .tc) (h : b ∉ ([main_v6] : List (Ref sig .tc))) :
    B4 m c (Proc.devRef .tc b) = B3 m c (Proc.devRef .tc b) := by
  by_cases hw : ∀ w, Pipeline.arrRef spec2 w ≠ b
  · exact B4_other m c b hw
  · obtain ⟨w, rfl⟩ := not_forall_not.mp hw
    rw [B4_arr]
    have hin : (cfg2.win w).isOut = false := by
      match w with
      | ⟨0, _⟩ => rfl
      | ⟨1, _⟩ => rfl
      | ⟨2, _⟩ => rfl
      | ⟨3, _⟩ => exact absurd (show Pipeline.arrRef spec2 (3 : Fin 4) ∈ ([main_v6] : List (Ref sig .tc)) by decide) h
    exact ((Stage2.dat (E3 m) c).arrAt_in w hin _).trans (Stage2.dat_A (E3 m) c w)

/-- A buffer that no host operation and no call writes ends as launched. -/
theorem B4_launch (c : Dev nD) (b : Ref sig .tc)
    (h : b ∉ ([main_v0, main_v1, main_v2, main_v3, main_v4_0, main_v4_1, main_v4_2, main_v5, main_v6] : List (Ref sig .tc))) :
    B4 m c (Proc.devRef .tc b) = m ((c : Thread nD τ).loc b) := by
  have h4 : b ∉ ([main_v6] : List (Ref sig .tc)) := fun e => h (by simp only [List.mem_cons, List.not_mem_nil, or_false] at e ⊢; simp [e])
  have h3 : b ∉ ([main_v5] : List (Ref sig .tc)) := fun e => h (by simp only [List.mem_cons, List.not_mem_nil, or_false] at e ⊢; simp [e])
  have h2 : b ∉ ([main_v4_0, main_v4_1, main_v4_2] : List (Ref sig .tc)) := fun e => h (by
    simp only [List.mem_cons, List.not_mem_nil, or_false] at e ⊢; rcases e with e | e | e <;> simp [e])
  have h1 : b ∉ (hostOps0_W : List (Ref sig .tc)) := fun e => h (by
    simp only [hostOps0_W, List.mem_cons, List.not_mem_nil, or_false] at e ⊢; rcases e with e | e | e | e <;> simp [e])
  exact (B4_keeps m c b h4).trans <| (B3_keeps m c b h3).trans <| (B2_keeps m c b h2).trans <| (B1_other m c b h1).trans rfl

/-- The frame: every argument array ends holding what it held at launch. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (B4_launch m c main_arg0 (by decide)),
     (h c _ (mem_uc main_arg1 (by decide))).trans (B4_launch m c main_arg1 (by decide)),
     (h c _ (mem_uc main_arg2 (by decide))).trans (B4_launch m c main_arg2 (by decide)),
     (h c _ (mem_uc main_arg3 (by decide))).trans (B4_launch m c main_arg3 (by decide)),
     (h c _ (mem_uc main_arg4 (by decide))).trans (B4_launch m c main_arg4 (by decide)),
     (h c _ (mem_uc main_arg5 (by decide))).trans (B4_launch m c main_arg5 (by decide)),
     (h c _ (mem_uc main_arg6 (by decide))).trans (B4_launch m c main_arg6 (by decide)),
     (h c _ (mem_uc main_arg7 (by decide))).trans (B4_launch m c main_arg7 (by decide)),
     (h c _ (mem_uc main_arg8 (by decide))).trans (B4_launch m c main_arg8 (by decide)),
     (h c _ (mem_uc main_arg9 (by decide))).trans (B4_launch m c main_arg9 (by decide)),
     (h c _ (mem_uc main_arg10 (by decide))).trans (B4_launch m c main_arg10 (by decide)),
     (h c _ (mem_uc main_arg11 (by decide))).trans (B4_launch m c main_arg11 (by decide)),
     (h c _ (mem_uc main_arg12 (by decide))).trans (B4_launch m c main_arg12 (by decide)),
     (h c _ (mem_uc main_arg13 (by decide))).trans (B4_launch m c main_arg13 (by decide))⟩)
    (run m ρ)

end Cert.KernelIdeal.Whole

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«118575_g50105088475803_cont_8to1c4_614_2_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.Spec.lean ====
/-
  The ARMA convolution as functions on the extended reals.

  Reference form.  One graph-convolutional-skip layer is
      layer A x h W V β = max (A·(h·W) + x·V + β, 0)
  (the bias row added last), a stack is two layers, the first fed with x itself, and the result is half the sum of
  two stacks with separate weights.

  Kernel form.  The two stacks share A, so their right-hand operands are laid side by side: one product x·[W | W'],
  one skip term x·[V₀ | V₀' | V₁ | V₁'] + bias row whose column halves feed the two iterations, a hidden matrix
  max (A·P + S, 0) of width 2·128 whose halves are multiplied by the second-iteration weights and laid side by side
  again, and at the end half the sum of the two column halves.  Every stage function is ROW-LOCAL in its first
  arguments (row p of the result reads row p of `A` and `S` only), so the same function describes a block of rows.
-/
import proofs.«118575_g50105088475803_cont_8to1c4_614_2_alg».proof.Proof.LibProduct
import Idealize.ShloMosaic.Lib.ValueIdx
import Idealize.ShloMosaic.PureOps.Ideal

noncomputable section

namespace Cert.Arma

open Idealize.ShloMosaic Idealize.ShloMosaic.ValueIdx Cert.LibProduct

/-- An `[a, b]` matrix of extended reals. -/
abbrev Mat (a b : ℕ) : Type := (⟨2, ![a, b]⟩ : Shape).Idx → EReal
/-- A length-`b` vector of extended reals. -/
abbrev Vc (b : ℕ) : Type := (⟨1, ![b]⟩ : Shape).Idx → EReal

/-! ## Reference form -/

/-- `max (A·(h·W) + x·V + β, 0)`: the products first, the bias row last. -/
def layer {n f d c : ℕ} (A : Mat n n) (x : Mat n f) (h : Mat n d) (W : Mat d c) (V : Mat f c) (β : Vc c) : Mat n c :=
  fun i => max ((product A (product h W) i + product x V i) + β (ix1 (i 1))) 0

/-- Two layers, the first one fed with `x`. -/
def stack {n f c : ℕ} (A : Mat n n) (x : Mat n f) (W₀ : Mat f c) (V₀ : Mat f c) (β₀ : Vc c) (W₁ : Mat c c) (V₁ : Mat f c)
    (β₁ : Vc c) : Mat n c :=
  layer A x (layer A x x W₀ V₀ β₀) W₁ V₁ β₁

/-- Half the sum of the two stacks. -/
def out {n f c : ℕ} (A : Mat n n) (x : Mat n f) (W00 V00 : Mat f c) (b00 : Vc c) (W01 : Mat c c) (V01 : Mat f c) (b01 : Vc c)
    (W10 V10 : Mat f c) (b10 : Vc c) (W11 : Mat c c) (V11 : Mat f c) (b11 : Vc c) : Mat n c :=
  fun i => ((1 / 2 : ℝ) : EReal) * (stack A x W00 V00 b00 W01 V01 b01 i + stack A x W10 V10 b10 W11 V11 b11 i)

/-! ## Kernel form -/

/-- Columns `o … o + b − 1` of a matrix. -/
def cols {r t : ℕ} (b o : ℕ) (h : o + b ≤ t) (P : Mat r t) : Mat r b :=
  fun i => P (ix2 (i 0) ⟨o + (i 1).val, Nat.lt_of_lt_of_le (Nat.add_lt_add_left (show (i 1).val < b from (i 1).isLt) o) h⟩)

theorem cols_apply {r t : ℕ} (b o : ℕ) (h : o + b ≤ t) (P : Mat r t) (p : Fin r) (q : Fin b) :
    cols b o h P (ix2 p q) = P (ix2 p ⟨o + q.val, Nat.lt_of_lt_of_le (Nat.add_lt_add_left q.isLt o) h⟩) := rfl

/-- Two `[r, 128]` matrices side by side. -/
def beside {r : ℕ} (L R : Mat r 128) : Mat r 256 :=
  fun i => if h : (i 1).val < 128 then L (ix2 (i 0) ⟨(i 1).val, h⟩)
    else R (ix2 (i 0) ⟨(i 1).val - 128, by have := (show (i 1).val < 256 from (i 1).isLt); omega⟩)

/-- The first products of both stacks at once: `x·[W | W']`. -/
def prodAll {r f : ℕ} (x : Mat r f) (wc : Mat f 256) : Mat r 256 := product x wc

/-- All four skip terms at once: `x·[V₀ | V₀' | V₁ | V₁'] + bias row`. -/
def skipAll {r f : ℕ} (x : Mat r f) (vc : Mat f 512) (br : Mat 1 512) : Mat r 512 :=
  fun i => product x vc i + br (ix2 (0 : Fin 1) (i 1))

/-- The skip terms of the first iteration (columns 0 … 255) -/
def skipLo {r f : ℕ} (x : Mat r f) (vc : Mat f 512) (br : Mat 1 512) : Mat r 256 := cols 256 0 (by norm_num) (skipAll x vc br)
/-- and of the second (columns 256 … 511). -/
def skipHi {r f : ℕ} (x : Mat r f) (vc : Mat f 512) (br : Mat 1 512) : Mat r 256 := cols 256 256 (by norm_num) (skipAll x vc br)

/-- Both stacks' hidden rows after one iteration: `max (A·P + S, 0)`. -/
def hidden {r n : ℕ} (A : Mat r n) (P : Mat n 256) (S : Mat r 256) : Mat r 256 :=
  fun i => max (product A P i + S i) 0

/-- The second iteration's products: each half of the hidden rows times its own weight, side by side. -/
def nextProd {r n : ℕ} (A : Mat r n) (P : Mat n 256) (S : Mat r 256) (Wa Wb : Mat 128 128) : Mat r 256 :=
  beside (product (cols 128 0 (by norm_num) (hidden A P S)) Wa) (product (cols 128 128 (by norm_num) (hidden A P S)) Wb)

/-- Half the sum of the two column halves of the hidden rows. -/
def meanOut {r n : ℕ} (A : Mat r n) (P : Mat n 256) (S : Mat r 256) : Mat r 128 :=
  fun i => ((1 / 2 : ℝ) : EReal) * (cols 128 0 (by norm_num) (hidden A P S) i + cols 128 128 (by norm_num) (hidden A P S) i)

/-- The kernel's three stages composed, from the laid-out operands. -/
def kernelOut {n f : ℕ} (A : Mat n n) (x : Mat n f) (wc : Mat f 256) (vc : Mat f 512) (br : Mat 1 512) (Wa Wb : Mat 128 128) :
    Mat n 128 :=
  meanOut A (nextProd A (prodAll x wc) (skipLo x vc br) Wa Wb) (skipHi x vc br)

end Cert.Arma

end
-- ==== Proof.LibBiasRow.lean ====
/-
  A bias row added to a matrix, with or without a clamp at zero, read at an entry given by its coordinates, for any
  extents a × b, on the extended reals, in the two spellings programs print.

  * The vector unit's: the matrix and a `[1, b]` row come through identity casts, the row is broadcast down the `a`
    rows and added; the clamp is the maximum with a splat of the zero word.
  * The host's: a `[1, b]` row broadcast down the `a` rows (`broadcast_in_dim` over both axes) and added; the clamp is
    the maximum with the zero word broadcast from a scalar.
  * A `[b]` vector reshaped to the row `[1, b]` is that vector placed as the row by `broadcast_in_dim`.
  Nothing is rearranged, so nothing needs finiteness.
-/
import proofs.«118575_g50105088475803_cont_8to1c4_614_2_alg».proof.Proof.LibRowMax
import Idealize.ShloMosaic.Lib.ValueLayout
import Idealize.ShloMosaic.Lib.Pipeline.Value
import Idealize.ShloMosaic.PureOps.Ideal.Laws

noncomputable section

namespace Cert.LibBiasRow

open Idealize.ShloMosaic Idealize.ShloMosaic.ValueIdx Cert.LibRowMax

variable {α : Type} {a b : ℕ}

/-- The host's zero matrix (the zero word broadcast from a scalar) reads the zero word at every entry. -/
theorem host_zero_apply (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 0x00000000#32) (ix2 p q)
      = Ideal.ofBits .f32 0x00000000#32 :=
  broadcastInDim_apply _ h0 _ (ix2 p q) ix0 (fun ax => ax.elim0)

/-- The vector unit's bias row added to a matrix, at `(p, q)`. -/
theorem vector_bias_apply (y : FVec Ideal ⟨2, ![a, b]⟩ .f32) (β : FVec Ideal ⟨2, ![1, b]⟩ .f32)
    (hβ : (⟨2, ![1, b]⟩ : Shape).ShapeCasts ⟨2, ![1, b]⟩) (hbc : (⟨2, ![1, b]⟩ : Shape).Broadcasts ⟨2, ![a, b]⟩)
    (p : Fin a) (q : Fin b) :
    addf y (broadcastTo ⟨2, ![a, b]⟩ (shapeCast ⟨2, ![1, b]⟩ β hβ) hbc) (ix2 p q) = y (ix2 p q) + β (ix2 (0 : Fin 1) q) := by
  rw [shapeCast_self]
  show y (ix2 p q) + broadcastTo ⟨2, ![a, b]⟩ β hbc (ix2 p q) = _
  rw [broadcastTo_1b_ab_apply β hbc p q]

/-- The vector unit's bias row added to a matrix and clamped at zero, at `(p, q)`. -/
theorem vector_bias_clamp_apply (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩)
    (p : Fin a) (q : Fin b) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32)) (ix2 p q)
      = max (x (ix2 p q) + β (ix2 (0 : Fin 1) q)) (Ideal.ofBits .f32 0x00000000#32) := by
  rw [shapeCast_self, shapeCast_self]
  show max (x (ix2 p q) + broadcastTo ⟨2, ![a, b]⟩ β hbc (ix2 p q)) (Ideal.ofBits .f32 0x00000000#32) = _
  rw [broadcastTo_1b_ab_apply β hbc p q]

/-- The host's bias row added to a matrix, at `(p, q)`. -/
theorem host_bias_apply (Y : FVec Ideal ⟨2, ![a, b]⟩ .f32) (β : FVec Ideal ⟨2, ![1, b]⟩ .f32)
    (h2 : (⟨2, ![1, b]⟩ : Shape).BroadcastsInDim ⟨2, ![a, b]⟩ ![0, 1]) (p : Fin a) (q : Fin b) :
    addf Y (broadcastInDim ⟨2, ![a, b]⟩ ![0, 1] h2 β) (ix2 p q) = Y (ix2 p q) + β (ix2 (0 : Fin 1) q) := by
  show Y (ix2 p q) + broadcastInDim ⟨2, ![a, b]⟩ ![0, 1] h2 β (ix2 p q) = _
  rw [broadcastInDim_1b_ab_apply β h2 p q]

/-- The host's bias row added to a matrix and clamped at zero, at `(p, q)`. -/
theorem host_bias_clamp_apply (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 β))
        (broadcastInDim ⟨2, ![a, b]⟩ ![] h0 (constant (F := Ideal) ⟨0, ![]⟩ .f32 0x00000000#32)) (ix2 p q)
      = max (X (ix2 p q) + β (ix2 (0 : Fin 1) q)) (Ideal.ofBits .f32 0x00000000#32) := by
  show max (X (ix2 p q) + broadcastInDim ⟨2, ![a, b]⟩ ![0, 1] h2 β (ix2 p q))
      (broadcastInDim ⟨2, ![a, b]⟩ ![] h0 (constant (F := Ideal) ⟨0, ![]⟩ .f32 0x00000000#32) (ix2 p q)) = _
  rw [host_zero_apply h0 p q, broadcastInDim_1b_ab_apply β h2 p q]

/-- A `[b]` vector reshaped to the row `[1, b]` is the vector placed as that row. -/
theorem shapeCast_row_eq (v : (⟨1, ![b]⟩ : Shape).Idx → α) (hc : (⟨1, ![b]⟩ : Shape).ShapeCasts ⟨2, ![1, b]⟩)
    (h : (⟨1, ![b]⟩ : Shape).BroadcastsInDim ⟨2, ![1, b]⟩ ![1]) :
    shapeCast ⟨2, ![1, b]⟩ v hc = broadcastInDim ⟨2, ![1, b]⟩ ![1] h v := by
  funext j
  obtain ⟨u, q, rfl⟩ : ∃ (u : Fin 1) (q : Fin b), j = ix2 u q := ⟨j 0, j 1, eq_ix2 j⟩
  rw [broadcastInDim_b_1b_apply v h u q]
  exact shapeCast_a_1a_apply v hc u q

end Cert.LibBiasRow

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.LibSideBySide.lean ====
/-
  A matrix product whose right factor is two matrices side by side, over the extended reals, for any extents.

  Write `[w₀ | w₁]` for the `[k, t]` matrix whose first `b₁` columns are `w₀` and whose remaining `b₂` columns are
  `w₁`. Column `j` of the product `x · [w₀ | w₁]` is the sum over the contracted coordinate `e` of
  `x (i, e) · [w₀ | w₁] (e, j)`, and the joined matrix at `(e, j)` is `w₀ (e, j)` for `j < b₁` and `w₁ (e, j − b₁)`
  otherwise. So the first `b₁` columns of the product are `x · w₀` and the columns from `b₁` on are `x · w₁`: taking the two
  column ranges of the joined product apart gives back the two separate products, term by term of the same sums. No
  property of the entries (finiteness, sign) is used: only which entry each summand reads.
-/
import Idealize.ShloMosaic.Lib.ValueIdx
import Idealize.ShloMosaic.Lib.Pipeline.Value
import Idealize.ShloMosaic.PureOps.Ideal.Laws
import proofs.«118575_g50105088475803_cont_8to1c4_614_2_alg».proof.Proof.LibProduct
import proofs.«118575_g50105088475803_cont_8to1c4_614_2_alg».proof.Proof.LibStack

noncomputable section

namespace Cert.LibSideBySide

open Idealize.ShloMosaic Idealize.ShloMosaic.ValueIdx Cert.LibProduct

variable {α : Type} {a k b b₁ b₂ t o : ℕ}

/-- Columns `o … o + b − 1` of an `[a, t]` matrix read at `(p, q)`: the matrix at `(p, o + q)`. -/
theorem slice_cols_apply (P : (⟨2, ![a, t]⟩ : Shape).Idx → α)
    (h : (⟨2, ![a, t]⟩ : Shape).Slices ![0, o] ⟨2, ![a, b]⟩) (p : Fin a) (q : Fin b) (q' : Fin t)
    (hq : q'.val = o + q.val) :
    extractStridedSlice ⟨2, ![a, b]⟩ ![0, o] P h (ix2 p q) = P (ix2 p q') :=
  extractStridedSlice_apply ![0, o] P h (ix2 p q) (ix2 p q') fun ax => by
    match ax with
    | ⟨0, _⟩ => show p.val = 0 + p.val; omega
    | ⟨1, _⟩ => exact hq

/-- A left column of `x · [w₀ | w₁]` is the same column of `x · w₀`. -/
theorem product_beside_left (x : (⟨2, ![a, k]⟩ : Shape).Idx → EReal) (w₀ : (⟨2, ![k, b₁]⟩ : Shape).Idx → EReal)
    (w₁ : (⟨2, ![k, b₂]⟩ : Shape).Idx → EReal)
    (h : Shape.Concatenates [(⟨2, ![k, b₁]⟩ : Shape), ⟨2, ![k, b₂]⟩] ⟨2, ![k, t]⟩ 1)
    (i : Fin a) (j : Fin b₁) (j' : Fin t) (hj : j'.val = j.val) :
    product x (concatenate ⟨2, ![k, t]⟩ 1 [⟨⟨2, ![k, b₁]⟩, w₀⟩, ⟨⟨2, ![k, b₂]⟩, w₁⟩] h) (ix2 i j')
      = product x w₀ (ix2 i j) :=
  Finset.sum_congr rfl fun e _ => congrArg (x (ix2 i e) * ·) (Cert.LibStack.beside_left w₀ w₁ h e j j' hj)

/-- Column `b₁ + j` of `x · [w₀ | w₁]` is column `j` of `x · w₁`. -/
theorem product_beside_right (x : (⟨2, ![a, k]⟩ : Shape).Idx → EReal) (w₀ : (⟨2, ![k, b₁]⟩ : Shape).Idx → EReal)
    (w₁ : (⟨2, ![k, b₂]⟩ : Shape).Idx → EReal)
    (h : Shape.Concatenates [(⟨2, ![k, b₁]⟩ : Shape), ⟨2, ![k, b₂]⟩] ⟨2, ![k, t]⟩ 1)
    (i : Fin a) (j : Fin b₂) (j' : Fin t) (hj : j'.val = j.val + b₁) :
    product x (concatenate ⟨2, ![k, t]⟩ 1 [⟨⟨2, ![k, b₁]⟩, w₀⟩, ⟨⟨2, ![k, b₂]⟩, w₁⟩] h) (ix2 i j')
      = product x w₁ (ix2 i j) :=
  Finset.sum_congr rfl fun e _ => congrArg (x (ix2 i e) * ·) (Cert.LibStack.beside_right w₀ w₁ h e j j' hj)

/-- The first `b₁` columns of `x · [w₀ | w₁]`, taken out as a matrix, are `x · w₀`. -/
theorem left_cols_product (x : (⟨2, ![a, k]⟩ : Shape).Idx → EReal) (w₀ : (⟨2, ![k, b₁]⟩ : Shape).Idx → EReal)
    (w₁ : (⟨2, ![k, b₂]⟩ : Shape).Idx → EReal)
    (h : Shape.Concatenates [(⟨2, ![k, b₁]⟩ : Shape), ⟨2, ![k, b₂]⟩] ⟨2, ![k, t]⟩ 1)
    (hs : (⟨2, ![a, t]⟩ : Shape).Slices ![0, 0] ⟨2, ![a, b₁]⟩) (ht : t = b₁ + b₂) :
    extractStridedSlice ⟨2, ![a, b₁]⟩ ![0, 0]
        (product x (concatenate ⟨2, ![k, t]⟩ 1 [⟨⟨2, ![k, b₁]⟩, w₀⟩, ⟨⟨2, ![k, b₂]⟩, w₁⟩] h)) hs
      = product x w₀ := by
  funext idx
  obtain ⟨p, q, rfl⟩ : ∃ (p : Fin a) (q : Fin b₁), idx = ix2 p q := ⟨idx 0, idx 1, eq_ix2 idx⟩
  have hq : q.val < t := by have := q.isLt; omega
  exact (slice_cols_apply _ hs p q ⟨q.val, hq⟩ (by show q.val = 0 + q.val; omega)).trans
    (product_beside_left x w₀ w₁ h p q ⟨q.val, hq⟩ rfl)

/-- The columns from `b₁` on of `x · [w₀ | w₁]`, taken out as a matrix, are `x · w₁`. -/
theorem right_cols_product (x : (⟨2, ![a, k]⟩ : Shape).Idx → EReal) (w₀ : (⟨2, ![k, b₁]⟩ : Shape).Idx → EReal)
    (w₁ : (⟨2, ![k, b₂]⟩ : Shape).Idx → EReal)
    (h : Shape.Concatenates [(⟨2, ![k, b₁]⟩ : Shape), ⟨2, ![k, b₂]⟩] ⟨2, ![k, t]⟩ 1)
    (hs : (⟨2, ![a, t]⟩ : Shape).Slices ![0, b₁] ⟨2, ![a, b₂]⟩) (ht : t = b₁ + b₂) :
    extractStridedSlice ⟨2, ![a, b₂]⟩ ![0, b₁]
        (product x (concatenate ⟨2, ![k, t]⟩ 1 [⟨⟨2, ![k, b₁]⟩, w₀⟩, ⟨⟨2, ![k, b₂]⟩, w₁⟩] h)) hs
      = product x w₁ := by
  funext idx
  obtain ⟨p, q, rfl⟩ : ∃ (p : Fin a) (q : Fin b₂), idx = ix2 p q := ⟨idx 0, idx 1, eq_ix2 idx⟩
  have hq : b₁ + q.val < t := by have := q.isLt; omega
  exact (slice_cols_apply _ hs p q ⟨b₁ + q.val, hq⟩ rfl).trans
    (product_beside_right x w₀ w₁ h p q ⟨b₁ + q.val, hq⟩ (by show b₁ + q.val = q.val + b₁; omega))

end Cert.LibSideBySide

end
-- ==== Proof.KIPayloads.lean ====
/-
  The arithmetic of the kernel's three bodies, read as the stage functions of the specification.

  Each body computes, from the blocks it has loaded, one or more matrices by matrix products into a zero accumulator,
  sums, a maximum with zero, column slices, a side-by-side join and a halving.  Read entry by entry on the extended
  reals these are the specification's stage functions: the first body's product is `prodAll`, its two column slices of
  the biased product are `skipLo` and `skipHi`; the second body's join of the two half products is `nextProd`; the
  third body's halved sum of the two column halves is `meanOut`.

  The stage functions are row-local: row `p` of a result reads only row `p` of the row-indexed operands.  So when the
  rows of a block are rows `g p` of a whole matrix, the block's result is rows `g p` of the whole matrix's result.
-/
import proofs.«118575_g50105088475803_cont_8to1c4_614_2_alg».proof.Proof.Gen.KernelIdeal.Skeleton
import proofs.«118575_g50105088475803_cont_8to1c4_614_2_alg».proof.Proof.Spec
import proofs.«118575_g50105088475803_cont_8to1c4_614_2_alg».proof.Proof.LibProduct
import proofs.«118575_g50105088475803_cont_8to1c4_614_2_alg».proof.Proof.LibRowMax
import proofs.«118575_g50105088475803_cont_8to1c4_614_2_alg».proof.Proof.LibBiasRow
import proofs.«118575_g50105088475803_cont_8to1c4_614_2_alg».proof.Proof.LibSideBySide
import proofs.«118575_g50105088475803_cont_8to1c4_614_2_alg».proof.Proof.LibStack
import Idealize.ShloMosaic.Lib.ValueIdx
import Idealize.ShloMosaic.Lib.ValueLayout
import Idealize.ShloMosaic.Lib.Pipeline.Value
import Idealize.ShloMosaic.PureOps.Ideal.Laws

noncomputable section

namespace Cert.Arma.Pay

open Idealize.ShloMosaic Idealize.ShloMosaic.ValueIdx Cert.LibProduct Cert.Arma
open Cert.KernelIdeal Cert.KernelIdeal.Gen

/-! ## Row-locality of the stage functions -/

/-- A column slice of a row-local matrix is row-local. -/
theorem cols_rows {r n t : ℕ} (g : Fin r → Fin n) (b o : ℕ) (h : o + b ≤ t) (H : Mat r t) (H' : Mat n t)
    (hH : ∀ p q, H (ix2 p q) = H' (ix2 (g p) q)) (p : Fin r) (q : Fin b) :
    cols b o h H (ix2 p q) = cols b o h H' (ix2 (g p) q) :=
  (cols_apply b o h H p q).trans ((hH p _).trans (cols_apply b o h H' (g p) q).symm)

/-- The left half of two matrices side by side. -/
theorem beside_lo {r : ℕ} (L R : Mat r 128) (p : Fin r) (q : Fin 256) (h : q.val < 128) :
    beside L R (ix2 p q) = L (ix2 p ⟨q.val, h⟩) := dif_pos h

/-- The right half of two matrices side by side. -/
theorem beside_hi {r : ℕ} (L R : Mat r 128) (p : Fin r) (q : Fin 256) (h : ¬ q.val < 128) :
    beside L R (ix2 p q) = R (ix2 p ⟨q.val - 128, by have := q.isLt; omega⟩) := dif_neg h

theorem prodAll_rows {r n f : ℕ} (g : Fin r → Fin n) (x : Mat r f) (X : Mat n f) (wc : Mat f 256)
    (hx : ∀ p e, x (ix2 p e) = X (ix2 (g p) e)) (p : Fin r) (q : Fin 256) :
    prodAll x wc (ix2 p q) = prodAll X wc (ix2 (g p) q) :=
  product_congr x wc X wc (ix2 p q) (ix2 (g p) q) (fun e => hx p e) (fun _ => rfl)

/-- The biased product of all four skip weights is row-local. -/
theorem skipAll_rows {r n f : ℕ} (g : Fin r → Fin n) (x : Mat r f) (X : Mat n f) (vc : Mat f 512) (br : Mat 1 512)
    (hx : ∀ p e, x (ix2 p e) = X (ix2 (g p) e)) (p : Fin r) (q : Fin 512) :
    skipAll x vc br (ix2 p q) = skipAll X vc br (ix2 (g p) q) :=
  congrArg (· + br (ix2 (0 : Fin 1) q))
    (product_congr x vc X vc (ix2 p q) (ix2 (g p) q) (fun e => hx p e) (fun _ => rfl))

theorem skipLo_rows {r n f : ℕ} (g : Fin r → Fin n) (x : Mat r f) (X : Mat n f) (vc : Mat f 512) (br : Mat 1 512)
    (hx : ∀ p e, x (ix2 p e) = X (ix2 (g p) e)) (p : Fin r) (q : Fin 256) :
    skipLo x vc br (ix2 p q) = skipLo X vc br (ix2 (g p) q) :=
  cols_rows g 256 0 _ _ _ (skipAll_rows g x X vc br hx) p q

theorem skipHi_rows {r n f : ℕ} (g : Fin r → Fin n) (x : Mat r f) (X : Mat n f) (vc : Mat f 512) (br : Mat 1 512)
    (hx : ∀ p e, x (ix2 p e) = X (ix2 (g p) e)) (p : Fin r) (q : Fin 256) :
    skipHi x vc br (ix2 p q) = skipHi X vc br (ix2 (g p) q) :=
  cols_rows g 256 256 _ _ _ (skipAll_rows g x X vc br hx) p q

/-- The hidden rows are row-local in the filter rows and the skip rows. -/
theorem hidden_rows {r n k : ℕ} (g : Fin r → Fin n) (a : Mat r k) (A : Mat n k) (P : Mat k 256) (s : Mat r 256)
    (S : Mat n 256) (ha : ∀ p e, a (ix2 p e) = A (ix2 (g p) e)) (hs : ∀ p q, s (ix2 p q) = S (ix2 (g p) q))
    (p : Fin r) (q : Fin 256) : hidden a P s (ix2 p q) = hidden A P S (ix2 (g p) q) := by
  show max (product a P (ix2 p q) + s (ix2 p q)) 0 = max (product A P (ix2 (g p) q) + S (ix2 (g p) q)) 0
  rw [product_congr a P A P (ix2 p q) (ix2 (g p) q) (fun e => ha p e) (fun _ => rfl), hs p q]

theorem nextProd_rows {r n k : ℕ} (g : Fin r → Fin n) (a : Mat r k) (A : Mat n k) (P : Mat k 256) (s : Mat r 256)
    (S : Mat n 256) (Wa Wb : Mat 128 128) (ha : ∀ p e, a (ix2 p e) = A (ix2 (g p) e))
    (hs : ∀ p q, s (ix2 p q) = S (ix2 (g p) q)) (p : Fin r) (q : Fin 256) :
    nextProd a P s Wa Wb (ix2 p q) = nextProd A P S Wa Wb (ix2 (g p) q) := by
  have hH := hidden_rows g a A P s S ha hs
  unfold nextProd
  by_cases h : q.val < 128
  · rw [beside_lo _ _ p q h, beside_lo _ _ (g p) q h]
    exact product_congr _ _ _ _ (ix2 p _) (ix2 (g p) _) (fun e => cols_rows g 128 0 _ _ _ hH p e) (fun _ => rfl)
  · rw [beside_hi _ _ p q h, beside_hi _ _ (g p) q h]
    exact product_congr _ _ _ _ (ix2 p _) (ix2 (g p) _) (fun e => cols_rows g 128 128 _ _ _ hH p e) (fun _ => rfl)

theorem meanOut_rows {r n k : ℕ} (g : Fin r → Fin n) (a : Mat r k) (A : Mat n k) (P : Mat k 256) (s : Mat r 256)
    (S : Mat n 256) (ha : ∀ p e, a (ix2 p e) = A (ix2 (g p) e)) (hs : ∀ p q, s (ix2 p q) = S (ix2 (g p) q))
    (p : Fin r) (q : Fin 128) : meanOut a P s (ix2 p q) = meanOut A P S (ix2 (g p) q) := by
  have hH := hidden_rows g a A P s S ha hs
  show ((1 / 2 : ℝ) : EReal) * (cols 128 0 _ (hidden a P s) (ix2 p q) + cols 128 128 _ (hidden a P s) (ix2 p q))
    = ((1 / 2 : ℝ) : EReal) * (cols 128 0 _ (hidden A P S) (ix2 (g p) q) + cols 128 128 _ (hidden A P S) (ix2 (g p) q))
  rw [cols_rows g 128 0 _ _ _ hH p q, cols_rows g 128 128 _ _ _ hH p q]

/-! ## The kernel's literals -/

/-- The word `0x3F000000` denotes one half. -/
theorem ofBits_half : Ideal.ofBits .f32 0x3F000000#32 = ((1 / 2 : ℝ) : EReal) := by
  simp [Ideal.ofBits, Ideal.ieee, -EReal.coe_mul]; norm_num

/-! ## The hidden rows as the second and third bodies spell them -/

/-- The product into a zero accumulator, plus the skip rows, clamped at zero on the right: `max (A·P + S, 0)`. -/
theorem hidden_eq (a : FVec Ideal S400x10000 .f32) (P : FVec Ideal S10000x256 .f32) (s : FVec Ideal S400x256 .f32) :
    maximumf (addf (matmul (F := Ideal) dot_S400x10000_S10000x256_S400x256_1_0_0_1_n_n none a
          (shapeCast S10000x256 P shapeCasts_S10000x256_S10000x256) (constant S400x256 .f32 0x00000000#32))
        (shapeCast S400x256 s shapeCasts_S400x256_S400x256))
      (broadcast S400x256 (Scalar.ofBits (F := Ideal) .f32 0x00000000#32))
      = hidden a P s := by
  funext j
  obtain ⟨p, q, rfl⟩ : ∃ (p : Fin 400) (q : Fin 256), j = ix2 p q := ⟨j 0, j 1, eq_ix2 j⟩
  rw [shapeCast_self, shapeCast_self]
  show max (matmul (F := Ideal) dot_S400x10000_S10000x256_S400x256_1_0_0_1_n_n none a P (constant S400x256 .f32 0x00000000#32) (ix2 p q)
      + s (ix2 p q)) (Ideal.ofBits .f32 0x00000000#32) = max (product a P (ix2 p q) + s (ix2 p q)) 0
  rw [Ideal.ofBits_zero_f32]
  exact congrArg (fun z => max (z + s (ix2 p q)) 0)
    (Cert.LibRowMax.matmul_plain_apply dot_S400x10000_S10000x256_S400x256_1_0_0_1_n_n_wf none a P p q)

/-! ## The third body: half the sum of the two column halves -/

theorem stage2_mean (a : Vec Ideal S400x10000 .f32) (P : Vec Ideal S10000x256 .f32) (s : Vec Ideal S400x256 .f32) :
    k2_pay1 (F := Ideal) a P s = meanOut a P s := by
  funext j
  obtain ⟨p, q, rfl⟩ : ∃ (p : Fin 400) (q : Fin 128), j = ix2 p q := ⟨j 0, j 1, eq_ix2 j⟩
  have hq0 : 0 + q.val < 256 := by have := q.isLt; omega
  have hq1 : 128 + q.val < 256 := by have := q.isLt; omega
  dsimp only [k2_pay1]
  rw [hidden_eq a P s]
  show Ideal.ofBits .f32 0x3F000000#32
      * (extractStridedSlice S400x128 ![0, 0] (hidden a P s) slices_S400x256_o0_0_S400x128 (ix2 p q)
        + extractStridedSlice S400x128 ![0, 128] (hidden a P s) slices_S400x256_o0_128_S400x128 (ix2 p q))
    = ((1 / 2 : ℝ) : EReal) * (hidden a P s (ix2 p ⟨0 + q.val, hq0⟩) + hidden a P s (ix2 p ⟨128 + q.val, hq1⟩))
  rw [ofBits_half, Cert.LibSideBySide.slice_cols_apply (hidden a P s) slices_S400x256_o0_0_S400x128 p q ⟨0 + q.val, hq0⟩ rfl,
    Cert.LibSideBySide.slice_cols_apply (hidden a P s) slices_S400x256_o0_128_S400x128 p q ⟨128 + q.val, hq1⟩ rfl]

/-! ## Layout operations as the specification's column operations -/

/-- A unit-stride column slice is `cols`. -/
theorem slice_eq_cols {r t : ℕ} (b o : ℕ) (h : o + b ≤ t) (H : Mat r t)
    (hs : (⟨2, ![r, t]⟩ : Shape).Slices ![0, o] ⟨2, ![r, b]⟩) :
    extractStridedSlice ⟨2, ![r, b]⟩ ![0, o] H hs = cols b o h H := by
  funext j
  obtain ⟨p, q, rfl⟩ : ∃ (p : Fin r) (q : Fin b), j = ix2 p q := ⟨j 0, j 1, eq_ix2 j⟩
  exact (Cert.LibSideBySide.slice_cols_apply H hs p q
    ⟨o + q.val, Nat.lt_of_lt_of_le (Nat.add_lt_add_left q.isLt o) h⟩ rfl).trans (cols_apply b o h H p q).symm

/-- A two-piece join along the columns of two `[r, 128]` matrices is `beside`. -/
theorem concat_eq_beside {r : ℕ} (L R : Mat r 128)
    (hc : Shape.Concatenates [(⟨2, ![r, 128]⟩ : Shape), ⟨2, ![r, 128]⟩] ⟨2, ![r, 256]⟩ 1) :
    concatenate ⟨2, ![r, 256]⟩ 1 [⟨⟨2, ![r, 128]⟩, L⟩, ⟨⟨2, ![r, 128]⟩, R⟩] hc = beside L R := by
  funext j
  obtain ⟨p, q, rfl⟩ : ∃ (p : Fin r) (q : Fin 256), j = ix2 p q := ⟨j 0, j 1, eq_ix2 j⟩
  by_cases h : q.val < 128
  · exact (Cert.LibStack.beside_left L R hc p ⟨q.val, h⟩ q rfl).trans (beside_lo L R p q h).symm
  · exact (Cert.LibStack.beside_right L R hc p ⟨q.val - 128, by have := q.isLt; omega⟩ q
      (by show q.val = q.val - 128 + 128; omega)).trans (beside_hi L R p q h).symm

/-- A matrix product into the zero accumulator is `product`. -/
theorem matmul_eq_product {a k b : ℕ} (wf : DotDims.WF ⟨2, ![a, k]⟩ ⟨2, ![k, b]⟩ ⟨2, ![a, b]⟩ [1] [0] [0] [1] [] [])
    (x : FVec Ideal ⟨2, ![a, k]⟩ .f32) (w : FVec Ideal ⟨2, ![k, b]⟩ .f32) :
    FloatOps.matmul (Cert.LibRowMax.plainDims a k b wf) none x w (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf none x w p q

/-! ## The first body -/

theorem prologue_prod (x : Vec Ideal S2000x128 .f32) (wc : Vec Ideal S128x256 .f32) :
    k0_pay1 (F := Ideal) x wc = prodAll x wc := by
  dsimp only [k0_pay1]
  rw [shapeCast_self]
  exact matmul_eq_product dot_S2000x128_S128x256_S2000x256_1_0_0_1_n_n_wf x wc

/-- The biased product of all four skip weights. -/
theorem prologue_skipAll (x : Vec Ideal S2000x128 .f32) (vc : Vec Ideal S128x512 .f32) (br : Vec Ideal S1x512 .f32) :
    k0_pay2 (F := Ideal) x vc br = skipAll x vc br := by
  funext j
  obtain ⟨p, q, rfl⟩ : ∃ (p : Fin 2000) (q : Fin 512), j = ix2 p q := ⟨j 0, j 1, eq_ix2 j⟩
  dsimp only [k0_pay2]
  rw [shapeCast_self vc]
  refine (Cert.LibBiasRow.vector_bias_apply _ br shapeCasts_S1x512_S1x512 broadcasts_S1x512_S2000x512 p q).trans ?_
  exact congrArg (· + br (ix2 (0 : Fin 1) q))
    (Cert.LibRowMax.matmul_plain_apply dot_S2000x128_S128x512_S2000x512_1_0_0_1_n_n_wf none x vc p q)

theorem prologue_skipLo (x : Vec Ideal S2000x128 .f32) (vc : Vec Ideal S128x512 .f32) (br : Vec Ideal S1x512 .f32) :
    k0_pay3 (F := Ideal) x vc br = skipLo x vc br := by
  dsimp only [k0_pay3]
  rw [prologue_skipAll]
  exact slice_eq_cols 256 0 (by norm_num) (skipAll x vc br) slices_S2000x512_o0_0_S2000x256

theorem prologue_skipHi (x : Vec Ideal S2000x128 .f32) (vc : Vec Ideal S128x512 .f32) (br : Vec Ideal S1x512 .f32) :
    k0_pay4 (F := Ideal) x vc br = skipHi x vc br := by
  dsimp only [k0_pay4]
  rw [prologue_skipAll]
  exact slice_eq_cols 256 256 (by norm_num) (skipAll x vc br) slices_S2000x512_o0_256_S2000x256

/-! ## The second body: each half of the hidden rows times its weight, side by side -/

theorem stage1_next (a : Vec Ideal S400x10000 .f32) (P : Vec Ideal S10000x256 .f32) (s : Vec Ideal S400x256 .f32)
    (Wa Wb : Vec Ideal S128x128 .f32) : k1_pay1 (F := Ideal) a P s Wa Wb = nextProd a P s Wa Wb := by
  dsimp only [k1_pay1]
  rw [hidden_eq a P s]
  rw [slice_eq_cols 128 0 (by norm_num) (hidden a P s) slices_S400x256_o0_0_S400x128,
    slice_eq_cols 128 128 (by norm_num) (hidden a P s) slices_S400x256_o0_128_S400x128]
  refine Eq.trans ?_ (concat_eq_beside _ _ concatenates_S400x128_S400x128_S400x256_d1)
  rw [← matmul_eq_product dot_S400x128_S128x128_S400x128_1_0_0_1_n_n_wf (cols 128 0 (by norm_num) (hidden a P s)) Wa,
    ← matmul_eq_product dot_S400x128_S128x128_S400x128_1_0_0_1_n_n_wf (cols 128 128 (by norm_num) (hidden a P s)) Wb]
  rfl

end Cert.Arma.Pay

end
-- ==== Proof.KIValue0.lean ====
/-
  The first call's three output arrays, over the extended reals.

  Block t of each output is rows 2000·t … 2000·t + 1999.  What point t writes back into each is a payload of 2000 rows
  of x and of the whole laid-out operands: x·[W | W'] for the first output, the column halves of
  x·[V₀ | V₀' | V₁ | V₁'] + bias row for the other two.  Each payload is the stage function of Spec.lean at the block's
  height, the stage functions are row-local, the 5 blocks tile the 10000 rows: each array ends holding the stage
  function of the whole arrays.
-/
import proofs.«118575_g50105088475803_cont_8to1c4_614_2_alg».proof.Proof.KIPrologue
import proofs.«118575_g50105088475803_cont_8to1c4_614_2_alg».proof.Proof.KIPayloads
import proofs.«118575_g50105088475803_cont_8to1c4_614_2_alg».proof.Proof.Spec
import Idealize.ShloMosaic.Lib.Pipeline.Value
import Idealize.ShloMosaic.Lib.ValueIdx

set_option maxRecDepth 16384

noncomputable section

namespace Cert.KernelIdeal.PrologueV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Arma

variable (V : (c : Dev nD) → (b : Ref sig .tc) → Buf (Elt Ideal) ((c : Thread nD τ).loc b))

theorem hz : (![0, 0] : Fin 2 → Nat) = fun _ => 0 := funext fun a => by fin_cases a <;> rfl

/-- The first products of both stacks, -/
abbrev GP (c : Dev nD) : Mat 10000 256 := prodAll (V c main_arg0 : Mat 10000 128) (V c main_v0 : Mat 128 256)
/-- the first iteration's skip terms, -/
abbrev GLo (c : Dev nD) : Mat 10000 256 :=
  skipLo (V c main_arg0 : Mat 10000 128) (V c main_v1 : Mat 128 512) (V c main_v3 : Mat 1 512)
/-- and the second's, of the arrays as the call finds them. -/
abbrev GHi (c : Dev nD) : Mat 10000 256 :=
  skipHi (V c main_arg0 : Mat 10000 128) (V c main_v1 : Mat 128 512) (V c main_v3 : Mat 1 512)

/-- The block indices over the grid: the rows of x and the three outputs move with the point; the laid-out operands stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The blocks of the inputs -/

/-- The rows of x handed to point `t` are rows 2000·t + p of x. -/
theorem rows_x (c : Dev nD) (t : Fin cfg0.N) (ht : t.val < 5) (p : Fin 2000) (e : Fin 128) :
    (Prologue.blk V c 0 t : Mat 2000 128) (ix2 p e)
      = (V c main_arg0 : Mat 10000 128) (ix2 (⟨t.val * 2000 + p.val, by omega⟩ : Fin 10000) e) := by
  obtain ⟨e0, e1, -⟩ := idx_facts t
  show V c main_arg0 (((cfg0.win 0).blk t).view.emb (ix2 p e)) = V c main_arg0 (ix2 (⟨t.val * 2000 + p.val, by omega⟩ : Fin 10000) e)
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * e.val = e.val; omega

/-- Each laid-out operand is one block. -/
theorem whole_wc (c : Dev nD) (t : Fin cfg0.N) : (Prologue.blk V c 1 t : Mat 128 256) = (V c main_v0 : Mat 128 256) := by
  obtain ⟨-, -, e2, e3, -⟩ := idx_facts t
  funext y
  show V c main_v0 (((cfg0.win 1).blk t).view.emb y) = V c main_v0 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega
theorem whole_vc (c : Dev nD) (t : Fin cfg0.N) : (Prologue.blk V c 2 t : Mat 128 512) = (V c main_v1 : Mat 128 512) := by
  obtain ⟨-, -, -, -, e4, e5, -⟩ := idx_facts t
  funext y
  show V c main_v1 (((cfg0.win 2).blk t).view.emb y) = V c main_v1 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 512 + 1 * (y 1).val = (y 1).val; omega
theorem whole_br (c : Dev nD) (t : Fin cfg0.N) : (Prologue.blk V c 3 t : Mat 1 512) = (V c main_v3 : Mat 1 512) := by
  obtain ⟨-, -, -, -, -, -, e6, e7, -⟩ := idx_facts t
  funext y
  show V c main_v3 (((cfg0.win 3).blk t).view.emb y) = V c main_v3 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem points (t : Fin cfg0.N) : t.val < 5 := by have h := t.isLt; have hn : cfg0.N = 5 := N_0; omega

/-! ## What each point writes back -/

theorem flushedP_eq (c : Dev nD) (t : Fin cfg0.N) :
    (Prologue.dat V c).flushed 4 t = ((cfg0.win 4).blk t).view.read (Elt Ideal) (GP V c) := by
  show (cfg0.win 4).cut (grid0.coords t) ((Prologue.dat V c).after 4 t) = _
  rw [Prologue.afterP]
  unfold Prologue.resultP
  rw [View.canon_unit_zero hz]
  simp only [View.ld_unit_zero (S := S2000x128) hz, View.ld_unit_zero (S := S128x256) hz]
  rw [Pay.prologue_prod]
  have hN := points t
  obtain ⟨-, -, -, -, -, -, -, -, e8, e9, -⟩ := idx_facts t
  funext j
  obtain ⟨p, q, rfl⟩ : ∃ (p : Fin 2000) (q : Fin 256), j = ix2 p q := ⟨j 0, j 1, eq_ix2 j⟩
  have hemb : ((cfg0.win 4).blk t).view.emb (ix2 p q) = ix2 (⟨t.val * 2000 + p.val, by omega⟩ : Fin 10000) q := by
    funext a; apply Fin.ext
    match a with
    | ⟨0, _⟩ => show win0_4.index t (0 : Fin 2) * 2000 + 1 * p.val = t.val * 2000 + p.val; omega
    | ⟨1, _⟩ => show win0_4.index t (1 : Fin 2) * 256 + 1 * q.val = q.val; omega
  show prodAll (Prologue.blk V c 0 t) (Prologue.blk V c 1 t) (ix2 p q) = GP V c (((cfg0.win 4).blk t).view.emb (ix2 p q))
  rw [hemb, whole_wc V c t]
  exact Pay.prodAll_rows (fun p' : Fin 2000 => (⟨t.val * 2000 + p'.val, by omega⟩ : Fin 10000)) _ _ _ (fun p' e => rows_x V c t hN p' e) p q

theorem flushedLo_eq (c : Dev nD) (t : Fin cfg0.N) :
    (Prologue.dat V c).flushed 5 t = ((cfg0.win 5).blk t).view.read (Elt Ideal) (GLo V c) := by
  show (cfg0.win 5).cut (grid0.coords t) ((Prologue.dat V c).after 5 t) = _
  rw [Prologue.afterLo]
  unfold Prologue.resultLo
  rw [View.canon_unit_zero hz]
  simp only [View.ld_unit_zero (S := S2000x128) hz, View.ld_unit_zero (S := S128x512) hz, View.ld_unit_zero (S := S1x512) hz]
  rw [Pay.prologue_skipLo]
  have hN := points t
  obtain ⟨-, -, -, -, -, -, -, -, -, -, e10, e11, -⟩ := idx_facts t
  funext j
  obtain ⟨p, q, rfl⟩ : ∃ (p : Fin 2000) (q : Fin 256), j = ix2 p q := ⟨j 0, j 1, eq_ix2 j⟩
  have hemb : ((cfg0.win 5).blk t).view.emb (ix2 p q) = ix2 (⟨t.val * 2000 + p.val, by omega⟩ : Fin 10000) q := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  show skipLo (Prologue.blk V c 0 t) (Prologue.blk V c 2 t) (Prologue.blk V c 3 t) (ix2 p q)
    = GLo V c (((cfg0.win 5).blk t).view.emb (ix2 p q))
  rw [hemb, whole_vc V c t, whole_br V c t]
  exact Pay.skipLo_rows (fun p' : Fin 2000 => (⟨t.val * 2000 + p'.val, by omega⟩ : Fin 10000)) _ _ _ _ (fun p' e => rows_x V c t hN p' e) p q

theorem flushedHi_eq (c : Dev nD) (t : Fin cfg0.N) :
    (Prologue.dat V c).flushed 6 t = ((cfg0.win 6).blk t).view.read (Elt Ideal) (GHi V c) := by
  show (cfg0.win 6).cut (grid0.coords t) ((Prologue.dat V c).after 6 t) = _
  rw [Prologue.afterHi]
  unfold Prologue.resultHi
  rw [View.canon_unit_zero hz]
  simp only [View.ld_unit_zero (S := S2000x128) hz, View.ld_unit_zero (S := S128x512) hz, View.ld_unit_zero (S := S1x512) hz]
  rw [Pay.prologue_skipHi]
  have hN := points t
  obtain ⟨-, -, -, -, -, -, -, -, -, -, -, -, e12, e13⟩ := idx_facts t
  funext j
  obtain ⟨p, q, rfl⟩ : ∃ (p : Fin 2000) (q : Fin 256), j = ix2 p q := ⟨j 0, j 1, eq_ix2 j⟩
  have hemb : ((cfg0.win 6).blk t).view.emb (ix2 p q) = ix2 (⟨t.val * 2000 + p.val, by omega⟩ : Fin 10000) q := by
    funext a; apply Fin.ext
    match a with
    | ⟨0, _⟩ => show win0_6.index t (0 : Fin 2) * 2000 + 1 * p.val = t.val * 2000 + p.val; omega
    | ⟨1, _⟩ => show win0_6.index t (1 : Fin 2) * 256 + 1 * q.val = q.val; omega
  show skipHi (Prologue.blk V c 0 t) (Prologue.blk V c 2 t) (Prologue.blk V c 3 t) (ix2 p q)
    = GHi V c (((cfg0.win 6).blk t).view.emb (ix2 p q))
  rw [hemb, whole_vc V c t, whole_br V c t]
  exact Pay.skipHi_rows (fun p' : Fin 2000 => (⟨t.val * 2000 + p'.val, by omega⟩ : Fin 10000)) _ _ _ _ (fun p' e => rows_x V c t hN p' e) p q

/-! ## The blocks tile the rows -/

theorem mem_blkP (t : Fin cfg0.N) (i : S10000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v4_0).slice (win0_4.rect t)).set ↔ _
  rw [View.set_slice_whole, Rect.mem_set_unit]
  exact Iff.rfl
theorem mem_blkLo (t : Fin cfg0.N) (i : S10000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v4_1).slice (win0_5.rect t)).set ↔ _
  rw [View.set_slice_whole, Rect.mem_set_unit]
  exact Iff.rfl
theorem mem_blkHi (t : Fin cfg0.N) (i : S10000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v4_2).slice (win0_6.rect t)).set ↔ _
  rw [View.set_slice_whole, Rect.mem_set_unit]
  exact Iff.rfl

/-- Row r lies in the block of point r / 2000. -/
theorem coverP (i : S10000x256.Idx) : ∃ t : Fin cfg0.N, (cfg0.win 4).flush t = true ∧ i ∈ ((cfg0.win 4).blk t).view.set := by
  have hi0 : (i 0).val < 10000 := (i 0).isLt
  have hi1 : (i 1).val < 256 := (i 1).isLt
  have hn : cfg0.N = 5 := N_0
  let t : Fin cfg0.N := ⟨(i 0).val / 2000, by omega⟩
  obtain ⟨-, -, -, -, -, -, -, -, e8, e9, -⟩ := idx_facts t
  refine ⟨t, flush0_4 t, ?_⟩
  rw [mem_blkP]
  intro a
  match a with
  | ⟨0, _⟩ => show win0_4.index t (0 : Fin 2) * 2000 ≤ (i 0).val ∧ (i 0).val < win0_4.index t (0 : Fin 2) * 2000 + 2000; have : t.val = (i 0).val / 2000 := rfl; omega
  | ⟨1, _⟩ => show win0_4.index t (1 : Fin 2) * 256 ≤ (i 1).val ∧ (i 1).val < win0_4.index t (1 : Fin 2) * 256 + 256; omega
theorem coverLo (i : S10000x256.Idx) : ∃ t : Fin cfg0.N, (cfg0.win 5).flush t = true ∧ i ∈ ((cfg0.win 5).blk t).view.set := by
  have hi0 : (i 0).val < 10000 := (i 0).isLt
  have hi1 : (i 1).val < 256 := (i 1).isLt
  have hn : cfg0.N = 5 := N_0
  let t : Fin cfg0.N := ⟨(i 0).val / 2000, by omega⟩
  obtain ⟨-, -, -, -, -, -, -, -, -, -, e10, e11, -⟩ := idx_facts t
  refine ⟨t, flush0_5 t, ?_⟩
  rw [mem_blkLo]
  intro a
  match a with
  | ⟨0, _⟩ => show win0_5.index t (0 : Fin 2) * 2000 ≤ (i 0).val ∧ (i 0).val < win0_5.index t (0 : Fin 2) * 2000 + 2000; have : t.val = (i 0).val / 2000 := rfl; omega
  | ⟨1, _⟩ => show win0_5.index t (1 : Fin 2) * 256 ≤ (i 1).val ∧ (i 1).val < win0_5.index t (1 : Fin 2) * 256 + 256; omega
theorem coverHi (i : S10000x256.Idx) : ∃ t : Fin cfg0.N, (cfg0.win 6).flush t = true ∧ i ∈ ((cfg0.win 6).blk t).view.set := by
  have hi0 : (i 0).val < 10000 := (i 0).isLt
  have hi1 : (i 1).val < 256 := (i 1).isLt
  have hn : cfg0.N = 5 := N_0
  let t : Fin cfg0.N := ⟨(i 0).val / 2000, by omega⟩
  obtain ⟨-, -, -, -, -, -, -, -, -, -, -, -, e12, e13⟩ := idx_facts t
  refine ⟨t, flush0_6 t, ?_⟩
  rw [mem_blkHi]
  intro a
  match a with
  | ⟨0, _⟩ => show win0_6.index t (0 : Fin 2) * 2000 ≤ (i 0).val ∧ (i 0).val < win0_6.index t (0 : Fin 2) * 2000 + 2000; have : t.val = (i 0).val / 2000 := rfl; omega
  | ⟨1, _⟩ => show win0_6.index t (1 : Fin 2) * 256 ≤ (i 1).val ∧ (i 1).val < win0_6.index t (1 : Fin 2) * 256 + 256; omega

/-! ## The three output arrays after the call -/

theorem finalP (c : Dev nD) : (Prologue.dat V c).arrAt 4 cfg0.N = GP V c :=
  (Prologue.dat V c).arrAt_eq_of_cover 4 (GP V c) (fun t _ => flushedP_eq V c t) coverP
theorem finalLo (c : Dev nD) : (Prologue.dat V c).arrAt 5 cfg0.N = GLo V c :=
  (Prologue.dat V c).arrAt_eq_of_cover 5 (GLo V c) (fun t _ => flushedLo_eq V c t) coverLo
theorem finalHi (c : Dev nD) : (Prologue.dat V c).arrAt 6 cfg0.N = GHi V c :=
  (Prologue.dat V c).arrAt_eq_of_cover 6 (GHi V c) (fun t _ => flushedHi_eq V c t) coverHi

end Cert.KernelIdeal.PrologueV

end
-- ==== Proof.KIValue1.lean ====
/-
  The middle call's output array, over the extended reals.

  Block t of the output is rows 400·t … 400·t + 399.  What point t writes back is the body's payload of a strip of A
  at those rows, all of P, the same rows of S, and the two weight matrices.  The payload is `nextProd` of those
  blocks, `nextProd` is row-local, so the block is block t of `nextProd A P S Wa Wb` of the whole arrays; the 25
  blocks tile the 10000 rows, so the array ends holding that.
-/
import proofs.«118575_g50105088475803_cont_8to1c4_614_2_alg».proof.Proof.KIStage1
import proofs.«118575_g50105088475803_cont_8to1c4_614_2_alg».proof.Proof.KIPayloads
import proofs.«118575_g50105088475803_cont_8to1c4_614_2_alg».proof.Proof.Spec
import Idealize.ShloMosaic.Lib.Pipeline.Value
import Idealize.ShloMosaic.Lib.ValueIdx

set_option maxRecDepth 16384

noncomputable section

namespace Cert.KernelIdeal.Stage1V

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Arma

variable (V : (c : Dev nD) → (b : Ref sig .tc) → Buf (Elt Ideal) ((c : Thread nD τ).loc b))

theorem hz : (![0, 0] : Fin 2 → Nat) = fun _ => 0 := funext fun a => by fin_cases a <;> rfl

/-- The second iteration's products, of the arrays as the call finds them. -/
abbrev G (c : Dev nD) : Mat 10000 256 :=
  nextProd (V c main_arg1 : Mat 10000 10000) (V c main_v4_0 : Mat 10000 256) (V c main_v4_1 : Mat 10000 256)
    (V c main_arg5 : Mat 128 128) (V c main_arg11 : Mat 128 128)

/-- The block indices over the grid: the strip of A, the rows of S and the output move with the point; P and the
    weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `G`. -/
theorem flushed_eq (c : Dev nD) (t : Fin cfg1.N) :
    (Stage1.dat V c).flushed 5 t = ((cfg1.win 5).blk t).view.read (Elt Ideal) (G V c) := by
  show (cfg1.win 5).cut (grid1.coords t) ((Stage1.dat V c).after 5 t) = _
  rw [Stage1.afterO]
  unfold Stage1.result
  rw [View.canon_unit_zero hz]
  simp only [View.ld_unit_zero (S := S400x10000) hz, View.ld_unit_zero (S := S10000x256) hz, View.ld_unit_zero (S := S400x256) hz,
    View.ld_unit_zero (S := S128x128) hz]
  rw [Pay.stage1_next]
  obtain ⟨e0, e1, e2, e3, e4, e5, e6, e7, e8, e9, e10, e11⟩ := idx_facts t
  have hN : t.val < 25 := by have h := t.isLt; have hn : cfg1.N = 25 := N_1; omega
  funext j
  obtain ⟨p, q, rfl⟩ : ∃ (p : Fin 400) (q : Fin 256), j = ix2 p q := ⟨j 0, j 1, eq_ix2 j⟩
  have hemb : ((cfg1.win 5).blk t).view.emb (ix2 p q) = ix2 (⟨t.val * 400 + p.val, by omega⟩ : Fin 10000) q := by
    funext a; apply Fin.ext
    match a with
    | ⟨0, _⟩ => show win1_5.index t (0 : Fin 2) * 400 + 1 * p.val = t.val * 400 + p.val; omega
    | ⟨1, _⟩ => show win1_5.index t (1 : Fin 2) * 256 + 1 * q.val = q.val; omega
  show nextProd (Stage1.blk V c 0 t) (Stage1.blk V c 1 t) (Stage1.blk V c 2 t) (Stage1.blk V c 3 t) (Stage1.blk V c 4 t) (ix2 p q)
    = G V c (((cfg1.win 5).blk t).view.emb (ix2 p q))
  rw [hemb]
  -- P and the two weight matrices are one block each
  have hP : (Stage1.blk V c 1 t : Mat 10000 256) = (V c main_v4_0 : Mat 10000 256) := by
    funext y
    show V c main_v4_0 (((cfg1.win 1).blk t).view.emb y) = V c main_v4_0 y
    refine congrArg _ (funext fun a => Fin.ext ?_)
    match a with
    | ⟨0, _⟩ => show win1_1.index t (0 : Fin 2) * 10000 + 1 * (y 0).val = (y 0).val; omega
    | ⟨1, _⟩ => show win1_1.index t (1 : Fin 2) * 256 + 1 * (y 1).val = (y 1).val; omega
  have hWa : (Stage1.blk V c 3 t : Mat 128 128) = (V c main_arg5 : Mat 128 128) := by
    funext y
    show V c main_arg5 (((cfg1.win 3).blk t).view.emb y) = V c main_arg5 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hWb : (Stage1.blk V c 4 t : Mat 128 128) = (V c main_arg11 : Mat 128 128) := by
    funext y
    show V c main_arg11 (((cfg1.win 4).blk t).view.emb y) = V c main_arg11 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  rw [hP, hWa, hWb]
  -- the strip of A and the rows of S are rows 400·t + p of the whole arrays
  refine Pay.nextProd_rows (fun p' : Fin 400 => (⟨t.val * 400 + p'.val, by omega⟩ : Fin 10000)) _ _ _ _ _ _ _ (fun p' e => ?_) (fun p' q' => ?_) p q
  · show V c main_arg1 (((cfg1.win 0).blk t).view.emb (ix2 p' e)) = V c main_arg1 (ix2 (⟨t.val * 400 + p'.val, by omega⟩ : Fin 10000) e)
    refine congrArg _ (funext fun a => Fin.ext ?_)
    match a with
    | ⟨0, _⟩ => show win1_0.index t (0 : Fin 2) * 400 + 1 * p'.val = t.val * 400 + p'.val; omega
    | ⟨1, _⟩ => show win1_0.index t (1 : Fin 2) * 10000 + 1 * e.val = e.val; omega
  · show V c main_v4_1 (((cfg1.win 2).blk t).view.emb (ix2 p' q')) = V c main_v4_1 (ix2 (⟨t.val * 400 + p'.val, by omega⟩ : Fin 10000) q')
    refine congrArg _ (funext fun a => Fin.ext ?_)
    match a with
    | ⟨0, _⟩ => show win1_2.index t (0 : Fin 2) * 400 + 1 * p'.val = t.val * 400 + p'.val; omega
    | ⟨1, _⟩ => show win1_2.index t (1 : Fin 2) * 256 + 1 * q'.val = q'.val; omega

/-- An index of the array is in point `t`'s block iff each coordinate is in the block's range on its axis. -/
theorem mem_blk (t : Fin cfg1.N) (i : S10000x256.Idx) :
    i ∈ ((cfg1.win 5).blk t).view.set ↔ ∀ a : Fin 2, win1_5.index t a * S400x256.size a ≤ (i a).val ∧ (i a).val < win1_5.index t a * S400x256.size a + S400x256.size a := by
  show i ∈ ((View.whole main_v5).slice (win1_5.rect t)).set ↔ _
  rw [View.set_slice_whole, Rect.mem_set_unit]
  exact Iff.rfl

/-- Row r lies in the block of point r / 400. -/
theorem cover (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  have hn : cfg1.N = 25 := N_1
  let t : Fin cfg1.N := ⟨(i 0).val / 400, by omega⟩
  obtain ⟨e0, e1, e2, e3, e4, e5, e6, e7, e8, e9, e10, e11⟩ := idx_facts t
  refine ⟨t, flush1_5 t, ?_⟩
  rw [mem_blk]
  intro a
  match a with
  | ⟨0, _⟩ => show win1_5.index t (0 : Fin 2) * 400 ≤ (i 0).val ∧ (i 0).val < win1_5.index t (0 : Fin 2) * 400 + 400; have : t.val = (i 0).val / 400 := rfl; omega
  | ⟨1, _⟩ => show win1_5.index t (1 : Fin 2) * 256 ≤ (i 1).val ∧ (i 1).val < win1_5.index t (1 : Fin 2) * 256 + 256; omega

/-- The output array after the call. -/
theorem final (c : Dev nD) : (Stage1.dat V c).arrAt 5 cfg1.N = G V c :=
  (Stage1.dat V c).arrAt_eq_of_cover 5 (G V c) (fun t _ => flushed_eq V c t) cover

end Cert.KernelIdeal.Stage1V

end
-- ==== Proof.KIValue2.lean ====
/-
  The last call's output array, over the extended reals.

  Block t of the output is rows 400·t … 400·t + 399.  What point t writes back is the body's payload of its three
  input blocks: a strip of A at the same rows, all of P, and the same rows of S.  The payload is `meanOut` of those
  blocks, `meanOut` is row-local, so the block is block t of `meanOut A P S` of the whole arrays; the 25 blocks tile
  the 10000 rows, so the array ends holding `meanOut A P S`.
-/
import proofs.«118575_g50105088475803_cont_8to1c4_614_2_alg».proof.Proof.KIStage2
import proofs.«118575_g50105088475803_cont_8to1c4_614_2_alg».proof.Proof.KIPayloads
import proofs.«118575_g50105088475803_cont_8to1c4_614_2_alg».proof.Proof.Spec
import Idealize.ShloMosaic.Lib.Pipeline.Value
import Idealize.ShloMosaic.Lib.ValueIdx

set_option maxRecDepth 16384

noncomputable section

namespace Cert.KernelIdeal.Stage2V

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Arma

variable (V : (c : Dev nD) → (b : Ref sig .tc) → Buf (Elt Ideal) ((c : Thread nD τ).loc b))

theorem hz : (![0, 0] : Fin 2 → Nat) = fun _ => 0 := funext fun a => by fin_cases a <;> rfl

/-- Half the sum of the hidden rows' column halves, of the arrays as the call finds them. -/
abbrev G (c : Dev nD) : Mat 10000 128 :=
  meanOut (V c main_arg1 : Mat 10000 10000) (V c main_v5 : Mat 10000 256) (V c main_v4_2 : Mat 10000 256)

/-- The block indices over the grid: the strip of A, the rows of S and the output move with the point; P stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `G`. -/
theorem flushed_eq (c : Dev nD) (t : Fin cfg2.N) :
    (Stage2.dat V c).flushed 3 t = ((cfg2.win 3).blk t).view.read (Elt Ideal) (G V c) := by
  show (cfg2.win 3).cut (grid2.coords t) ((Stage2.dat V c).after 3 t) = _
  rw [Stage2.afterO]
  unfold Stage2.result
  rw [View.canon_unit_zero hz]
  simp only [View.ld_unit_zero (S := S400x10000) hz, View.ld_unit_zero (S := S10000x256) hz, View.ld_unit_zero (S := S400x256) hz]
  rw [Pay.stage2_mean]
  obtain ⟨e0, e1, e2, e3, e4, e5, e6, e7⟩ := idx_facts t
  have hN : t.val < 25 := by have h := t.isLt; have hn : cfg2.N = 25 := N_2; omega
  funext j
  obtain ⟨p, q, rfl⟩ : ∃ (p : Fin 400) (q : Fin 128), j = ix2 p q := ⟨j 0, j 1, eq_ix2 j⟩
  have hemb : ((cfg2.win 3).blk t).view.emb (ix2 p q) = ix2 (⟨t.val * 400 + p.val, by omega⟩ : Fin 10000) q := by
    funext a; apply Fin.ext
    match a with
    | ⟨0, _⟩ => show win2_3.index t (0 : Fin 2) * 400 + 1 * p.val = t.val * 400 + p.val; omega
    | ⟨1, _⟩ => show win2_3.index t (1 : Fin 2) * 128 + 1 * q.val = q.val; omega
  show meanOut (Stage2.blk V c 0 t) (Stage2.blk V c 1 t) (Stage2.blk V c 2 t) (ix2 p q)
    = G V c (((cfg2.win 3).blk t).view.emb (ix2 p q))
  rw [hemb]
  -- P's one block is all of P
  have hP : (Stage2.blk V c 1 t : Mat 10000 256) = (V c main_v5 : Mat 10000 256) := by
    funext y
    show V c main_v5 (((cfg2.win 1).blk t).view.emb y) = V c main_v5 y
    refine congrArg _ (funext fun a => Fin.ext ?_)
    match a with
    | ⟨0, _⟩ => show win2_1.index t (0 : Fin 2) * 10000 + 1 * (y 0).val = (y 0).val; omega
    | ⟨1, _⟩ => show win2_1.index t (1 : Fin 2) * 256 + 1 * (y 1).val = (y 1).val; omega
  rw [hP]
  -- the strip of A and the rows of S are rows 400·t + p of the whole arrays
  refine Pay.meanOut_rows (fun p' : Fin 400 => (⟨t.val * 400 + p'.val, by omega⟩ : Fin 10000)) _ _ _ _ _ (fun p' e => ?_) (fun p' q' => ?_) p q
  · show V c main_arg1 (((cfg2.win 0).blk t).view.emb (ix2 p' e)) = V c main_arg1 (ix2 (⟨t.val * 400 + p'.val, by omega⟩ : Fin 10000) e)
    refine congrArg _ (funext fun a => Fin.ext ?_)
    match a with
    | ⟨0, _⟩ => show win2_0.index t (0 : Fin 2) * 400 + 1 * p'.val = t.val * 400 + p'.val; omega
    | ⟨1, _⟩ => show win2_0.index t (1 : Fin 2) * 10000 + 1 * e.val = e.val; omega
  · show V c main_v4_2 (((cfg2.win 2).blk t).view.emb (ix2 p' q')) = V c main_v4_2 (ix2 (⟨t.val * 400 + p'.val, by omega⟩ : Fin 10000) q')
    refine congrArg _ (funext fun a => Fin.ext ?_)
    match a with
    | ⟨0, _⟩ => show win2_2.index t (0 : Fin 2) * 400 + 1 * p'.val = t.val * 400 + p'.val; omega
    | ⟨1, _⟩ => show win2_2.index t (1 : Fin 2) * 256 + 1 * q'.val = q'.val; omega

/-- An index of the array is in point `t`'s block iff each coordinate is in the block's range on its axis. -/
theorem mem_blk (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v6).slice (win2_3.rect t)).set ↔ _
  rw [View.set_slice_whole, Rect.mem_set_unit]
  exact Iff.rfl

/-- Row r lies in the block of point r / 400. -/
theorem cover (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  have hn : cfg2.N = 25 := N_2
  let t : Fin cfg2.N := ⟨(i 0).val / 400, by omega⟩
  obtain ⟨e0, e1, e2, e3, e4, e5, e6, e7⟩ := idx_facts t
  refine ⟨t, flush2_3 t, ?_⟩
  rw [mem_blk]
  intro a
  match a with
  | ⟨0, _⟩ => show win2_3.index t (0 : Fin 2) * 400 ≤ (i 0).val ∧ (i 0).val < win2_3.index t (0 : Fin 2) * 400 + 400; have : t.val = (i 0).val / 400 := rfl; omega
  | ⟨1, _⟩ => show win2_3.index t (1 : Fin 2) * 128 ≤ (i 1).val ∧ (i 1).val < win2_3.index t (1 : Fin 2) * 128 + 128; omega

/-- The output array after the call. -/
theorem final (c : Dev nD) : (Stage2.dat V c).arrAt 3 cfg2.N = G V c :=
  (Stage2.dat V c).arrAt_eq_of_cover 3 (G V c) (fun t _ => flushed_eq V c t) cover

end Cert.KernelIdeal.Stage2V

end
-- ==== Proof.ArmaLaw.lean ====
/-
  The law between the two forms of the ARMA convolution (both are functions on the extended reals).

  The reference computes two stacks of two layers and averages them. The other form shares the left factors: it lays
  the right factors side by side, `x·[W | W']`, `x·[V₀ | V₀' | V₁ | V₁'] + bias row`, takes `max (A·P + S, 0)` of width
  `2·128`, multiplies each half by its second weight, lays the two products side by side again, repeats, and
  averages the two column halves.

  * A matrix made of four pieces side by side, read at column `k·b + q`, is piece `k` at column `q`; a vector made of
    four pieces end to end likewise; a vector seen as a one-row matrix reads the vector at the column.
  * Column `k·b + q` of `x·[w₀ | w₁ | w₂ | w₃]` is column `q` of `x·w_k`: the same sum, term by term.
  * The column half at offset `o` of `max (A·P + S, 0)` is `max (A·L + T + β, 0)` when the half of `P` at `o` is `L` and the
    half of `S` at `o` is `T + β`: the sums agree term by term and `a + (b + c) = (a + b) + c`.
  * So the two halves after the first step are the two first layers, the two halves after the second step are the two
    stacks, and half their sum is the reference's result.

  Nothing about the entries is used (no finiteness, no sign): only which entries each expression reads and the
  associativity of `+`.
-/
import proofs.«118575_g50105088475803_cont_8to1c4_614_2_alg».proof.Proof.Spec
import proofs.«118575_g50105088475803_cont_8to1c4_614_2_alg».proof.Proof.LibSideBySide
import proofs.«118575_g50105088475803_cont_8to1c4_614_2_alg».proof.Proof.LibStack
import Idealize.ShloMosaic.Lib.Pipeline.Value
import Idealize.ShloMosaic.Lib.ValueIdx
import Idealize.ShloMosaic.Lib.ValueLayout

noncomputable section

namespace Cert.Arma

open Idealize.ShloMosaic Idealize.ShloMosaic.ValueIdx Cert.LibProduct

/-! ## Four pieces of one shape joined along an axis, read at an index -/

section Four
variable {α : Type}

/-- Four pieces of shape `s` joined along axis `a`: an index whose axis coordinate is `k` extents plus `c` reads piece `k`
    at the index with the same coordinates off the axis and `c` on it. -/
theorem concatenate_four_apply {s t : Shape} (a : Fin t.rank) (x₀ x₁ x₂ x₃ : s.Idx → α)
    (h : Shape.Concatenates [s, s, s, s] t a) (hr : s.rank = t.rank) (j : t.Idx) (i : s.Idx)
    (hi : ∀ b : Fin s.rank, b.cast hr ≠ a → (i b).val = (j (b.cast hr)).val) (k : Fin 4)
    (ha : k.val * s.size (a.cast hr.symm) + (i (a.cast hr.symm)).val = (j a).val) :
    concatenate t a [⟨s, x₀⟩, ⟨s, x₁⟩, ⟨s, x₂⟩, ⟨s, x₃⟩] h j = ![x₀, x₁, x₂, x₃] k i := by
  match k, ha with
  | ⟨0, _⟩, ha =>
    exact concatenate_apply_piece a ([⟨s, x₀⟩, ⟨s, x₁⟩, ⟨s, x₂⟩, ⟨s, x₃⟩] : List ((s : Shape) × (s.Idx → α))) h j 0 (by simp) s x₀ rfl hr 0 (by simp) i hi (by simpa using ha)
  | ⟨1, _⟩, ha =>
    exact concatenate_apply_piece a ([⟨s, x₀⟩, ⟨s, x₁⟩, ⟨s, x₂⟩, ⟨s, x₃⟩] : List ((s : Shape) × (s.Idx → α))) h j 1 (by simp) s x₁ rfl hr (s.size (a.cast hr.symm)) (by simp [dif_pos hr]) i hi
      (by simpa using ha)
  | ⟨2, _⟩, ha =>
    exact concatenate_apply_piece a ([⟨s, x₀⟩, ⟨s, x₁⟩, ⟨s, x₂⟩, ⟨s, x₃⟩] : List ((s : Shape) × (s.Idx → α))) h j 2 (by simp) s x₂ rfl hr (2 * s.size (a.cast hr.symm))
      (by simp [dif_pos hr]; omega) i hi (by simpa using ha)
  | ⟨3, _⟩, ha =>
    exact concatenate_apply_piece a ([⟨s, x₀⟩, ⟨s, x₁⟩, ⟨s, x₂⟩, ⟨s, x₃⟩] : List ((s : Shape) × (s.Idx → α))) h j 3 (by simp) s x₃ rfl hr (3 * s.size (a.cast hr.symm))
      (by simp [dif_pos hr]; omega) i hi (by simpa using ha)

/-- Four `[a, b]` matrices side by side: column `k·b + q` reads piece `k` at column `q`. -/
theorem four_beside_apply {a b t : ℕ} (x₀ x₁ x₂ x₃ : (⟨2, ![a, b]⟩ : Shape).Idx → α)
    (h : Shape.Concatenates [(⟨2, ![a, b]⟩ : Shape), ⟨2, ![a, b]⟩, ⟨2, ![a, b]⟩, ⟨2, ![a, b]⟩] ⟨2, ![a, t]⟩ 1)
    (p : Fin a) (q : Fin b) (q' : Fin t) (k : Fin 4) (hq : q'.val = k.val * b + q.val) :
    concatenate ⟨2, ![a, t]⟩ 1 [⟨⟨2, ![a, b]⟩, x₀⟩, ⟨⟨2, ![a, b]⟩, x₁⟩, ⟨⟨2, ![a, b]⟩, x₂⟩, ⟨⟨2, ![a, b]⟩, x₃⟩] h (ix2 p q')
      = ![x₀, x₁, x₂, x₃] k (ix2 p q) :=
  concatenate_four_apply 1 x₀ x₁ x₂ x₃ h rfl (ix2 p q') (ix2 p q)
    (fun c hc => by
      match c with
      | ⟨0, _⟩ => rfl
      | ⟨1, _⟩ => exact absurd rfl hc) k
    (by show k.val * b + q.val = q'.val; exact hq.symm)

/-- Four length-`b` vectors end to end: position `k·b + q` reads piece `k` at `q`. -/
theorem four_joined_apply {b t : ℕ} (x₀ x₁ x₂ x₃ : (⟨1, ![b]⟩ : Shape).Idx → α)
    (h : Shape.Concatenates [(⟨1, ![b]⟩ : Shape), ⟨1, ![b]⟩, ⟨1, ![b]⟩, ⟨1, ![b]⟩] ⟨1, ![t]⟩ 0)
    (q : Fin b) (q' : Fin t) (k : Fin 4) (hq : q'.val = k.val * b + q.val) :
    concatenate ⟨1, ![t]⟩ 0 [⟨⟨1, ![b]⟩, x₀⟩, ⟨⟨1, ![b]⟩, x₁⟩, ⟨⟨1, ![b]⟩, x₂⟩, ⟨⟨1, ![b]⟩, x₃⟩] h (ix1 q')
      = ![x₀, x₁, x₂, x₃] k (ix1 q) :=
  concatenate_four_apply 0 x₀ x₁ x₂ x₃ h rfl (ix1 q') (ix1 q)
    (fun c hc => by
      match c with
      | ⟨0, _⟩ => exact absurd rfl hc) k
    (by show k.val * b + q.val = q'.val; exact hq.symm)

/-- The four-piece vector seen as a one-row matrix. -/
theorem four_row_apply {b t : ℕ} (x₀ x₁ x₂ x₃ : (⟨1, ![b]⟩ : Shape).Idx → α)
    (h : Shape.Concatenates [(⟨1, ![b]⟩ : Shape), ⟨1, ![b]⟩, ⟨1, ![b]⟩, ⟨1, ![b]⟩] ⟨1, ![t]⟩ 0)
    (hr : (⟨1, ![t]⟩ : Shape).ShapeCasts ⟨2, ![1, t]⟩)
    (u : Fin 1) (q : Fin b) (q' : Fin t) (k : Fin 4) (hq : q'.val = k.val * b + q.val) :
    shapeCast ⟨2, ![1, t]⟩
        (concatenate ⟨1, ![t]⟩ 0 [⟨⟨1, ![b]⟩, x₀⟩, ⟨⟨1, ![b]⟩, x₁⟩, ⟨⟨1, ![b]⟩, x₂⟩, ⟨⟨1, ![b]⟩, x₃⟩] h) hr (ix2 u q')
      = ![x₀, x₁, x₂, x₃] k (ix1 q) :=
  (shapeCast_a_1a_apply _ hr u q').trans (four_joined_apply x₀ x₁ x₂ x₃ h q q' k hq)

end Four

/-! ## Products and skip terms of the laid-out operands, column by column -/

/-- Column `m·b + j` of `x·[w₀ | w₁ | w₂ | w₃]` is column `j` of `x·w_m`: the same sum, term by term. -/
theorem product_four_beside {a k b t : ℕ} (x : Mat a k) (w₀ w₁ w₂ w₃ : Mat k b)
    (h : Shape.Concatenates [(⟨2, ![k, b]⟩ : Shape), ⟨2, ![k, b]⟩, ⟨2, ![k, b]⟩, ⟨2, ![k, b]⟩] ⟨2, ![k, t]⟩ 1)
    (i : Fin a) (j : Fin b) (j' : Fin t) (m : Fin 4) (hj : j'.val = m.val * b + j.val) :
    product x (concatenate ⟨2, ![k, t]⟩ 1 [⟨⟨2, ![k, b]⟩, w₀⟩, ⟨⟨2, ![k, b]⟩, w₁⟩, ⟨⟨2, ![k, b]⟩, w₂⟩, ⟨⟨2, ![k, b]⟩, w₃⟩] h)
        (ix2 i j')
      = product x (![w₀, w₁, w₂, w₃] m) (ix2 i j) :=
  Finset.sum_congr rfl fun e _ => congrArg (x (ix2 i e) * ·) (four_beside_apply w₀ w₁ w₂ w₃ h e j j' m hj)

/-- Column `m·128 + q` of all four skip terms at once is the `m`-th skip term at column `q`: its product plus its bias. -/
theorem skipAll_apply {r f : ℕ} (x : Mat r f) (V₀ V₁ V₂ V₃ : Mat f 128) (β₀ β₁ β₂ β₃ : Vc 128)
    (hv : Shape.Concatenates [(⟨2, ![f, 128]⟩ : Shape), ⟨2, ![f, 128]⟩, ⟨2, ![f, 128]⟩, ⟨2, ![f, 128]⟩] ⟨2, ![f, 512]⟩ 1)
    (hb : Shape.Concatenates [(⟨1, ![128]⟩ : Shape), ⟨1, ![128]⟩, ⟨1, ![128]⟩, ⟨1, ![128]⟩] ⟨1, ![512]⟩ 0)
    (hr : (⟨1, ![512]⟩ : Shape).ShapeCasts ⟨2, ![1, 512]⟩)
    (p : Fin r) (q : Fin 128) (q' : Fin 512) (m : Fin 4) (hq : q'.val = m.val * 128 + q.val) :
    skipAll x
        (concatenate ⟨2, ![f, 512]⟩ 1 [⟨⟨2, ![f, 128]⟩, V₀⟩, ⟨⟨2, ![f, 128]⟩, V₁⟩, ⟨⟨2, ![f, 128]⟩, V₂⟩, ⟨⟨2, ![f, 128]⟩, V₃⟩] hv)
        (shapeCast ⟨2, ![1, 512]⟩
          (concatenate ⟨1, ![512]⟩ 0 [⟨⟨1, ![128]⟩, β₀⟩, ⟨⟨1, ![128]⟩, β₁⟩, ⟨⟨1, ![128]⟩, β₂⟩, ⟨⟨1, ![128]⟩, β₃⟩] hb) hr)
        (ix2 p q')
      = product x (![V₀, V₁, V₂, V₃] m) (ix2 p q) + ![β₀, β₁, β₂, β₃] m (ix1 q) :=
  congrArg₂ (· + ·) (product_four_beside x V₀ V₁ V₂ V₃ hv p q q' m hq)
    (four_row_apply β₀ β₁ β₂ β₃ hb hr (0 : Fin 1) q q' m hq)

/-! ## A column half of `max (A·P + S, 0)` -/

/-- The layer written out. -/
theorem layer_eq {n f d c : ℕ} (A : Mat n n) (x : Mat n f) (h : Mat n d) (W : Mat d c) (V : Mat f c) (β : Vc c) :
    layer A x h W V β = fun i => max ((product A (product h W) i + product x V i) + β (ix1 (i 1))) 0 := rfl

/-- When the columns of `P` from `o` on are `L` and those of `S` are `T + β`, the columns of `max (A·P + S, 0)` from `o` on are
    `max (A·L + T + β, 0)`. -/
theorem cols_hidden {r n : ℕ} (A : Mat r n) (P : Mat n 256) (S : Mat r 256) (o : ℕ) (ho : o + 128 ≤ 256)
    (L : Mat n 128) (T : Mat r 128) (β : Vc 128)
    (hP : ∀ (e : Fin n) (q : Fin 128) (q' : Fin 256), q'.val = o + q.val → P (ix2 e q') = L (ix2 e q))
    (hS : ∀ (p : Fin r) (q : Fin 128) (q' : Fin 256), q'.val = o + q.val → S (ix2 p q') = T (ix2 p q) + β (ix1 q)) :
    cols 128 o ho (hidden A P S) = fun i => max ((product A L i + T i) + β (ix1 (i 1))) 0 := by
  funext i
  obtain ⟨p, q, rfl⟩ : ∃ (p : Fin r) (q : Fin 128), i = ix2 p q := ⟨i 0, i 1, eq_ix2 i⟩
  have hq : o + q.val < 256 := by have := q.isLt; omega
  have h1 : product A P (ix2 p ⟨o + q.val, hq⟩) = product A L (ix2 p q) :=
    Finset.sum_congr rfl fun e _ => congrArg (A (ix2 p e) * ·) (hP e q ⟨o + q.val, hq⟩ rfl)
  show max (product A P (ix2 p ⟨o + q.val, hq⟩) + S (ix2 p ⟨o + q.val, hq⟩)) 0
    = max ((product A L (ix2 p q) + T (ix2 p q)) + β (ix1 q)) 0
  rw [h1, hS p q ⟨o + q.val, hq⟩ rfl, add_assoc]

/-- A column range of all four skip terms: column `q'` of the columns from `o` on, with `o + q' = m·128 + q`, is the `m`-th skip
    term at column `q`. -/
theorem cols_skipAll_apply {r f : ℕ} (x : Mat r f) (V₀ V₁ V₂ V₃ : Mat f 128) (β₀ β₁ β₂ β₃ : Vc 128)
    (hv : Shape.Concatenates [(⟨2, ![f, 128]⟩ : Shape), ⟨2, ![f, 128]⟩, ⟨2, ![f, 128]⟩, ⟨2, ![f, 128]⟩] ⟨2, ![f, 512]⟩ 1)
    (hb : Shape.Concatenates [(⟨1, ![128]⟩ : Shape), ⟨1, ![128]⟩, ⟨1, ![128]⟩, ⟨1, ![128]⟩] ⟨1, ![512]⟩ 0)
    (hr : (⟨1, ![512]⟩ : Shape).ShapeCasts ⟨2, ![1, 512]⟩) (o : ℕ) (ho : o + 256 ≤ 512)
    (p : Fin r) (q : Fin 128) (q' : Fin 256) (m : Fin 4) (hq : o + q'.val = m.val * 128 + q.val) :
    cols 256 o ho (skipAll x
        (concatenate ⟨2, ![f, 512]⟩ 1 [⟨⟨2, ![f, 128]⟩, V₀⟩, ⟨⟨2, ![f, 128]⟩, V₁⟩, ⟨⟨2, ![f, 128]⟩, V₂⟩, ⟨⟨2, ![f, 128]⟩, V₃⟩] hv)
        (shapeCast ⟨2, ![1, 512]⟩
          (concatenate ⟨1, ![512]⟩ 0 [⟨⟨1, ![128]⟩, β₀⟩, ⟨⟨1, ![128]⟩, β₁⟩, ⟨⟨1, ![128]⟩, β₂⟩, ⟨⟨1, ![128]⟩, β₃⟩] hb) hr))
        (ix2 p q')
      = product x (![V₀, V₁, V₂, V₃] m) (ix2 p q) + ![β₀, β₁, β₂, β₃] m (ix1 q) :=
  (cols_apply 256 o ho _ p q').trans
    (skipAll_apply x V₀ V₁ V₂ V₃ β₀ β₁ β₂ β₃ hv hb hr p q
      ⟨o + q'.val, Nat.lt_of_lt_of_le (Nat.add_lt_add_left q'.isLt o) ho⟩ m hq)

/-- Two matrices side by side, a column among the first 128: the left one. -/
theorem beside_apply_left {r : ℕ} (L R : Mat r 128) (p : Fin r) (q : Fin 128) (q' : Fin 256) (hq : q'.val = q.val) :
    beside L R (ix2 p q') = L (ix2 p q) := by
  have h : q'.val < 128 := by have := q.isLt; omega
  show (if h : q'.val < 128 then L (ix2 p ⟨q'.val, h⟩) else _) = _
  rw [dif_pos h]
  exact congrArg (fun z => L (ix2 p z)) (Fin.ext hq)

/-- Two matrices side by side, column `128 + q`: the right one at column `q`. -/
theorem beside_apply_right {r : ℕ} (L R : Mat r 128) (p : Fin r) (q : Fin 128) (q' : Fin 256) (hq : q'.val = 128 + q.val) :
    beside L R (ix2 p q') = R (ix2 p q) := by
  have h : ¬ q'.val < 128 := by omega
  show (if h : q'.val < 128 then _ else R (ix2 p ⟨q'.val - 128, _⟩)) = _
  rw [dif_neg h]
  exact congrArg (fun z => R (ix2 p z)) (Fin.ext (by show q'.val - 128 = q.val; omega))

/-! ## The two steps

  The laid-out operands: `[W00 | W10]`, `[V00 | V10 | V01 | V11]` and the bias row `[b00 | b10 | b01 | b11]`. -/

/-- After the first step the left half is the first layer of the first stack -/
theorem first_step_left {n : ℕ} (A : Mat n n) (x : Mat n 128) (W00 V00 : Mat 128 128) (b00 : Vc 128) (V01 : Mat 128 128) (b01 : Vc 128)
    (W10 V10 : Mat 128 128) (b10 : Vc 128) (V11 : Mat 128 128) (b11 : Vc 128)
    (hw : Shape.Concatenates [(⟨2, ![128, 128]⟩ : Shape), ⟨2, ![128, 128]⟩] ⟨2, ![128, 256]⟩ 1)
    (hv : Shape.Concatenates [(⟨2, ![128, 128]⟩ : Shape), ⟨2, ![128, 128]⟩, ⟨2, ![128, 128]⟩, ⟨2, ![128, 128]⟩] ⟨2, ![128, 512]⟩ 1)
    (hb : Shape.Concatenates [(⟨1, ![128]⟩ : Shape), ⟨1, ![128]⟩, ⟨1, ![128]⟩, ⟨1, ![128]⟩] ⟨1, ![512]⟩ 0)
    (hr : (⟨1, ![512]⟩ : Shape).ShapeCasts ⟨2, ![1, 512]⟩) (ho : 0 + 128 ≤ 256) :
    cols 128 0 ho (hidden A (prodAll x (concatenate ⟨2, ![128, 256]⟩ 1 [⟨⟨2, ![128, 128]⟩, W00⟩, ⟨⟨2, ![128, 128]⟩, W10⟩] hw))
        (skipLo x (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
          (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)))
      = layer A x x W00 V00 b00 :=
  (cols_hidden A _ _ 0 ho (product x W00) (product x V00) b00
    (fun e q q' hq => Cert.LibSideBySide.product_beside_left x W00 W10 hw e q q' (by omega))
    (fun p q q' hq => cols_skipAll_apply x V00 V10 V01 V11 b00 b10 b01 b11 hv hb hr 0 _ p q q' 0
      (by show 0 + q'.val = 0 * 128 + q.val; omega))).trans (layer_eq A x x W00 V00 b00).symm

/-- and the right half the first layer of the second stack. -/
theorem first_step_right {n : ℕ} (A : Mat n n) (x : Mat n 128) (W00 V00 : Mat 128 128) (b00 : Vc 128) (V01 : Mat 128 128) (b01 : Vc 128)
    (W10 V10 : Mat 128 128) (b10 : Vc 128) (V11 : Mat 128 128) (b11 : Vc 128)
    (hw : Shape.Concatenates [(⟨2, ![128, 128]⟩ : Shape), ⟨2, ![128, 128]⟩] ⟨2, ![128, 256]⟩ 1)
    (hv : Shape.Concatenates [(⟨2, ![128, 128]⟩ : Shape), ⟨2, ![128, 128]⟩, ⟨2, ![128, 128]⟩, ⟨2, ![128, 128]⟩] ⟨2, ![128, 512]⟩ 1)
    (hb : Shape.Concatenates [(⟨1, ![128]⟩ : Shape), ⟨1, ![128]⟩, ⟨1, ![128]⟩, ⟨1, ![128]⟩] ⟨1, ![512]⟩ 0)
    (hr : (⟨1, ![512]⟩ : Shape).ShapeCasts ⟨2, ![1, 512]⟩) (ho : 128 + 128 ≤ 256) :
    cols 128 128 ho (hidden A (prodAll x (concatenate ⟨2, ![128, 256]⟩ 1 [⟨⟨2, ![128, 128]⟩, W00⟩, ⟨⟨2, ![128, 128]⟩, W10⟩] hw))
        (skipLo x (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
          (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)))
      = layer A x x W10 V10 b10 :=
  (cols_hidden A _ _ 128 ho (product x W10) (product x V10) b10
    (fun e q q' hq => Cert.LibSideBySide.product_beside_right x W00 W10 hw e q q' (by omega))
    (fun p q q' hq => cols_skipAll_apply x V00 V10 V01 V11 b00 b10 b01 b11 hv hb hr 0 _ p q q' 1
      (by show 0 + q'.val = 1 * 128 + q.val; omega))).trans (layer_eq A x x W10 V10 b10).symm

/-- After the second step, fed with two hidden matrices `h₀`, `h₁`, the left half is the second layer on `h₀` -/
theorem second_step_left {n : ℕ} (A : Mat n n) (x : Mat n 128) (V00 : Mat 128 128) (b00 : Vc 128) (W01 V01 : Mat 128 128) (b01 : Vc 128)
    (V10 : Mat 128 128) (b10 : Vc 128) (W11 V11 : Mat 128 128) (b11 : Vc 128)
    (hv : Shape.Concatenates [(⟨2, ![128, 128]⟩ : Shape), ⟨2, ![128, 128]⟩, ⟨2, ![128, 128]⟩, ⟨2, ![128, 128]⟩] ⟨2, ![128, 512]⟩ 1)
    (hb : Shape.Concatenates [(⟨1, ![128]⟩ : Shape), ⟨1, ![128]⟩, ⟨1, ![128]⟩, ⟨1, ![128]⟩] ⟨1, ![512]⟩ 0)
    (hr : (⟨1, ![512]⟩ : Shape).ShapeCasts ⟨2, ![1, 512]⟩) (h₀ h₁ : Mat n 128) (ho : 0 + 128 ≤ 256) :
    cols 128 0 ho (hidden A (beside (product h₀ W01) (product h₁ W11))
        (skipHi x (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
          (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)))
      = layer A x h₀ W01 V01 b01 :=
  (cols_hidden A _ _ 0 ho (product h₀ W01) (product x V01) b01
    (fun e q q' hq => beside_apply_left _ _ e q q' (by omega))
    (fun p q q' hq => cols_skipAll_apply x V00 V10 V01 V11 b00 b10 b01 b11 hv hb hr 256 _ p q q' 2
      (by show 256 + q'.val = 2 * 128 + q.val; omega))).trans (layer_eq A x h₀ W01 V01 b01).symm

/-- and the right half the second layer on `h₁`. -/
theorem second_step_right {n : ℕ} (A : Mat n n) (x : Mat n 128) (V00 : Mat 128 128) (b00 : Vc 128) (W01 V01 : Mat 128 128) (b01 : Vc 128)
    (V10 : Mat 128 128) (b10 : Vc 128) (W11 V11 : Mat 128 128) (b11 : Vc 128)
    (hv : Shape.Concatenates [(⟨2, ![128, 128]⟩ : Shape), ⟨2, ![128, 128]⟩, ⟨2, ![128, 128]⟩, ⟨2, ![128, 128]⟩] ⟨2, ![128, 512]⟩ 1)
    (hb : Shape.Concatenates [(⟨1, ![128]⟩ : Shape), ⟨1, ![128]⟩, ⟨1, ![128]⟩, ⟨1, ![128]⟩] ⟨1, ![512]⟩ 0)
    (hr : (⟨1, ![512]⟩ : Shape).ShapeCasts ⟨2, ![1, 512]⟩) (h₀ h₁ : Mat n 128) (ho : 128 + 128 ≤ 256) :
    cols 128 128 ho (hidden A (beside (product h₀ W01) (product h₁ W11))
        (skipHi x (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
          (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)))
      = layer A x h₁ W11 V11 b11 :=
  (cols_hidden A _ _ 128 ho (product h₁ W11) (product x V11) b11
    (fun e q q' hq => beside_apply_right _ _ e q q' (by omega))
    (fun p q q' hq => cols_skipAll_apply x V00 V10 V01 V11 b00 b10 b01 b11 hv hb hr 256 _ p q q' 3
      (by show 256 + q'.val = 3 * 128 + q.val; omega))).trans (layer_eq A x h₁ W11 V11 b11).symm

/-! ## The law -/

/-- The side-by-side form on the laid-out operands is the reference's half sum of two stacks. -/
theorem kernelOut_eq_out {n : ℕ} (A : Mat n n) (x : Mat n 128) (W00 V00 : Mat 128 128) (b00 : Vc 128) (W01 V01 : Mat 128 128) (b01 : Vc 128)
    (W10 V10 : Mat 128 128) (b10 : Vc 128) (W11 V11 : Mat 128 128) (b11 : Vc 128)
    (hw : Shape.Concatenates [(⟨2, ![128, 128]⟩ : Shape), ⟨2, ![128, 128]⟩] ⟨2, ![128, 256]⟩ 1)
    (hv : Shape.Concatenates [(⟨2, ![128, 128]⟩ : Shape), ⟨2, ![128, 128]⟩, ⟨2, ![128, 128]⟩, ⟨2, ![128, 128]⟩] ⟨2, ![128, 512]⟩ 1)
    (hb : Shape.Concatenates [(⟨1, ![128]⟩ : Shape), ⟨1, ![128]⟩, ⟨1, ![128]⟩, ⟨1, ![128]⟩] ⟨1, ![512]⟩ 0)
    (hr : (⟨1, ![512]⟩ : Shape).ShapeCasts ⟨2, ![1, 512]⟩) :
    kernelOut A x
        (concatenate ⟨2, ![128, 256]⟩ 1 [⟨⟨2, ![128, 128]⟩, W00⟩, ⟨⟨2, ![128, 128]⟩, W10⟩] hw)
        (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
        (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)
        W01 W11
      = out A x W00 V00 b00 W01 V01 b01 W10 V10 b10 W11 V11 b11 := by
  -- the second step's products: each first layer times its second weight, side by side
  have e1 : (nextProd A (prodAll x (concatenate ⟨2, ![128, 256]⟩ 1 [⟨⟨2, ![128, 128]⟩, W00⟩, ⟨⟨2, ![128, 128]⟩, W10⟩] hw))
        (skipLo x (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
          (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)) W01 W11)
      = beside (product (layer A x x W00 V00 b00) W01) (product (layer A x x W10 V10 b10) W11) :=
    congrArg₂ (fun l r : Mat n 128 => beside (product l W01) (product r W11))
      (first_step_left A x W00 V00 b00 V01 b01 W10 V10 b10 V11 b11 hw hv hb hr (by norm_num))
      (first_step_right A x W00 V00 b00 V01 b01 W10 V10 b10 V11 b11 hw hv hb hr (by norm_num))
  -- the two halves after the second step are the two stacks
  have hL : cols 128 0 (by norm_num) (hidden A (nextProd A (prodAll x (concatenate ⟨2, ![128, 256]⟩ 1 [⟨⟨2, ![128, 128]⟩, W00⟩, ⟨⟨2, ![128, 128]⟩, W10⟩] hw))
        (skipLo x (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
          (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)) W01 W11)
        (skipHi x (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
          (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)))
      = stack A x W00 V00 b00 W01 V01 b01 := by
    rw [e1]
    exact second_step_left A x V00 b00 W01 V01 b01 V10 b10 W11 V11 b11 hv hb hr
      (layer A x x W00 V00 b00) (layer A x x W10 V10 b10) (by norm_num)
  have hR : cols 128 128 (by norm_num) (hidden A (nextProd A (prodAll x (concatenate ⟨2, ![128, 256]⟩ 1 [⟨⟨2, ![128, 128]⟩, W00⟩, ⟨⟨2, ![128, 128]⟩, W10⟩] hw))
        (skipLo x (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
          (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)) W01 W11)
        (skipHi x (concatenate ⟨2, ![128, 512]⟩ 1 [⟨⟨2, ![128, 128]⟩, V00⟩, ⟨⟨2, ![128, 128]⟩, V10⟩, ⟨⟨2, ![128, 128]⟩, V01⟩, ⟨⟨2, ![128, 128]⟩, V11⟩] hv)
          (shapeCast ⟨2, ![1, 512]⟩ (concatenate ⟨1, ![512]⟩ 0 [⟨⟨1, ![128]⟩, b00⟩, ⟨⟨1, ![128]⟩, b10⟩, ⟨⟨1, ![128]⟩, b01⟩, ⟨⟨1, ![128]⟩, b11⟩] hb) hr)))
      = stack A x W10 V10 b10 W11 V11 b11 := by
    rw [e1]
    exact second_step_right A x V00 b00 W01 V01 b01 V10 b10 W11 V11 b11 hv hb hr
      (layer A x x W00 V00 b00) (layer A x x W10 V10 b10) (by norm_num)
  -- half their sum
  exact congrArg₂ (fun (u v : Mat n 128) (i : (⟨2, ![n, 128]⟩ : Shape).Idx) => ((1 / 2 : ℝ) : EReal) * (u i + v i)) hL hR

end Cert.Arma

end
-- ==== Proof.KIValue.lean ====
/-
  The idealized kernel's result, over the extended reals.

  Read backwards from the last boundary: the result array is `meanOut` of the filter matrix, the middle call's
  output and the second-iteration skip terms; the middle call's output is `nextProd` of the filter matrix, the first
  call's products and first-iteration skip terms, and the two second-iteration weights; the first call's outputs are
  `prodAll` / `skipLo` / `skipHi` of x and the operands the host operations laid side by side.  No item writes
  what a later item reads except as stated, so every array in these formulas is either an argument as launched or
  one of the host operations' side-by-side arrangements of arguments.  That composition is `kernelOut`, which is
  the ARMA convolution `out` of the fourteen arguments.
-/
import proofs.«118575_g50105088475803_cont_8to1c4_614_2_alg».proof.Proof.KIWhole
import proofs.«118575_g50105088475803_cont_8to1c4_614_2_alg».proof.Proof.KIValue0
import proofs.«118575_g50105088475803_cont_8to1c4_614_2_alg».proof.Proof.KIValue1
import proofs.«118575_g50105088475803_cont_8to1c4_614_2_alg».proof.Proof.KIValue2
import proofs.«118575_g50105088475803_cont_8to1c4_614_2_alg».proof.Proof.ArmaLaw
import Idealize.ShloMosaic.Lib.StableHlo.Run

set_option maxRecDepth 16384

noncomputable section

namespace Cert.KernelIdeal.Value

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Whole Cert.Arma

variable (m : (ℓ : Loc nD τ sig) → Buf (Elt Ideal) ℓ)

/-! ## The host operations' results -/

/-- `[W00 | W10]`. -/
abbrev wc (c : Dev nD) : Mat 128 256 :=
  concatenate S128x256 1 [⟨S128x128, m ((c : Thread nD τ).loc main_arg2)⟩, ⟨S128x128, m ((c : Thread nD τ).loc main_arg8)⟩]
    Gen.concatenates_S128x128_S128x128_S128x256_d1
/-- `[V00 | V10 | V01 | V11]`. -/
abbrev vc (c : Dev nD) : Mat 128 512 :=
  concatenate S128x512 1 [⟨S128x128, m ((c : Thread nD τ).loc main_arg3)⟩, ⟨S128x128, m ((c : Thread nD τ).loc main_arg9)⟩,
      ⟨S128x128, m ((c : Thread nD τ).loc main_arg6)⟩, ⟨S128x128, m ((c : Thread nD τ).loc main_arg12)⟩]
    Gen.concatenates_S128x128_S128x128_S128x128_S128x128_S128x512_d1
/-- The four bias vectors end to end, as one row. -/
abbrev br (c : Dev nD) : Mat 1 512 :=
  shapeCast S1x512 (concatenate S512 0 [⟨S128, m ((c : Thread nD τ).loc main_arg4)⟩, ⟨S128, m ((c : Thread nD τ).loc main_arg10)⟩,
      ⟨S128, m ((c : Thread nD τ).loc main_arg7)⟩, ⟨S128, m ((c : Thread nD τ).loc main_arg13)⟩]
    Gen.concatenates_S128_S128_S128_S128_S512_d0) Gen.shapeCasts_S512_S1x512

/-- Four pieces of one shape joined: equal pieces give equal joins. -/
theorem join4_congr {α : Type} {S' S : Shape} (d : Fin S.rank) (h : Shape.Concatenates [S', S', S', S'] S d)
    (a0 a1 a2 a3 b0 b1 b2 b3 : S'.Idx → α) (e0 : a0 = b0) (e1 : a1 = b1) (e2 : a2 = b2) (e3 : a3 = b3) :
    concatenate S d [⟨S', a0⟩, ⟨S', a1⟩, ⟨S', a2⟩, ⟨S', a3⟩] h = concatenate S d [⟨S', b0⟩, ⟨S', b1⟩, ⟨S', b2⟩, ⟨S', b3⟩] h := by
  subst e0 e1 e2 e3; rfl

theorem E1_v0 (c : Dev nD) : E1 m c main_v0 = wc m c := by
  show StableHlo.after hostOps0 (B0 m c) (Proc.devRef .tc main_v0) = _
  after_results

theorem E1_v1 (c : Dev nD) : E1 m c main_v1 = vc m c := by
  show StableHlo.after hostOps0 (B0 m c) (Proc.devRef .tc main_v1) = _
  after_results
  beta_reduce
  refine join4_congr 1 _ _ _ _ _ _ _ _ _ ?_ ?_ ?_ ?_
  · rw [binary_result_ne]; rotate_left; decide
    rfl
  · rw [binary_result_ne]; rotate_left; decide
    rfl
  · rw [binary_result_ne]; rotate_left; decide
    rfl
  · rw [binary_result_ne]; rotate_left; decide
    rfl

theorem E1_v3 (c : Dev nD) : E1 m c main_v3 = br m c := by
  show StableHlo.after hostOps0 (B0 m c) (Proc.devRef .tc main_v3) = _
  after_results
  beta_reduce
  funext i
  refine congrFun (congrArg (fun v => shapeCast S1x512 v Gen.shapeCasts_S512_S1x512) (join4_congr 0 _ _ _ _ _ _ _ _ _ ?_ ?_ ?_ ?_)) i
  · rw [nary_result_ne]; rotate_left; decide
    rw [binary_result_ne]; rotate_left; decide
    rfl
  · rw [nary_result_ne]; rotate_left; decide
    rw [binary_result_ne]; rotate_left; decide
    rfl
  · rw [nary_result_ne]; rotate_left; decide
    rw [binary_result_ne]; rotate_left; decide
    rfl
  · rw [nary_result_ne]; rotate_left; decide
    rw [binary_result_ne]; rotate_left; decide
    rfl

/-! ## What an item leaves of the arguments -/

theorem E1_arg (c : Dev nD) (b : Ref sig .tc) (h : b ∉ hostOps0_W) : E1 m c b = m ((c : Thread nD τ).loc b) :=
  (B1_other m c b h).trans rfl
theorem E2_arg (c : Dev nD) (b : Ref sig .tc) (h2 : b ∉ ([main_v4_0, main_v4_1, main_v4_2] : List (Ref sig .tc))) (h1 : b ∉ hostOps0_W) :
    E2 m c b = m ((c : Thread nD τ).loc b) :=
  (B2_keeps m c b h2).trans (E1_arg m c b h1)
theorem E3_arg (c : Dev nD) (b : Ref sig .tc) (h3 : b ∉ ([main_v5] : List (Ref sig .tc)))
    (h2 : b ∉ ([main_v4_0, main_v4_1, main_v4_2] : List (Ref sig .tc))) (h1 : b ∉ hostOps0_W) :
    E3 m c b = m ((c : Thread nD τ).loc b) :=
  (B3_keeps m c b h3).trans (E2_arg m c b h2 h1)

/-! ## The result -/

/-- The last call's output array at the last boundary is the ARMA convolution of the arguments as launched. -/
theorem result (c : Dev nD) :
    B4 m c (Proc.devRef .tc main_v6)
      = out (m ((c : Thread nD τ).loc main_arg1) : Mat 10000 10000) (m ((c : Thread nD τ).loc main_arg0) : Mat 10000 128)
          (m ((c : Thread nD τ).loc main_arg2) : Mat 128 128) (m ((c : Thread nD τ).loc main_arg3) : Mat 128 128) (m ((c : Thread nD τ).loc main_arg4) : Vc 128)
          (m ((c : Thread nD τ).loc main_arg5) : Mat 128 128) (m ((c : Thread nD τ).loc main_arg6) : Mat 128 128) (m ((c : Thread nD τ).loc main_arg7) : Vc 128)
          (m ((c : Thread nD τ).loc main_arg8) : Mat 128 128) (m ((c : Thread nD τ).loc main_arg9) : Mat 128 128) (m ((c : Thread nD τ).loc main_arg10) : Vc 128)
          (m ((c : Thread nD τ).loc main_arg11) : Mat 128 128) (m ((c : Thread nD τ).loc main_arg12) : Mat 128 128) (m ((c : Thread nD τ).loc main_arg13) : Vc 128) := by
  -- the last call
  have h6 : B4 m c (Proc.devRef .tc main_v6) = Stage2V.G (E3 m) c := (B4_arr m c 3).trans (Stage2V.final (E3 m) c)
  have hA3 : E3 m c main_arg1 = m ((c : Thread nD τ).loc main_arg1) := E3_arg m c main_arg1 (by decide) (by decide) (by decide)
  have h5 : E3 m c main_v5 = Stage1V.G (E2 m) c := (B3_arr m c 5).trans (Stage1V.final (E2 m) c)
  have hS1 : E3 m c main_v4_2 = PrologueV.GHi (E1 m) c :=
    (B3_keeps m c main_v4_2 (by decide)).trans ((B2_arr m c 6).trans (PrologueV.finalHi (E1 m) c))
  -- the middle call
  have hA2 : E2 m c main_arg1 = m ((c : Thread nD τ).loc main_arg1) := E2_arg m c main_arg1 (by decide) (by decide)
  have hWa : E2 m c main_arg5 = m ((c : Thread nD τ).loc main_arg5) := E2_arg m c main_arg5 (by decide) (by decide)
  have hWb : E2 m c main_arg11 = m ((c : Thread nD τ).loc main_arg11) := E2_arg m c main_arg11 (by decide) (by decide)
  have hP0 : E2 m c main_v4_0 = PrologueV.GP (E1 m) c := (B2_arr m c 4).trans (PrologueV.finalP (E1 m) c)
  have hS0 : E2 m c main_v4_1 = PrologueV.GLo (E1 m) c := (B2_arr m c 5).trans (PrologueV.finalLo (E1 m) c)
  -- the first call
  have hx : E1 m c main_arg0 = m ((c : Thread nD τ).loc main_arg0) := E1_arg m c main_arg0 (by decide)
  rw [h6]
  show meanOut (E3 m c main_arg1 : Mat 10000 10000) (E3 m c main_v5 : Mat 10000 256) (E3 m c main_v4_2 : Mat 10000 256) = _
  rw [hA3, h5, hS1]
  show meanOut (m ((c : Thread nD τ).loc main_arg1) : Mat 10000 10000)
      (nextProd (E2 m c main_arg1 : Mat 10000 10000) (E2 m c main_v4_0 : Mat 10000 256) (E2 m c main_v4_1 : Mat 10000 256)
        (E2 m c main_arg5 : Mat 128 128) (E2 m c main_arg11 : Mat 128 128))
      (skipHi (E1 m c main_arg0 : Mat 10000 128) (E1 m c main_v1 : Mat 128 512) (E1 m c main_v3 : Mat 1 512)) = _
  rw [hA2, hP0, hS0, hWa, hWb]
  show meanOut (m ((c : Thread nD τ).loc main_arg1) : Mat 10000 10000)
      (nextProd (m ((c : Thread nD τ).loc main_arg1) : Mat 10000 10000)
        (prodAll (E1 m c main_arg0 : Mat 10000 128) (E1 m c main_v0 : Mat 128 256))
        (skipLo (E1 m c main_arg0 : Mat 10000 128) (E1 m c main_v1 : Mat 128 512) (E1 m c main_v3 : Mat 1 512))
        (m ((c : Thread nD τ).loc main_arg5) : Mat 128 128) (m ((c : Thread nD τ).loc main_arg11) : Mat 128 128))
      (skipHi (E1 m c main_arg0 : Mat 10000 128) (E1 m c main_v1 : Mat 128 512) (E1 m c main_v3 : Mat 1 512)) = _
  rw [hx, E1_v0, E1_v1, E1_v3]
  exact kernelOut_eq_out _ _ _ _ _ _ _ _ _ _ _ _ _ _ _ _ _ _

/-- Every weakly fair execution of the idealized kernel's @main terminates, nothing faulting, with the result array
    at the ARMA convolution of the arguments and every argument as launched. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
        = out (m ((c.tc : Thread nD τ).loc main_arg1) : Mat 10000 10000) (m ((c.tc : Thread nD τ).loc main_arg0) : Mat 10000 128)
            (m ((c.tc : Thread nD τ).loc main_arg2) : Mat 128 128) (m ((c.tc : Thread nD τ).loc main_arg3) : Mat 128 128) (m ((c.tc : Thread nD τ).loc main_arg4) : Vc 128)
            (m ((c.tc : Thread nD τ).loc main_arg5) : Mat 128 128) (m ((c.tc : Thread nD τ).loc main_arg6) : Mat 128 128) (m ((c.tc : Thread nD τ).loc main_arg7) : Vc 128)
            (m ((c.tc : Thread nD τ).loc main_arg8) : Mat 128 128) (m ((c.tc : Thread nD τ).loc main_arg9) : Mat 128 128) (m ((c.tc : Thread nD τ).loc main_arg10) : Vc 128)
            (m ((c.tc : Thread nD τ).loc main_arg11) : Mat 128 128) (m ((c.tc : Thread nD τ).loc main_arg12) : Mat 128 128) (m ((c.tc : Thread nD τ).loc main_arg13) : Vc 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v6 (by decide))).trans (result m c),
     (h c _ (mem_uc main_arg0 (by decide))).trans (B4_launch m c main_arg0 (by decide)),
     (h c _ (mem_uc main_arg1 (by decide))).trans (B4_launch m c main_arg1 (by decide)),
     (h c _ (mem_uc main_arg2 (by decide))).trans (B4_launch m c main_arg2 (by decide)),
     (h c _ (mem_uc main_arg3 (by decide))).trans (B4_launch m c main_arg3 (by decide)),
     (h c _ (mem_uc main_arg4 (by decide))).trans (B4_launch m c main_arg4 (by decide)),
     (h c _ (mem_uc main_arg5 (by decide))).trans (B4_launch m c main_arg5 (by decide)),
     (h c _ (mem_uc main_arg6 (by decide))).trans (B4_launch m c main_arg6 (by decide)),
     (h c _ (mem_uc main_arg7 (by decide))).trans (B4_launch m c main_arg7 (by decide)),
     (h c _ (mem_uc main_arg8 (by decide))).trans (B4_launch m c main_arg8 (by decide)),
     (h c _ (mem_uc main_arg9 (by decide))).trans (B4_launch m c main_arg9 (by decide)),
     (h c _ (mem_uc main_arg10 (by decide))).trans (B4_launch m c main_arg10 (by decide)),
     (h c _ (mem_uc main_arg11 (by decide))).trans (B4_launch m c main_arg11 (by decide)),
     (h c _ (mem_uc main_arg12 (by decide))).trans (B4_launch m c main_arg12 (by decide)),
     (h c _ (mem_uc main_arg13 (by decide))).trans (B4_launch m c main_arg13 (by decide))⟩)
    (Whole.run m ρ)

end Cert.KernelIdeal.Value

end
-- ==== Proof.RefRun.lean ====
/-
  The reference's run read back as the ARMA convolution of its arguments.

  Each of the four layers is printed as  max (A·(h·W) + x·V + row β, 0)  with the bias a length-128 vector placed as
  the one row of a [1, 128] matrix and broadcast down the 10000 rows, and the zero a scalar broadcast to the whole
  matrix.  One lemma reads that spelling, over any operands, as `Arma.layer`; it is used four times.  The two stacks
  are then joined on a new last axis of extent 2, summed over that axis from the literal 0, and divided by the literal
  2: at an entry this is  (0 + (s + s')) / 2 = (1/2)·(s + s').
-/
import proofs.«118575_g50105088475803_cont_8to1c4_614_2_alg».proof.Proof.Gen.ReferenceIdeal.Read
import proofs.«118575_g50105088475803_cont_8to1c4_614_2_alg».proof.Proof.Spec
import proofs.«118575_g50105088475803_cont_8to1c4_614_2_alg».proof.Proof.LibRowMax
import proofs.«118575_g50105088475803_cont_8to1c4_614_2_alg».proof.Proof.LibBiasRow
import proofs.«118575_g50105088475803_cont_8to1c4_614_2_alg».proof.Proof.LibProduct

noncomputable section

namespace Cert.Arma.Ref

open Cert.ReferenceIdeal Cert.ReferenceIdeal.Gen Idealize.ShloMosaic Idealize.ShloMosaic.TcCoe Idealize.SL.Sem
  Idealize.ShloMosaic.StableHlo Idealize.ShloMosaic.ValueIdx Cert.LibProduct

/-! ## The two products the program uses -/

/-- The host's `[10000, 128] × [128, 128]` product is `product`. -/
theorem dot_xw (h : Mat 10000 128) (W : Mat 128 128) :
    Host.dotGeneral (F := Ideal) (φ₁ := .f32) (φ₂ := .f32) dot_S10000x128_S128x128_S10000x128_1_0_0_1_n_n none h W = product h W := by
  simp only [Host.dotGeneral]
  exact dotGeneral_eq dot_S10000x128_S128x128_S10000x128_1_0_0_1_n_n.wf _ _ h W

/-- The host's `[10000, 10000] × [10000, 128]` product is `product`. -/
theorem dot_ah (A : Mat 10000 10000) (P : Mat 10000 128) :
    Host.dotGeneral (F := Ideal) (φ₁ := .f32) (φ₂ := .f32) dot_S10000x10000_S10000x128_S10000x128_1_0_0_1_n_n none A P = product A P := by
  simp only [Host.dotGeneral]
  exact dotGeneral_eq dot_S10000x10000_S10000x128_S10000x128_1_0_0_1_n_n.wf _ _ A P

/-! ## One layer in the host's spelling -/

/-- A layer as the program prints it: the products, the skip product added, the bias vector placed as a row and
    broadcast down the rows added last, and the maximum with the zero word broadcast from a scalar. -/
def hostLayer (A : Mat 10000 10000) (x h : Mat 10000 128) (W V : Mat 128 128) (β : Vc 128) : Mat 10000 128 :=
  maximumf (F := Ideal) (φ := .f32)
    (addf (F := Ideal) (φ := .f32)
      (addf (F := Ideal) (φ := .f32)
        (Host.dotGeneral (F := Ideal) (φ₁ := .f32) (φ₂ := .f32) dot_S10000x10000_S10000x128_S10000x128_1_0_0_1_n_n none A
          (Host.dotGeneral (F := Ideal) (φ₁ := .f32) (φ₂ := .f32) dot_S10000x128_S128x128_S10000x128_1_0_0_1_n_n none h W))
        (Host.dotGeneral (F := Ideal) (φ₁ := .f32) (φ₂ := .f32) dot_S10000x128_S128x128_S10000x128_1_0_0_1_n_n none x V))
      (broadcastInDim S10000x128 ![0, 1] bcast_S1x128_S10000x128_0_1 (broadcastInDim S1x128 ![1] bcast_S128_S1x128_1 β)))
    (broadcastInDim S10000x128 ![] bcast_S_S10000x128 (constant (F := Ideal) S_ .f32 0x00000000#32))

/-- The printed layer is `layer`: at `(p, q)` the clamp reads `max (· + β q) 0` and the two products are `product`. -/
theorem hostLayer_eq (A : Mat 10000 10000) (x h : Mat 10000 128) (W V : Mat 128 128) (β : Vc 128) :
    hostLayer A x h W V β = layer A x h W V β := by
  funext j
  obtain ⟨p, q, rfl⟩ : ∃ (p : Fin 10000) (q : Fin 128), j = ix2 p q := ⟨j 0, j 1, eq_ix2 j⟩
  unfold hostLayer
  refine (Cert.LibBiasRow.host_bias_clamp_apply _ _ bcast_S1x128_S10000x128_0_1 bcast_S_S10000x128 p q).trans ?_
  rw [Cert.LibRowMax.broadcastInDim_b_1b_apply β bcast_S128_S1x128_1 (0 : Fin 1) q, Ideal.ofBits_zero_f32,
    dot_xw h W, dot_xw x V, dot_ah A (product h W)]
  rfl

/-! ## The four layers of the program -/

/-- The first layer of the first stack. -/
theorem v7_eq (x : Mat 10000 128) (A : Mat 10000 10000) (W V : Mat 128 128) (β : Vc 128) :
    Read.val_main_v7 (F := Ideal) x A W V β = layer A x x W V β :=
  hostLayer_eq A x x W V β

/-- The first stack: its second layer is fed with the first. -/
theorem v15_eq (x : Mat 10000 128) (A : Mat 10000 10000) (W₀ V₀ : Mat 128 128) (β₀ : Vc 128) (W₁ V₁ : Mat 128 128)
    (β₁ : Vc 128) :
    Read.val_main_v15 (F := Ideal) x A W₀ V₀ β₀ W₁ V₁ β₁ = stack A x W₀ V₀ β₀ W₁ V₁ β₁ := by
  have e : Read.val_main_v15 (F := Ideal) x A W₀ V₀ β₀ W₁ V₁ β₁
      = hostLayer A x (Read.val_main_v7 (F := Ideal) x A W₀ V₀ β₀) W₁ V₁ β₁ := rfl
  rw [e, v7_eq, hostLayer_eq]
  rfl

/-- The first layer of the second stack. -/
theorem v23_eq (x : Mat 10000 128) (A : Mat 10000 10000) (W V : Mat 128 128) (β : Vc 128) :
    Read.val_main_v23 (F := Ideal) x A W V β = layer A x x W V β :=
  hostLayer_eq A x x W V β

/-- The second stack. -/
theorem v31_eq (x : Mat 10000 128) (A : Mat 10000 10000) (W₀ V₀ : Mat 128 128) (β₀ : Vc 128) (W₁ V₁ : Mat 128 128)
    (β₁ : Vc 128) :
    Read.val_main_v31 (F := Ideal) x A W₀ V₀ β₀ W₁ V₁ β₁ = stack A x W₀ V₀ β₀ W₁ V₁ β₁ := by
  have e : Read.val_main_v31 (F := Ideal) x A W₀ V₀ β₀ W₁ V₁ β₁
      = hostLayer A x (Read.val_main_v23 (F := Ideal) x A W₀ V₀ β₀) W₁ V₁ β₁ := rfl
  rw [e, v23_eq, hostLayer_eq]
  rfl

/-! ## The literal divisor -/

/-- The word `0x40000000` denotes the real `2`. -/
theorem ofBits_two : Ideal.ofBits .f32 0x40000000#32 = ((2 : ℝ) : EReal) := by
  simp [Ideal.ofBits, Ideal.ieee, -EReal.coe_mul]; norm_num

/-! ## Two matrices joined on a new last axis of extent 2 -/

/-- Coordinate 0 of the joined axis reads the first matrix. -/
theorem join_fst (s t : Mat 10000 128) (p : Fin 10000) (q : Fin 128) :
    concatenate S10000x128x2 2
        [⟨S10000x128x1, broadcastInDim S10000x128x1 ![0, 1] bcast_S10000x128_S10000x128x1_0_1 s⟩,
         ⟨S10000x128x1, broadcastInDim S10000x128x1 ![0, 1] bcast_S10000x128_S10000x128x1_0_1 t⟩]
        concatenates_S10000x128x1_S10000x128x1_S10000x128x2_d2 (Read.idx_main_v35 (ix2 p q) 0)
      = s (ix2 p q) := by
  refine (concatenate_pair_apply_left (2 : Fin S10000x128x2.rank) _ _
    concatenates_S10000x128x1_S10000x128x1_S10000x128x2_d2 (Read.idx_main_v35 (ix2 p q) 0) rfl
    (ix3 p q (0 : Fin 1)) (fun b => by match b with | ⟨0, _⟩ => rfl | ⟨1, _⟩ => rfl | ⟨2, _⟩ => rfl)).trans ?_
  refine broadcastInDim_apply _ bcast_S10000x128_S10000x128x1_0_1 s (ix3 p q (0 : Fin 1)) (ix2 p q) (fun a => ?_)
  match a with
  | ⟨0, _⟩ => show p.val = if (10000 : Nat) = 1 then 0 else p.val; rw [if_neg (by decide)]
  | ⟨1, _⟩ => show q.val = if (128 : Nat) = 1 then 0 else q.val; rw [if_neg (by decide)]

/-- Coordinate 1 of the joined axis reads the second matrix. -/
theorem join_snd (s t : Mat 10000 128) (p : Fin 10000) (q : Fin 128) :
    concatenate S10000x128x2 2
        [⟨S10000x128x1, broadcastInDim S10000x128x1 ![0, 1] bcast_S10000x128_S10000x128x1_0_1 s⟩,
         ⟨S10000x128x1, broadcastInDim S10000x128x1 ![0, 1] bcast_S10000x128_S10000x128x1_0_1 t⟩]
        concatenates_S10000x128x1_S10000x128x1_S10000x128x2_d2 (Read.idx_main_v35 (ix2 p q) 1)
      = t (ix2 p q) := by
  refine (concatenate_pair_apply_right (2 : Fin S10000x128x2.rank) _ _
    concatenates_S10000x128x1_S10000x128x1_S10000x128x2_d2 (Read.idx_main_v35 (ix2 p q) 1) rfl rfl
    (ix3 p q (0 : Fin 1))
    (fun b hb => by
      match b with
      | ⟨0, _⟩ => rfl
      | ⟨1, _⟩ => rfl
      | ⟨2, _⟩ => exact absurd rfl hb)
    rfl).trans ?_
  refine broadcastInDim_apply _ bcast_S10000x128_S10000x128x1_0_1 t (ix3 p q (0 : Fin 1)) (ix2 p q) (fun a => ?_)
  match a with
  | ⟨0, _⟩ => show p.val = if (10000 : Nat) = 1 then 0 else p.val; rw [if_neg (by decide)]
  | ⟨1, _⟩ => show q.val = if (128 : Nat) = 1 then 0 else q.val; rw [if_neg (by decide)]

/-! ## The result -/

/-- The program's result is half the sum of the two stacks. -/
theorem result_eq (x : Mat 10000 128) (A : Mat 10000 10000) (W00 V00 : Mat 128 128) (b00 : Vc 128) (W01 V01 : Mat 128 128)
    (b01 : Vc 128) (W10 V10 : Mat 128 128) (b10 : Vc 128) (W11 V11 : Mat 128 128) (b11 : Vc 128) :
    Read.val_main_v37 (F := Ideal) x A W00 V00 b00 W01 V01 b01 W10 V10 b10 W11 V11 b11
      = Cert.Arma.out A x W00 V00 b00 W01 V01 b01 W10 V10 b10 W11 V11 b11 := by
  funext j
  obtain ⟨p, q, rfl⟩ : ∃ (p : Fin 10000) (q : Fin 128), j = ix2 p q := ⟨j 0, j 1, eq_ix2 j⟩
  rw [Read.val_main_v37_apply, Read.val_main_v36_apply, Read.val_main_cst_0_apply, Read.val_main_v35_apply,
    Read.val_main_cst_apply, Fin.sum_univ_two]
  have h0 : Read.val_main_v34 (F := Ideal) x A W00 V00 b00 W01 V01 b01 W10 V10 b10 W11 V11 b11
      (Read.idx_main_v35 (ix2 p q) 0) = stack A x W00 V00 b00 W01 V01 b01 (ix2 p q) :=
    (join_fst _ _ p q).trans (congrFun (v15_eq x A W00 V00 b00 W01 V01 b01) (ix2 p q))
  have h1 : Read.val_main_v34 (F := Ideal) x A W00 V00 b00 W01 V01 b01 W10 V10 b10 W11 V11 b11
      (Read.idx_main_v35 (ix2 p q) 1) = stack A x W10 V10 b10 W11 V11 b11 (ix2 p q) :=
    (join_snd _ _ p q).trans (congrFun (v31_eq x A W10 V10 b10 W11 V11 b11) (ix2 p q))
  rw [h0, h1]
  show Ideal.div (Ideal.ofBits .f32 0x00000000#32 + (stack A x W00 V00 b00 W01 V01 b01 (ix2 p q)
      + stack A x W10 V10 b10 W11 V11 b11 (ix2 p q))) (Ideal.ofBits .f32 0x40000000#32) = _
  rw [Ideal.ofBits_zero_f32, zero_add, ofBits_two, Ideal.div_coe (by norm_num : (2 : ℝ) ≠ 0), mul_comm]
  rfl

/-! ## The run -/

/-- Every weakly fair execution of the reference ends with its result buffer at the ARMA convolution of the
    arguments' launch contents, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v37)
        = Cert.Arma.out
          (m ((c.tc : Thread nD τ).loc main_arg1))
          (m ((c.tc : Thread nD τ).loc main_arg0))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run (Cert.ReferenceIdeal.defs (F := Ideal)) _ _).mono
    (fun _ h c => ⟨(h c).1.trans ((Read.val_main_v37_eq (F := Ideal) _ _ _ _ _ _ _ _ _ _ _ _ _ _).trans
      (result_eq _ _ _ _ _ _ _ _ _ _ _ _ _ _)), (h c).2⟩)
    (Cert.ReferenceIdeal.Value.run (F := Ideal) m ρ)

end Cert.Arma.Ref

end
-- ==== Proof.lean ====
/-
  The certificate of the ARMA graph convolution kernel against its reference.

  Both programs compute, on extended reals,
      out = ½ · ( stack₀ + stack₁ ),   stack_k = layer(layer(x; W_k0, V_k0, b_k0); W_k1, V_k1, b_k1),
      layer(h; W, V, b) = max (A·(h·W) + x·V + b, 0).
  The reference does so layer by layer.  The kernel lays the two stacks' weights side by side and passes over the
  filter matrix A twice: one product x·[W00 | W10] and one skip term x·[V00 | V10 | V01 | V11] + bias row, a first pass
  max (A·P + S, 0) whose column halves are multiplied by W01 and W11 and laid side by side again, and a second pass
  whose column halves are the two stacks.  A product against matrices laid side by side is the products laid side by
  side, the bias may be added to the skip term before or after the filtered term (addition is associative), and a
  division by 2 is a multiplication by ½ on every extended real: the two results are one function of the arguments,
  with no hypothesis on them.

  The three frames: each program runs to the end, faults nowhere and leaves its arguments as launched — for the two
  kernel programs from the run of @main as four host operations and three calls (the same text at both number
  formats), for the reference from its run.  The idealization rewrote nothing.
-/
import proofs.«118575_g50105088475803_cont_8to1c4_614_2_alg».proof.Defs
import proofs.«118575_g50105088475803_cont_8to1c4_614_2_alg».proof.Proof.Gen.Kernel
import proofs.«118575_g50105088475803_cont_8to1c4_614_2_alg».proof.Proof.Gen.KernelIdeal
import proofs.«118575_g50105088475803_cont_8to1c4_614_2_alg».proof.Proof.Gen.ReferenceIdeal
import proofs.«118575_g50105088475803_cont_8to1c4_614_2_alg».proof.Proof.Gen.Pre_finite_inputs
import proofs.«118575_g50105088475803_cont_8to1c4_614_2_alg».proof.Proof.KWhole
import proofs.«118575_g50105088475803_cont_8to1c4_614_2_alg».proof.Proof.KIValue
import proofs.«118575_g50105088475803_cont_8to1c4_614_2_alg».proof.Proof.RefRun

noncomputable section

namespace Cert.Proof

open Idealize.ShloMosaic Idealize.SL.Sem

theorem frame_k : Cert.frame_Kernel := fun m ρ _ => Cert.Kernel.Whole.frame (F := Bits) m ρ

theorem frame_ki : Cert.frame_KernelIdeal := fun m ρ _ => Cert.KernelIdeal.Whole.frame (F := Ideal) m ρ

theorem frame_ri : Cert.frame_ReferenceIdeal := fun m ρ _ =>
  (θ_run Cert.ReferenceIdeal.defs _ _).mono (fun _ h c => (h c).2) (Cert.Arma.Ref.run m ρ)

/-- The idealization rewrote no operation. -/
theorem preserves : Cert.preserves_Kernel_KernelIdeal := trivial

/-- From memories agreeing on the arguments both programs end with the result array at the ARMA convolution of the
    arguments. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩) (Cert.Arma.Ref.run m' ρ')
  obtain ⟨a0, a1, a2, a3, a4, a5, a6, a7, a8, a9, a10, a11, a12, a13⟩ := hagree c
  rw [a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
